-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S1200000 : Shape := ⟨1, ![1200000]⟩
abbrev S2x64 : Shape := ⟨2, ![2, 64]⟩
abbrev S64 : Shape := ⟨1, ![64]⟩
abbrev S64x64 : Shape := ⟨2, ![64, 64]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x2 .f32) (main_arg1 : IVec S1200000 32) (main_arg2 : IVec S1200000 32) (main_arg3 : FVec F S2x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg3
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x2 : Shape := ⟨2, ![100000, 2]⟩
abbrev S1200000 : Shape := ⟨1, ![1200000]⟩
abbrev S2x64 : Shape := ⟨2, ![2, 64]⟩
abbrev S64 : Shape := ⟨1, ![64]⟩
abbrev S64x64 : Shape := ⟨2, ![64, 64]⟩
abbrev S_ : Shape := ⟨0, ![]⟩
abbrev S1200000x1 : Shape := ⟨2, ![1200000, 1]⟩
abbrev S1200000x2 : Shape := ⟨2, ![1200000, 2]⟩
abbrev S1x64 : Shape := ⟨2, ![1, 64]⟩
abbrev S100000x64 : Shape := ⟨2, ![100000, 64]⟩
abbrev S5000x2 : Shape := ⟨2, ![5000, 2]⟩
abbrev S5000x64 : Shape := ⟨2, ![5000, 64]⟩
abbrev S1200000x64 : Shape := ⟨2, ![1200000, 64]⟩

abbrev nBuf : Space → Nat
  | .hbm => 71
  | .vmem => 34
  | .smem => 0
  | _ => 0

abbrev bufTy : (tb : Table) → Fin (tcTables nBuf tb) → BufTy
  | .hbm, ⟨0, _⟩ => ⟨S100000x2, .f32⟩
  | .hbm, ⟨1, _⟩ => ⟨S1200000, .i32⟩
  | .hbm, ⟨2, _⟩ => ⟨S1200000, .i32⟩
  | .hbm, ⟨3, _⟩ => ⟨S2x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x2, .f32⟩
  | .hbm, ⟨24, _⟩ => ⟨S_, .f32⟩
  | .hbm, ⟨25, _⟩ => ⟨S100000x2, .f32⟩
  | .hbm, ⟨26, _⟩ => ⟨S1200000x1, .i32⟩
  | .hbm, ⟨27, _⟩ => ⟨S100000x2, .f32⟩
  | .hbm, ⟨28, _⟩ => ⟨S2x64, .bf16⟩
  | .hbm, ⟨29, _⟩ => ⟨S64x64, .bf16⟩
  | .hbm, ⟨30, _⟩ => ⟨S1x64, .f32⟩
  | .hbm, ⟨31, _⟩ => ⟨S1x64, .f32⟩
  | .hbm, ⟨32, _⟩ => ⟨S100000x64, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .hbm, ⟨46, _⟩ => ⟨S64x64, .bf16⟩
  | .hbm, ⟨47, _⟩ => ⟨S64x64, .bf16⟩
  | .hbm, ⟨48, _⟩ => ⟨S1x64, .f32⟩
  | .hbm, ⟨49, _⟩ => ⟨S1x64, .f32⟩
  | .hbm, ⟨50, _⟩ => ⟨S100000x64, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000x64, .f32⟩
  | .hbm, ⟨60, _⟩ => ⟨S_, .f32⟩
  | .hbm, ⟨61, _⟩ => ⟨S100000x64, .f32⟩
  | .hbm, ⟨62, _⟩ => ⟨S1200000x1, .i32⟩
  | .hbm, ⟨63, _⟩ => ⟨S100000x64, .f32⟩
  | .hbm, ⟨64, _⟩ => ⟨S64x64, .bf16⟩
  | .hbm, ⟨65, _⟩ => ⟨S64x64, .bf16⟩
  | .hbm, ⟨66, _⟩ => ⟨S1x64, .f32⟩
  | .hbm, ⟨67, _⟩ => ⟨S1x64, .f32⟩
  | .hbm, ⟨68, _⟩ => ⟨S100000x64, .f32⟩
  | .hbm, ⟨69, _⟩ => ⟨S1x64, .f32⟩
  | .hbm, ⟨70, _⟩ => ⟨S64, .f32⟩
  | .local _ .vmem, ⟨0, _⟩ => ⟨S5000x2, .f32⟩
  | .local _ .vmem, ⟨1, _⟩ => ⟨S5000x2, .f32⟩
  | .local _ .vmem, ⟨2, _⟩ => ⟨S5000x2, .f32⟩
  | .local _ .vmem, ⟨3, _⟩ => ⟨S5000x2, .f32⟩
  | .local _ .vmem, ⟨4, _⟩ => ⟨S2x64, .bf16⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .bf16⟩
  | .local _ .vmem, ⟨15, _⟩ => ⟨S1x64, .f32⟩
  | .local _ .vmem, ⟨16, _⟩ => ⟨S64x64, .bf16⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .bf16⟩
  | .local _ .vmem, ⟨25, _⟩ => ⟨S1x64, .f32⟩
  | .local _ .vmem, ⟨26, _⟩ => ⟨S64x64, .bf16⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x2 : S_.BroadcastsInDim S100000x2 (![] : Fin 0 → Fin S100000x2.rank)
  bitsLt_bf16_f32 : FTy.bits .bf16 < FTy.bits .f32
  shapeCasts_S64_S1x64 : S64.ShapeCasts S1x64
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  reduces_S5000x64_S64 : S5000x64.Reduces [0] S64
  shapeCasts_S1x64_S64 : S1x64.ShapeCasts S64
  gather_S100000x2_S1200000x1_S1200000x2_1_0_n_n_0_1_12_wf : GatherDims.WF S100000x2 S1200000x1 S1200000x2 [1] [0] [] [0] [] 1 ![1, 2]
  scatter_S100000x2_S1200000x1_S1200000x2_1_0_0_1_wf : ScatterDims.WF S100000x2 S1200000x1 S1200000x2 [1] [0] [0] 1
  dot_S5000x2_S2x64_S5000x64_1_0_0_1_n_n_wf : DotDims.WF S5000x2 S2x64 S5000x64 [1] [0] [0] [1] [] []
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .bf16 = 32 ∨ (Rect.block (s := S2x64) S2x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .bf16 = 32 ∨ (Rect.block (s := S64x64) S64x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)

variable [Facts₀]

def gather_S100000x2_S1200000x1_S1200000x2_1_0_n_n_0_1_12 : GatherDims S100000x2 S1200000x1 S1200000x2 where
  offsetDims := [1]
  collapsedSliceDims := [0]
  operandBatchingDims := []
  startIndicesBatchingDims := []
  startIndexMap := [0]
  indexVectorDim := 1
  sliceSizes := ![1, 2]
  wf := gather_S100000x2_S1200000x1_S1200000x2_1_0_n_n_0_1_12_wf
def scatter_S100000x2_S1200000x1_S1200000x2_1_0_0_1 : ScatterDims S100000x2 S1200000x1 S1200000x2 where
  updateWindowDims := [1]
  insertedWindowDims := [0]
  scatterDimsToOperandDims := [0]
  indexVectorDim := 1
  wf := scatter_S100000x2_S1200000x1_S1200000x2_1_0_0_1_wf
def dot_S5000x2_S2x64_S5000x64_1_0_0_1_n_n : DotDims S5000x2 S2x64 S5000x64 where
  lhsContracting := [1]
  rhsContracting := [0]
  lhsNonContracting := [0]
  rhsNonContracting := [1]
  lhsBatch := []
  rhsBatch := []
  wf := dot_S5000x2_S2x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v44) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1x64.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

class Facts : Prop extends Facts₀ where

variable [Facts]
-- ==== ReferenceIdeal.lean ====
abbrev S100000x2 : Shape := ⟨2, ![100000, 2]⟩
abbrev S1200000 : Shape := ⟨1, ![1200000]⟩
abbrev S2x64 : Shape := ⟨2, ![2, 64]⟩
abbrev S64 : Shape := ⟨1, ![64]⟩
abbrev S64x64 : Shape := ⟨2, ![64, 64]⟩
abbrev S_ : Shape := ⟨0, ![]⟩
abbrev S1200000x1 : Shape := ⟨2, ![1200000, 1]⟩
abbrev S1200000x2 : Shape := ⟨2, ![1200000, 2]⟩
abbrev S100000x64 : Shape := ⟨2, ![100000, 64]⟩
abbrev S1x64 : Shape := ⟨2, ![1, 64]⟩
abbrev S1200000x64 : Shape := ⟨2, ![1200000, 64]⟩

abbrev nBuf : Space → Nat
  | .hbm => 104
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S1200000, .i32⟩
  | .hbm, ⟨2, _⟩ => ⟨S1200000, .i32⟩
  | .hbm, ⟨3, _⟩ => ⟨S2x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x2, .f32⟩
  | .hbm, ⟨24, _⟩ => ⟨S_, .f32⟩
  | .hbm, ⟨25, _⟩ => ⟨S100000x2, .f32⟩
  | .hbm, ⟨26, _⟩ => ⟨S1200000x1, .i32⟩
  | .hbm, ⟨27, _⟩ => ⟨S100000x2, .f32⟩
  | .hbm, ⟨28, _⟩ => ⟨S100000x2, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S1200000x64, .f32⟩
  | .hbm, ⟨52, _⟩ => ⟨S_, .f32⟩
  | .hbm, ⟨53, _⟩ => ⟨S100000x64, .f32⟩
  | .hbm, ⟨54, _⟩ => ⟨S1200000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1200000, .i32⟩
  | .hbm, ⟨73, _⟩ => ⟨S1200000, .i1⟩
  | .hbm, ⟨74, _⟩ => ⟨S_, .i32⟩
  | .hbm, ⟨75, _⟩ => ⟨S1200000, .i32⟩
  | .hbm, ⟨76, _⟩ => ⟨S1200000, .i32⟩
  | .hbm, ⟨77, _⟩ => ⟨S1200000, .i32⟩
  | .hbm, ⟨78, _⟩ => ⟨S1200000x1, .i32⟩
  | .hbm, ⟨79, _⟩ => ⟨S1200000x64, .f32⟩
  | .hbm, ⟨80, _⟩ => ⟨S_, .f32⟩
  | .hbm, ⟨81, _⟩ => ⟨S100000x64, .f32⟩
  | .hbm, ⟨82, _⟩ => ⟨S1200000x1, .i32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_cst : Ref sig .tc := ⟨.hbm, 40, rfl⟩
abbrev main_call1_v0 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call2_cst : Ref sig .tc := ⟨.hbm, 61, rfl⟩
abbrev main_call2_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call3_cst : Ref sig .tc := ⟨.hbm, 68, rfl⟩
abbrev main_call3_v0 : Ref sig .tc := ⟨.hbm, 69, rfl⟩
abbrev main_v41 : Ref sig .tc := ⟨.hbm, 70, rfl⟩
abbrev main_c_4 : Ref sig .tc := ⟨.hbm, 71, rfl⟩
abbrev main_v42 : Ref sig .tc := ⟨.hbm, 72, rfl⟩
abbrev main_v43 : Ref sig .tc := ⟨.hbm, 73, rfl⟩
abbrev main_c_5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call4_cst : Ref sig .tc := ⟨.hbm, 89, rfl⟩
abbrev main_call4_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call5_cst : Ref sig .tc := ⟨.hbm, 96, rfl⟩
abbrev main_call5_v0 : Ref sig .tc := ⟨.hbm, 97, rfl⟩
abbrev main_v62 : Ref sig .tc := ⟨.hbm, 98, rfl⟩
abbrev main_cst_7 : Ref sig .tc := ⟨.hbm, 99, rfl⟩
abbrev main_v63 : Ref sig .tc := ⟨.hbm, 100, rfl⟩
abbrev main_cst_8 : Ref sig .tc := ⟨.hbm, 101, rfl⟩
abbrev main_v64 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x2 : S_.BroadcastsInDim S100000x2 (![] : Fin 0 → Fin S100000x2.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x2_S1200000x1_S1200000x2_1_0_n_n_0_1_12_wf : GatherDims.WF S100000x2 S1200000x1 S1200000x2 [1] [0] [] [0] [] 1 ![1, 2]
  scatter_S100000x2_S1200000x1_S1200000x2_1_0_0_1_wf : ScatterDims.WF S100000x2 S1200000x1 S1200000x2 [1] [0] [0] 1
  dot_S100000x2_S2x64_S100000x64_1_0_0_1_n_n_wf : DotDims.WF S100000x2 S2x64 S100000x64 [1] [0] [0] [1] [] []
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def gather_S100000x2_S1200000x1_S1200000x2_1_0_n_n_0_1_12 : GatherDims S100000x2 S1200000x1 S1200000x2 where
  offsetDims := [1]
  collapsedSliceDims := [0]
  operandBatchingDims := []
  startIndicesBatchingDims := []
  startIndexMap := [0]
  indexVectorDim := 1
  sliceSizes := ![1, 2]
  wf := gather_S100000x2_S1200000x1_S1200000x2_1_0_n_n_0_1_12_wf
def scatter_S100000x2_S1200000x1_S1200000x2_1_0_0_1 : ScatterDims S100000x2 S1200000x1 S1200000x2 where
  updateWindowDims := [1]
  insertedWindowDims := [0]
  scatterDimsToOperandDims := [0]
  indexVectorDim := 1
  wf := scatter_S100000x2_S1200000x1_S1200000x2_1_0_0_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.K.BodyA0.lean ====
/- The class-A half of region 0 of @main (custom_call 0, `cc0__gin_layer_kernel`, pipeline 0), at any `F` and at a
   PARAMETER `V` — the TensorCore's buffer contents when the region is entered: each window's block at a point
   (`iblk0`), the output window's staging buffer after the body as a function of the six input blocks (`out0_6`), the
   body's triple on whole staging memrefs (`sound_kernel0`), the pipeline's proof data (`dat0`) and its body
   obligation (`body_obligation0`). The body reads its six input blocks whole, reads the output block (a value it
   never uses) and overwrites the output block whole with the payload `k0_pay1` of the six blocks read. -/
import proofs.«110569_j70806830841987_1_alg».proof.Proof.Gen.Kernel.Launch
import proofs.«110569_j70806830841987_1_alg».proof.Proof.Gen.Kernel.Skeleton
import proofs.«110569_j70806830841987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S5000x2 := Rect.unit (s := S5000x2) ![0, 0] S5000x2.size inb_S5000x2_S5000x2_0_0
abbrev r0_1 : Rect S2x64 := Rect.unit (s := S2x64) ![0, 0] S2x64.size inb_S2x64_S2x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S5000x64 := Rect.unit (s := S5000x64) ![0, 0] S5000x64.size inb_S5000x64_S5000x64_0_0

/-! ## What the body leaves in the output window's buffer -/

/-- Window 6's staging buffer after the body, from the six input windows' blocks: its one store, of the whole block. -/
def out0_6 (x0 : Vec F S5000x2 .f32) (x1 : Vec F S5000x2 .f32) (x2 : Vec F S2x64 .bf16) (x3 : Vec F S1x64 .f32) (x4 : Vec F S64x64 .bf16) (x5 : Vec F S1x64 .f32) : Vec F S5000x64 .f32 :=
  View.canon [⟨r0_4, k0_pay1 (View.ld x0 r0_0) (View.ld x1 r0_0) (View.ld x2 r0_1) (View.ld x3 r0_2) (View.ld x4 r0_3) (View.ld x5 r0_2)⟩]

/-- The store tiles the buffer, so it covers it. -/
theorem cover0_6 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

/-! ## The body's triple -/

set_option maxHeartbeats 1000000 in
/-- The kernel body on whole staging memrefs, the inputs' at read contents `xW` and the output's at anything, runs to
    the continuation holding the inputs' as they were and the output's at `out0_6` of the inputs'. -/
theorem sound_kernel0 (c : Dev nD) (E : Set ℕ) (i : grid0.Coords)
    (arg1 : Memref sig .tc .vmem S5000x2 .f32) (harg1 : arg1.IsWhole)
    (arg2 : Memref sig .tc .vmem S5000x2 .f32) (harg2 : arg2.IsWhole)
    (arg3 : Memref sig .tc .vmem S2x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S5000x64 .f32) (harg7 : arg7.IsWhole)
    (x0 : Vec F S5000x2 .f32) (x1 : Vec F S5000x2 .f32) (x2 : Vec F S2x64 .bf16) (x3 : Vec F S1x64 .f32) (x4 : Vec F S64x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the six input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.BodyA1.lean ====
/- The class-A half of region 1 of @main (custom_call 1, `cc1__gin_layer_kernel`, pipeline 1), at any `F` and at a
   PARAMETER `V` — the TensorCore's buffer contents when the region is entered: each window's block at a point
   (`iblk1`), the output window's staging buffer after the body as a function of the six input blocks (`out1_6`), the
   body's triple on whole staging memrefs (`sound_kernel1`), the pipeline's proof data (`dat1`) and its body
   obligation (`body_obligation1`). The body reads its six input blocks whole, reads the output block (a value it
   never uses) and overwrites the output block whole with the payload `k1_pay1` of the six blocks read. -/
import proofs.«110569_j70806830841987_1_alg».proof.Proof.Gen.Kernel.Launch
import proofs.«110569_j70806830841987_1_alg».proof.Proof.Gen.Kernel.Skeleton
import proofs.«110569_j70806830841987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in the output window's buffer -/

/-- Window 6's staging buffer after the body, from the six input windows' blocks: its one store, of the whole block. -/
def out1_6 (x0 : Vec F S5000x64 .f32) (x1 : Vec F S5000x64 .f32) (x2 : Vec F S64x64 .bf16) (x3 : Vec F S1x64 .f32) (x4 : Vec F S64x64 .bf16) (x5 : Vec F S1x64 .f32) : Vec F S5000x64 .f32 :=
  View.canon [⟨r1_0, k1_pay1 (View.ld x0 r1_0) (View.ld x1 r1_0) (View.ld x2 r1_1) (View.ld x3 r1_2) (View.ld x4 r1_1) (View.ld x5 r1_2)⟩]

/-- The store tiles the buffer, so it covers it. -/
theorem cover1_6 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at read contents `xW` and the output's at anything, runs to
    the continuation holding the inputs' as they were and the output's at `out1_6` of the inputs'. -/
theorem sound_kernel1 (c : Dev nD) (E : Set ℕ) (i : grid1.Coords)
    (arg1 : Memref sig .tc .vmem S5000x64 .f32) (harg1 : arg1.IsWhole)
    (arg2 : Memref sig .tc .vmem S5000x64 .f32) (harg2 : arg2.IsWhole)
    (arg3 : Memref sig .tc .vmem S64x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S5000x64 .f32) (harg7 : arg7.IsWhole)
    (x0 : Vec F S5000x64 .f32) (x1 : Vec F S5000x64 .f32) (x2 : Vec F S64x64 .bf16) (x3 : Vec F S1x64 .f32) (x4 : Vec F S64x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gin_layer_kernel i arg1 harg1 arg2 harg2 arg3 harg3 arg4 harg4 arg5 harg5 arg6 harg6 arg7 harg7) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the six input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.BodyA2.lean ====
/- The class-A half of region 2 of @main (custom_call 2, `cc2__gin_layer_kernel`, pipeline 2), at any `F` and at a
   PARAMETER `V` — the TensorCore's buffer contents when the region is entered: each window's block at a point
   (`iblk2`), the output window's staging buffer after the body as a function of the six input blocks (`out2_6`), the
   body's triple on whole staging memrefs (`sound_kernel2`), the pipeline's proof data (`dat2`) and its body
   obligation (`body_obligation2`). The body reads its six input blocks whole, reads the output block (a value it
   never uses) and overwrites the output block whole with the payload `k2_pay1` of the six blocks read. -/
import proofs.«110569_j70806830841987_1_alg».proof.Proof.Gen.Kernel.Launch
import proofs.«110569_j70806830841987_1_alg».proof.Proof.Gen.Kernel.Skeleton
import proofs.«110569_j70806830841987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole block -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in the output window's buffer -/

/-- Window 6's staging buffer after the body, from the six input windows' blocks: its one store, of the whole block. -/
def out2_6 (x0 : Vec F S5000x64 .f32) (x1 : Vec F S5000x64 .f32) (x2 : Vec F S64x64 .bf16) (x3 : Vec F S1x64 .f32) (x4 : Vec F S64x64 .bf16) (x5 : Vec F S1x64 .f32) : Vec F S5000x64 .f32 :=
  View.canon [⟨r2_0, k2_pay1 (View.ld x0 r2_0) (View.ld x1 r2_0) (View.ld x2 r2_1) (View.ld x3 r2_2) (View.ld x4 r2_1) (View.ld x5 r2_2)⟩]

/-- The store tiles the buffer, so it covers it. -/
theorem cover2_6 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `xW` and the output's at anything, runs to
    the continuation holding the inputs' as they were and the output's at `out2_6` of the inputs'. -/
theorem sound_kernel2 (c : Dev nD) (E : Set ℕ) (i : grid2.Coords)
    (arg1 : Memref sig .tc .vmem S5000x64 .f32) (harg1 : arg1.IsWhole)
    (arg2 : Memref sig .tc .vmem S5000x64 .f32) (harg2 : arg2.IsWhole)
    (arg3 : Memref sig .tc .vmem S64x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S5000x64 .f32) (harg7 : arg7.IsWhole)
    (x0 : Vec F S5000x64 .f32) (x1 : Vec F S5000x64 .f32) (x2 : Vec F S64x64 .bf16) (x3 : Vec F S1x64 .f32) (x4 : Vec F S64x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and the output's at `out2_6` of the six input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.BodyR3Runs.lean ====
/- The class-R half of region 3 (the mean-pool kernel), part one: the body's branch conditions decided over the grid,
   the whole-block accesses, and the body's triple in each of its three control cases — A (the first point: the scratch
   accumulator is zeroed, then the block's column sums are added to it), B (a middle point: the column sums are added),
   C (the last point: the column sums are added, then the accumulator scaled is stored into the output block).
   Every store of the body is a whole-block store, so each buffer it stores into ends at the last stored payload. -/
import proofs.«110569_j70806830841987_1_alg».proof.Proof.Gen.Kernel.Launch
import proofs.«110569_j70806830841987_1_alg».proof.Proof.Gen.Kernel.Skeleton
import proofs.«110569_j70806830841987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional, from the grid coordinates. -/
abbrev b_cond3_0 (i : grid3.Coords) : Prop := (Scalar.cmpi .ne (Scalar.extui (Scalar.cmpi .eq (BitVec.ofNat 32 (i 0).val) 0#32)) 0#32) = 1#1
/-- It holds at the first point only. -/
theorem b_hcond3_0 : ∀ t : Fin cfg3.N, b_cond3_0 (grid3.coords t) ↔ t.val = 0 :=
  (by decide +kernel : ∀ t : Fin grid3.N, b_cond3_0 (grid3.coords t) ↔ t.val = 0)

/-- The condition of the body's second conditional. -/
abbrev b_cond3_1 (i : grid3.Coords) : Prop := k3_cond2 i = 1#1
/-- It holds at the last point only. -/
theorem b_hcond3_1 : ∀ t : Fin cfg3.N, b_cond3_1 (grid3.coords t) ↔ t.val = 19 :=
  (by decide +kernel : ∀ t : Fin grid3.N, b_cond3_1 (grid3.coords t) ↔ t.val = 19)

/-- The whole-block rectangles of the body's accesses. -/
abbrev b_rS : Rect S1x64 := Rect.unit (s := S1x64) ![0, 0] S1x64.size inb_S1x64_S1x64_0_0
abbrev b_rB : Rect S5000x64 := Rect.unit (s := S5000x64) ![0, 0] S5000x64.size inb_S5000x64_S5000x64_0_0

/-! ## Whole-block accesses

A unit-stride rectangle at offsets zero of the shape's own sizes is the whole block: a load through it reads the
contents, and a write through it leaves its payload. -/

theorem b_idx_whole {s : Shape} {off : Fin s.rank → ℕ} (inb : ∀ a, off a + s.size a ≤ s.size a) (hoff : ∀ a, off a = 0)
    (x : (Rect.unit off s.size inb).shape.Idx) : (Rect.unit off s.size inb).toLoadRect.idx x = (x : s.Idx) :=
  funext fun a => Fin.ext (by
    show off a + 1 * (x a).val = (x a).val
    rw [hoff a]; omega)

theorem b_readAt_whole {sig : RefSig} {κ : Kind} {sp : Space} {s : Shape} {e : EltTy} {Val : EltTy → Type}
    (v : View sig κ sp s e) (f : v.ty.Contents Val)
    {off : Fin s.rank → ℕ} (inb : ∀ a, off a + s.size a ≤ s.size a) (hoff : ∀ a, off a = 0) :
    v.readAt Val (Rect.unit off s.size inb).toLoadRect f = fun x => v.read Val f x :=
  funext fun x => by rw [View.readAt_apply, b_idx_whole inb hoff]

theorem b_read_writes_whole {sig : RefSig} {κ : Kind} {sp : Space} {s : Shape} {e : EltTy} {Val : EltTy → Type}
    (v : View sig κ sp s e) (f : v.ty.Contents Val)
    {off : Fin s.rank → ℕ} (inb : ∀ a, off a + s.size a ≤ s.size a) (hoff : ∀ a, off a = 0)
    (w : (Rect.unit off s.size inb).shape.Idx → Val e) (L : List (View.Piece Val s e)) :
    v.read Val (v.writes Val f ((⟨Rect.unit off s.size inb, w⟩ : View.Piece Val s e) :: L)) = fun y => w y :=
  funext fun y => View.read_writes_cons_unit_of_mem v f inb w L y y rfl fun a => by rw [hoff a, Nat.zero_add]

theorem b_off00 : ∀ a : Fin 2, (![0, 0] : Fin 2 → ℕ) a = 0 := Fin.forall_fin_two.mpr ⟨rfl, rfl⟩

/-! ## The body's triple, case by case

The input block is held at read contents `x0`; the scratch at anything (case A) or at what the point before left
(`xs0`); the output block is handed back untouched where the body stores nothing into it (`xi1`, cases A and B). -/

set_option maxHeartbeats 1000000 in
/-- Case A (first conditional taken, second not): the scratch ends at the block's column sums added to zero. -/
theorem b_run3_A (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : b_cond3_0 i) (hc1 : ¬b_cond3_1 i)
    (x0 : Vec F S5000x64 .f32) (xi1 : Vec F S1x64 .f32) (E : Set ℕ) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1 ∗ owns (c : Thread nD τ) arg3 fullShare (k3_pay2 (k3_pay1 (F := F)) x0)) -∗ K ⟨⟩))
      ⊢ wp frame (wpE (defs₀ (F := F)) Variants.none c none) E (cc3__mean_pool_kernel i arg1 harg1 arg2 harg2 arg3 harg3) K := by
  simp only [cc3__mean_pool_kernel_eq_skeleton]; unfold cc3__mean_pool_kernel_skel
  unfold owns
  iintro ⟨⟨%f0, %hf0, H0⟩, ⟨%f1, %hf1, H1⟩, ⟨%ds0, %fs0, -, HS0⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [b_read_writes_whole _ _ _ b_off00]
  exact congrArg₂ k3_pay2 (View.readCov_cons_toLoadRect _ _ _ _) (b_readAt_whole _ _ _ b_off00)

set_option maxHeartbeats 1000000 in
/-- Case B (neither conditional taken): the scratch ends at the block's column sums added to what it held. -/
theorem b_run3_B (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬b_cond3_0 i) (hc1 : ¬b_cond3_1 i)
    (x0 : Vec F S5000x64 .f32) (xs0 : Vec F S1x64 .f32) (xi1 : Vec F S1x64 .f32) (E : Set ℕ) (K : PUnit → sProp 𝕄) :
    iprop(owns (c : Thread nD τ) arg1 fullShare x0 ∗ owns (c : Thread nD τ) arg2 fullShare xi1 ∗ owns (c : Thread nD τ) arg3 fullShare xs0
        ∗ (iprop(owns (c : Thread nD τ) arg1 fullShare x0 ∗ owns (c : Thread nD τ) arg2 fullShare xi1 ∗ owns (c : Thread nD τ) arg3 fullShare (k3_pay2 xs0 x0)) -∗ K ⟨⟩))
      ⊢ wp frame (wpE (defs₀ (F := F)) Variants.none c none) E (cc3__mean_pool_kernel i arg1 harg1 arg2 harg2 arg3 harg3) K := by
  simp only [cc3__mean_pool_kernel_eq_skeleton]; unfold cc3__mean_pool_kernel_skel
  unfold owns
  iintro ⟨⟨%f0, %hf0, H0⟩, ⟨%f1, %hf1, H1⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [b_read_writes_whole _ _ _ b_off00]
  exact congrArg₂ k3_pay2 (b_readAt_whole _ _ _ b_off00) (b_readAt_whole _ _ _ b_off00)

set_option maxHeartbeats 1000000 in
/-- Case C (first conditional not taken, second taken): the scratch as in case B, and the output block ends at the
    scratch scaled. -/
theorem b_run3_C (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬b_cond3_0 i) (hc1 : b_cond3_1 i)
    (x0 : Vec F S5000x64 .f32) (xs0 : Vec F S1x64 .f32) (E : Set ℕ) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k3_pay3 (k3_pay2 xs0 x0)) ∗ owns (c : Thread nD τ) arg3 fullShare (k3_pay2 xs0 x0)) -∗ K ⟨⟩))
      ⊢ wp frame (wpE (defs₀ (F := F)) Variants.none c none) E (cc3__mean_pool_kernel i arg1 harg1 arg2 harg2 arg3 harg3) K := by
  simp only [cc3__mean_pool_kernel_eq_skeleton]; unfold cc3__mean_pool_kernel_skel
  unfold owns
  iintro ⟨⟨%f0, %hf0, H0⟩, ⟨%d1, %f1, -, H1⟩, ⟨%fs0, %hfs0, HS0⟩, Hk⟩
  subst hf0; subst hfs0
  sl_exec (disch := first | exact hc0 | exact hc1)
  sl_step
  have hS : View.read (Elt F) arg3.view
      (arg3.view.writes (Elt F) fs0 [⟨b_rS, k3_pay2 (View.readAt (Elt F) arg3.view b_rS.toLoadRect fs0) (View.readAt (Elt F) arg1.view b_rB.toLoadRect f0)⟩])
      = k3_pay2 (View.read (Elt F) arg3.view fs0) (View.read (Elt F) arg1.view f0) := by
    rw [b_read_writes_whole _ _ _ b_off00]
    exact congrArg₂ k3_pay2 (b_readAt_whole _ _ _ b_off00) (b_readAt_whole _ _ _ b_off00)
  iapply Hk
  isplitl [H0]
  · iexists f0; isplitr; · ipureintro; rfl
    iexact H0
  isplitl [H1]
  · iexists _; isplitr
    swap; · iexact H1
    ipureintro
    rw [b_read_writes_whole _ _ _ b_off00]
    refine congrArg k3_pay3 ((View.readCov_cons_toLoadRect _ _ _ _).trans ?_)
    exact congrArg₂ k3_pay2 (b_readAt_whole _ _ _ b_off00) (b_readAt_whole _ _ _ b_off00)
  iexists _; isplitr
  swap; · iexact HS0
  ipureintro
  exact hS

end Cert.Kernel.Hand

end
-- ==== Proof.K.BodyR3.lean ====
/- The class-R half of region 3 (the mean-pool kernel), part two, at the region-entry contents `V`: the input block at a
   point, what the scratch accumulator holds after each point (a recursion over the points: zero plus the first block's
   column sums, then each block's column sums added), the output block after the last point (the accumulator scaled), the
   region's stepwise invariant (before the first point the launch's; afterwards the accumulator at the point before's
   contents, the other scoped buffers unopened, the generator register at some state), the proof data, and the body
   obligation by the three case triples. -/
import proofs.«110569_j70806830841987_1_alg».proof.Proof.K.BodyR3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is `V`'s
    and whose body leaves the block in place. -/
theorem b_before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle -/

/-- Window 0 is never idle (an input). -/
theorem b_liveAt3_0 : ∀ t : Fin cfg3.N, cfg3.idle 0 (grid3.coords t) = false := by decide +kernel
/-- Off the last point the output window is idle: the body stores nothing into it, -/
theorem b_idleAt3_1 : ∀ t : Fin cfg3.N, ¬b_cond3_1 (grid3.coords t) → cfg3.idle 1 (grid3.coords t) = true := by decide +kernel
/-- and the pipeline does not write its block back. -/
theorem b_noFlush3_1 : ∀ t : Fin cfg3.N, ¬b_cond3_1 (grid3.coords t) → (cfg3.win 1).flush t = false := by decide +kernel
/-- At the last point it is live. -/
theorem b_liveAt3_1 : ∀ t : Fin cfg3.N, b_cond3_1 (grid3.coords t) → cfg3.idle 1 (grid3.coords t) = false := by decide +kernel

/-! ## The memrefs the body is called with -/

abbrev b_ms3_0 (t : Fin cfg3.N) : Memref sig .tc .vmem S5000x64 .f32 := win3_0.stage (cfg3.slots t 0)
abbrev b_hs3_0 (t : Fin cfg3.N) : (b_ms3_0 t).IsWhole := hstage3_0 ((cfg3.slots t 0).cast nbuf3_0)
abbrev b_ms3_1 (t : Fin cfg3.N) : Memref sig .tc .vmem S1x64 .f32 := win3_1.stage (cfg3.slots t 1)
abbrev b_hs3_1 (t : Fin cfg3.N) : (b_ms3_1 t).IsWhole := hstage3_1 ((cfg3.slots t 1).cast nbuf3_1)
/-- The scratch accumulator: a whole scoped buffer of the kernel's own, passed beside the windows. -/
abbrev b_scM3 : Memref sig .tc .vmem S1x64 .f32 := Memref.whole cc3_scratch0

/-- The launch's invariant with the scratch accumulator as a memref owned at some contents, the other scoped buffers
    unopened. -/
theorem b_PhiA3_eq (c : Dev nD) :
    (Pipeline.ΦA spec3 c : sProp 𝕄)
      = iprop(iprop((∃ d, owns (c : Thread nD τ) b_scM3 fullShare d) ∗ Pipeline.scopedRestBut spec3 c [cc3_scratch0]) ∗ (∃ r, prngReg c r)) := by
  unfold Pipeline.ΦA; rw [scopedRest3_split]; simp only [b_scM3, owns_whole]; try rfl

/-! ## What the scratch and the output hold after each point -/

/-- The scratch accumulator after the body at position `n`: zero plus the first block's column sums, then each block's
    column sums added to what the point before left. -/
def b_scr3 (c : Dev nD) : (n : ℕ) → n < cfg3.N → Vec F S1x64 .f32
  | 0, hn => k3_pay2 (k3_pay1 (F := F)) (iblk3 V c 0 ⟨0, hn⟩)
  | n + 1, hn => k3_pay2 (b_scr3 c n (Nat.lt_of_succ_lt hn)) (iblk3 V c 0 ⟨n + 1, hn⟩)

/-- After the body at position `n`: the output window's staging buffer (the accumulator scaled — what the last point
    stores; at the other points the window is idle and this component is not consulted) and the scratch. -/
def outsAt3 (c : Dev nD) (n : ℕ) (hn : n < cfg3.N) : Vec F S1x64 .f32 × Vec F S1x64 .f32 :=
  (k3_pay3 (b_scr3 V c n hn), b_scr3 V c n hn)

theorem b_scr3_first (c : Dev nD) (t : Fin cfg3.N) (h : t.val = 0) :
    b_scr3 V c t.val t.isLt = k3_pay2 (k3_pay1 (F := F)) (iblk3 V c 0 t) := by
  obtain ⟨n, hn⟩ := t
  cases n with
  | zero => rfl
  | succ n => exact absurd h (Nat.succ_ne_zero n)

theorem b_scr3_pos (c : Dev nD) (t : Fin cfg3.N) (h : t.val ≠ 0) :
    b_scr3 V c t.val t.isLt = k3_pay2 (b_scr3 V c (t.val - 1) (Nat.lt_of_le_of_lt (Nat.sub_le _ _) t.isLt)) (iblk3 V c 0 t) := by
  obtain ⟨n, hn⟩ := t
  cases n with
  | zero => exact absurd rfl h
  | succ n => rfl

theorem scr3_zero (c : Dev nD) (h : 0 < cfg3.N) : (outsAt3 V c 0 h).2 = k3_pay2 (k3_pay1 (F := F)) (iblk3 V c 0 ⟨0, h⟩) := rfl
theorem scr3_succ (c : Dev nD) (n : ℕ) (hn : n + 1 < cfg3.N) :
    (outsAt3 V c (n + 1) hn).2 = k3_pay2 (outsAt3 V c n (Nat.lt_of_succ_lt hn)).2 (iblk3 V c 0 ⟨n + 1, hn⟩) := rfl
theorem out3_last (c : Dev nD) (h : 19 < cfg3.N) : (outsAt3 V c 19 h).1 = k3_pay3 (outsAt3 V c 19 h).2 := rfl

/-! ## The region's stepwise invariant -/

/-- Before position `n`: before the first point the launch's invariant (every scoped buffer at anything); afterwards the
    scratch accumulator at what the point before left, the other scoped buffers unopened, the generator register at some
    state. -/
def b_PhiS3 (c : Dev nD) : (n : ℕ) → n ≤ cfg3.N → sProp 𝕄
  | 0, _ => Pipeline.ΦA spec3 c
  | n + 1, hn => iprop(iprop(owns (c : Thread nD τ) b_scM3 fullShare (b_scr3 V c n hn) ∗ Pipeline.scopedRestBut spec3 c [cc3_scratch0]) ∗ (∃ r, prngReg c r))

theorem b_PhiS3_zero (c : Dev nD) (n : ℕ) (h : n ≤ cfg3.N) (hz : n = 0) : b_PhiS3 V c n h = Pipeline.ΦA spec3 c := by
  subst hz; rfl

theorem b_PhiS3_succ (c : Dev nD) (n : ℕ) (hn : n < cfg3.N) :
    b_PhiS3 V c (n + 1) hn = iprop(iprop(owns (c : Thread nD τ) b_scM3 fullShare (b_scr3 V c n hn) ∗ Pipeline.scopedRestBut spec3 c [cc3_scratch0]) ∗ (∃ r, prngReg c r)) := rfl

theorem b_PhiS3_pos (c : Dev nD) (n : ℕ) (h : n ≤ cfg3.N) (hz : n ≠ 0) :
    b_PhiS3 V c n h = iprop(iprop(owns (c : Thread nD τ) b_scM3 fullShare (b_scr3 V c (n - 1) (by omega)) ∗ Pipeline.scopedRestBut spec3 c [cc3_scratch0]) ∗ (∃ r, prngReg c r)) := by
  cases n with
  | zero => exact absurd rfl hz
  | succ n => rfl

/-! ## The pipeline's proof data -/

/-- The proof data of pipeline 3 on core `c`: the arrays as the region finds them; after the body at point `t` the input's
    buffer at its block and the output's at `outsAt3`'s first component; the stepwise invariant; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt).1
  Φ t := b_PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem b_PhiS3_castSucc (c : Dev nD) (t : Fin cfg3.N) :
    (dat3 V c).Φ t.castSucc = b_PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt).1 := by dsimp only [dat3]
theorem b_after3_1' (c : Dev nD) (t : Fin cfg3.N) : (dat3 V c).after 1 t = k3_pay3 (b_scr3 V c t.val t.isLt) := by
  dsimp only [dat3, outsAt3]

theorem b_before3_0 (c : Dev nD) (t : Fin cfg3.N) (d) : (dat3 V c).before 0 t d = iblk3 V c 0 t :=
  b_before3_0_of V (dat3 V c) (A_eq3 V c 0) (after3_0 V c) t d

/-! ## The body obligation, at a generic point -/

/-- What the body is called with at point `t`, -/
def b_bodyPre3 (c : Dev nD) (t : Fin cfg3.N) : sProp 𝕄 :=
  iprop((dat3 V c).Φ t.castSucc ∗ (dat3 V c).owesAt () t.castSucc
    ∗ (∃ d, owns (c : Thread nD τ) (b_ms3_0 t) fullShare ((dat3 V c).before 0 t d))
    ∗ (∃ d, owns (c : Thread nD τ) (b_ms3_1 t) fullShare ((dat3 V c).before 1 t d)))

/-- and what it returns. -/
def b_bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4800000 in
/-- The body at any point: the input's memref holds its block; the point is the first, a middle one or the last, and the
    case's triple applies; the invariant hands the body the scratch at what the point before left (at anything at the first
    point) and takes it back at this point's contents, the other scoped buffers and the generator register passing through;
    the core owes nothing throughout. -/
theorem b_sound_body3 (c : Dev nD) (t : Fin cfg3.N) :
    b_bodyPre3 V c t ⊢ wp frame (wpE (defs₀ (F := F)) Variants.none c none) Set.univ (bodyAt3 t) (fun _ => b_bodyPost3 V c t) := by
  unfold b_bodyPre3 b_bodyPost3 bodyAt3
  simp only [b_before3_0]
  rw [show (dat3 V c).owesAt () t.succ = (dat3 V c).owesAt () t.castSucc from rfl]
  rw [show (dat3 V c).Φ t.succ = b_PhiS3 V c (t.val + 1) t.isLt from rfl, b_PhiS3_succ]
  have hN : t.val < 20 := lt_of_lt_of_eq t.isLt (show cfg3.N = 20 from N_3)
  rw [show (dat3 V c).leavesExact 0 t = owns (c : Thread nD τ) (b_ms3_0 t) fullShare ((dat3 V c).after 0 t) from by
    unfold Dat.leavesExact; rw [b_liveAt3_0 t], after3_0]
  by_cases h1 : t.val = 19
  · have h0 : t.val ≠ 0 := by omega
    rw [show (dat3 V c).leavesExact 1 t = owns (c : Thread nD τ) (b_ms3_1 t) fullShare ((dat3 V c).after 1 t) from by
      unfold Dat.leavesExact; rw [b_liveAt3_1 t ((b_hcond3_1 t).mpr h1)], b_after3_1']
    rw [b_scr3_pos V c t h0]
    rw [b_PhiS3_castSucc V c t, b_PhiS3_pos V c _ _ h0]
    iintro ⟨⟨⟨HS0, HR⟩, Hg⟩, Ho, ⟨%d0, H0⟩, ⟨%d1, H1⟩⟩
    iapply (b_run3_C c (grid3.coords t) _ _ _ _ _ _ (fun h => h0 ((b_hcond3_0 t).mp h)) ((b_hcond3_1 t).mpr h1) (iblk3 V c 0 t) _ Set.univ _)
    isplitl [H0]; · iexact H0
    isplitl [H1]; · iexists _; iexact H1
    isplitl [HS0]; · iexact HS0
    iintro ⟨H0, H1, HS0⟩
    isplitl [HS0 HR Hg]
    · isplitr [Hg]
      · isplitl [HS0]; · iexact HS0
        iexact HR
      iexact Hg
    isplitl [Ho]; · iexact Ho
    isplitl [H0]; · iexact H0
    iexact H1
  · rw [Dat.leavesExact_idle (dat3 V c) 1 t (b_idleAt3_1 t (fun h => h1 ((b_hcond3_1 t).mp h))) (b_noFlush3_1 t (fun h => h1 ((b_hcond3_1 t).mp h)))]
    by_cases h0 : t.val = 0
    · rw [b_scr3_first V c t h0]
      rw [b_PhiS3_castSucc V c t, b_PhiS3_zero V c _ _ h0, b_PhiA3_eq]
      iintro ⟨⟨⟨HS0, HR⟩, Hg⟩, Ho, ⟨%d0, H0⟩, ⟨%d1, H1⟩⟩
      iapply (b_run3_A c (grid3.coords t) _ _ _ _ _ _ ((b_hcond3_0 t).mpr h0) (fun h => h1 ((b_hcond3_1 t).mp h)) (iblk3 V c 0 t) _ Set.univ _)
      isplitl [H0]; · iexact H0
      isplitl [H1]; · iexact H1
      isplitl [HS0]; · iexact HS0
      iintro ⟨H0, H1, HS0⟩
      isplitl [HS0 HR Hg]
      · isplitr [Hg]
        · isplitl [HS0]; · iexact HS0
          iexact HR
        iexact Hg
      isplitl [Ho]; · iexact Ho
      isplitl [H0]; · iexact H0
      iexists _; iexact H1
    · rw [b_scr3_pos V c t h0]
      rw [b_PhiS3_castSucc V c t, b_PhiS3_pos V c _ _ h0]
      iintro ⟨⟨⟨HS0, HR⟩, Hg⟩, Ho, ⟨%d0, H0⟩, ⟨%d1, H1⟩⟩
      iapply (b_run3_B c (grid3.coords t) _ _ _ _ _ _ (fun h => h0 ((b_hcond3_0 t).mp h)) (fun h => h1 ((b_hcond3_1 t).mp h)) (iblk3 V c 0 t) _ _ Set.univ _)
      isplitl [H0]; · iexact H0
      isplitl [H1]; · iexact H1
      isplitl [HS0]; · iexact HS0
      iintro ⟨H0, H1, HS0⟩
      isplitl [HS0 HR Hg]
      · isplitr [Hg]
        · isplitl [HS0]; · iexact HS0
          iexact HR
        iexact Hg
      isplitl [Ho]; · iexact Ho
      isplitl [H0]; · iexact H0
      iexists _; iexact H1

/-- The library's body obligation, at every point. -/
theorem body_obligation3 (c : Dev nD) : BodyObligation (dat3 (F := F) V c) (defs₀ (F := F)) Variants.none () Set.univ := fun t => by
  rw [bigSep_W3, bigSep_W3]
  exact b_sound_body3 V c t

/-- What the launch hands the region is the invariant before the first point. -/
theorem hin3 (c : Dev nD) : Pipeline.ΦA spec3 c ⊢ (dat3 V c).Φ 0 := by
  rw [show (dat3 V c).Φ 0 = b_PhiS3 V c 0 (Nat.zero_le _) from rfl, b_PhiS3_zero V c 0 _ rfl]
  try exact Idealize.SL.BI.Entails.refl _

/-- After any point but the first the invariant gives the launch's back: the scratch's named contents are forgotten. -/
theorem b_Phi_out3 (c : Dev nD) (t : Fin (cfg3.N + 1)) (ht : t.val ≠ 0) : (dat3 V c).Φ t ⊢ Pipeline.ΦA spec3 c := by
  rw [show (dat3 V c).Φ t = b_PhiS3 V c t.val (Nat.le_of_lt_succ t.isLt) from rfl, b_PhiS3_pos V c _ _ ht, b_PhiA3_eq]
  iintro ⟨⟨HS0, HR⟩, Hg⟩
  isplitr [Hg]
  · isplitl [HS0]
    · iexists _; iexact HS0
    iexact HR
  iexact Hg

/-- The same after the last point. -/
theorem hout3 (c : Dev nD) : (dat3 V c).Φ (Fin.last cfg3.N) ⊢ Pipeline.ΦA spec3 c :=
  b_Phi_out3 V c _ (by rw [Fin.val_last]; have : cfg3.N = 20 := N_3; omega)

end Cert.Kernel.Hand

end
-- ==== Proof.K.Run.lean ====
/- The run of @main over its eight items — the host stretch before each of the three layer regions, those regions, the
   pooling region and the closing reshape — at any `F`: the buffer contents at every boundary between items as a fold from the
   launch memory (`W0` … `W8`), every pipeline's proof data at its region's entry contents (`pdats`), each region as a
   segment over the thread state "every unscoped buffer at the boundary's contents, the generator register at some
   state, nothing owed" (`reg0` … `reg3`), the run (`run_all`: the final memory holds `W8`), each argument array read
   back through the fold to its launch contents (`W8_main_argK`), and the frame claim (`frame`). -/
import proofs.«110569_j70806830841987_1_alg».proof.Proof.K.BodyA0
import proofs.«110569_j70806830841987_1_alg».proof.Proof.K.BodyA1
import proofs.«110569_j70806830841987_1_alg».proof.Proof.K.BodyA2
import proofs.«110569_j70806830841987_1_alg».proof.Proof.K.BodyR3
import proofs.«110569_j70806830841987_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: eight items from the launch to the return

## The class invariant entered and left -/

/-- The class invariant of a region from the generator register and the scoped buffers no window stages (a
    prefetched-table part, which no pipeline here has, is dropped). -/
theorem enterΦA {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ Pipeline.ΦA win c := by
  unfold Pipeline.ΦA
  iintro ⟨Hp, -, Hr⟩
  isplitl [Hr]; · iexact Hr
  iexact Hp

/-- The class invariant gives back the generator register and those scoped buffers. -/
theorem leaveΦA {gr W : Nat} (win : Fin W → Pipeline.WinSpec sig gr) (c : Dev nD) :
    Pipeline.ΦA win c
      ⊢ iprop((∃ r, prngReg c r) ∗ (BI.emp : sProp 𝕄) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

variable (m : (ℓ : Loc nD τ sig) → Buf (Elt F) ℓ) (ρ : Dev nD → PrngReg)

/-! ## The buffer contents at each boundary between items: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (each input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves (each input as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves (each input as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (each input as entered, the output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves, every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the host stretch `hostOps4`. -/
abbrev W8 : Dev nD → Valuation τ sig (Elt F) := fun c => StableHlo.after hostOps4 (W7 m ρ c)

/-! ### The arguments end as launched -/

/-- A buffer that no host stretch writes and that is no region's array holds at the end what it held at launch. -/
theorem W8_of_bypassed (c : Dev nD) (b : Ref sig .tc) (h4 : b ∉ hostOps4_W) (r3 : ∀ w, Pipeline.arrRef spec3 w ≠ b)
    (r2 : ∀ w, Pipeline.arrRef spec2 w ≠ b) (h2 : b ∉ hostOps2_W) (r1 : ∀ w, Pipeline.arrRef spec1 w ≠ b) (h1 : b ∉ hostOps1_W)
    (r0 : ∀ w, Pipeline.arrRef spec0 w ≠ b) (h0 : b ∉ hostOps0_W) :
    W8 m ρ c (Proc.devRef .tc b) = m ((c : Thread nD τ).loc b) :=
  calc W8 m ρ c (Proc.devRef .tc b)
    _ = W7 m ρ c (Proc.devRef .tc b) := StableHlo.after_of_writes_sub hostOps4 _ hostOps4_writes h4
    _ = W6 m ρ c (Proc.devRef .tc b) := W7_of_ne m ρ c b r3
    _ = W5 m ρ c (Proc.devRef .tc b) := W6_of_ne m ρ c b r2
    _ = W4 m ρ c (Proc.devRef .tc b) := StableHlo.after_of_writes_sub hostOps2 _ hostOps2_writes h2
    _ = W3 m ρ c (Proc.devRef .tc b) := W4_of_ne m ρ c b r1
    _ = W2 m ρ c (Proc.devRef .tc b) := StableHlo.after_of_writes_sub hostOps1 _ hostOps1_writes h1
    _ = W1 m ρ c (Proc.devRef .tc b) := W2_of_ne m ρ c b r0
    _ = W0 m ρ c (Proc.devRef .tc b) := StableHlo.after_of_writes_sub hostOps0 _ hostOps0_writes h0
    _ = m ((c : Thread nD τ).loc b) := rfl

/-- `main_arg0` ends as launched: no host stretch writes it; region 0 reads it through an input window; the other
    regions bypass it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps4 _ hostOps4_writes (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  W8_of_bypassed m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_bypassed m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_bypassed m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_bypassed m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_bypassed m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_bypassed m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_bypassed m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_bypassed m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_bypassed m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_bypassed m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of_bypassed m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of_bypassed m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of_bypassed m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_of_bypassed m ρ c main_arg14 (by decide) (by decide) (by decide) (by decide) (by decide) (by decide) (by decide) (by decide)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W8`, the generator
    register at some state. -/
abbrev Tₙ (c : Dev nD) : sProp 𝕄 := iprop(StableHlo.held (c : Thread nD τ) (Pipeline.ucRefs τ sig) (W8 m ρ c) ∗ ∃ r, prngReg c r)

/-- The last item's thread state is the last thread state beside the core owing nothing. -/
theorem Tₙ_of_last (c : Dev nD) :
    iprop(StableHlo.held (c : Thread nD τ) (Pipeline.ucRefs τ sig) (W8 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- REGION 0 over the thread state: entered from every unscoped buffer at `W1`, left at `W2`. Its arrays are
    split out of the unscoped buffers and put back at the exit contents; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hin c := by
    rw [show (pdats m ρ 0 c).Φ 0 = Pipeline.ΦA spec0 c from rfl]
    exact enterΦA spec0 c _
  hout c := by
    rw [Pipeline.ownSems0_none, show (pdats m ρ 0 c).Φ (Fin.last _) = Pipeline.ΦA spec0 c from rfl]
    exact leaveΦA spec0 c
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register goes into the class
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hin c := by
    rw [show (pdats m ρ 1 c).Φ 0 = Pipeline.ΦA spec1 c from rfl]
    exact enterΦA spec1 c _
  hout c := by
    rw [Pipeline.ownSems0_none, show (pdats m ρ 1 c).Φ (Fin.last _) = Pipeline.ΦA spec1 c from rfl]
    exact leaveΦA spec1 c
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register goes into the class
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hin c := by
    rw [show (pdats m ρ 2 c).Φ 0 = Pipeline.ΦA spec2 c from rfl]
    exact enterΦA spec2 c _
  hout c := by
    rw [Pipeline.ownSems0_none, show (pdats m ρ 2 c).Φ (Fin.last _) = Pipeline.ΦA spec2 c from rfl]
    exact leaveΦA spec2 c
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. As the regions before it,
    but its invariant is the stepwise one of the accumulating body: entered from the class invariant and left to it. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hin c := by
    rw [show (pdats m ρ 3 c).Φ 0 = (dat3 (V6 m ρ) c).Φ 0 from rfl]
    exact (enterΦA spec3 c _).trans (hin3 (V6 m ρ) c)
  hout c := by
    rw [Pipeline.ownSems0_none, show (pdats m ρ 3 c).Φ (Fin.last _) = (dat3 (V6 m ρ) c).Φ (Fin.last cfg3.N) from rfl]
    exact (hout3 (V6 m ρ) c).trans (leaveΦA spec3 c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]
/-- @main is the run of the segments. -/
theorem main_run (c : Dev nD) : main (F := F) c = Pipeline.Seg.run (segs m ρ) := (main_chain c).trans (by chain_rfl)

set_option backward.isDefEq.respectTransparency.types false in
/-- The run, at any post that follows from the final memory holding every unscoped buffer at `W8`: from any memory
    with zero counters every weakly fair execution of @main on the TensorCores terminates, nothing faulting, and the
    final memory satisfies the post. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => Tₙ_of_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- THE RUN: every final memory holds every unscoped buffer of every core at the last boundary's contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  run_post m ρ fun s h => h

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ fun s h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c)⟩

end Cert.Kernel.Hand

end
-- ==== Proof.KI.BodyA0.lean ====
/- The class-A half of region 0 of @main (custom_call 0, `cc0__gin_layer_kernel`, pipeline 0), at any `F` and at a
   PARAMETER `V` — the TensorCore's buffer contents when the region is entered: each window's block at a point
   (`iblk0`), the output window's staging buffer after the body as a function of the six input blocks (`out0_6`), the
   body's triple on whole staging memrefs (`sound_kernel0`), the pipeline's proof data (`dat0`) and its body
   obligation (`body_obligation0`). The body reads its six input blocks whole, reads the output block (a value it
   never uses) and overwrites the output block whole with the payload `k0_pay1` of the six blocks read. -/
import proofs.«110569_j70806830841987_1_alg».proof.Proof.Gen.KernelIdeal.Launch
import proofs.«110569_j70806830841987_1_alg».proof.Proof.Gen.KernelIdeal.Skeleton
import proofs.«110569_j70806830841987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S5000x2 := Rect.unit (s := S5000x2) ![0, 0] S5000x2.size inb_S5000x2_S5000x2_0_0
abbrev r0_1 : Rect S2x64 := Rect.unit (s := S2x64) ![0, 0] S2x64.size inb_S2x64_S2x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S5000x64 := Rect.unit (s := S5000x64) ![0, 0] S5000x64.size inb_S5000x64_S5000x64_0_0

/-! ## What the body leaves in the output window's buffer -/

/-- Window 6's staging buffer after the body, from the six input windows' blocks: its one store, of the whole block. -/
def out0_6 (x0 : Vec F S5000x2 .f32) (x1 : Vec F S5000x2 .f32) (x2 : Vec F S2x64 .bf16) (x3 : Vec F S1x64 .f32) (x4 : Vec F S64x64 .bf16) (x5 : Vec F S1x64 .f32) : Vec F S5000x64 .f32 :=
  View.canon [⟨r0_4, k0_pay1 (View.ld x0 r0_0) (View.ld x1 r0_0) (View.ld x2 r0_1) (View.ld x3 r0_2) (View.ld x4 r0_3) (View.ld x5 r0_2)⟩]

/-- The store tiles the buffer, so it covers it. -/
theorem cover0_6 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

/-! ## The body's triple -/

set_option maxHeartbeats 1000000 in
/-- The kernel body on whole staging memrefs, the inputs' at read contents `xW` and the output's at anything, runs to
    the continuation holding the inputs' as they were and the output's at `out0_6` of the inputs'. -/
theorem sound_kernel0 (c : Dev nD) (E : Set ℕ) (i : grid0.Coords)
    (arg1 : Memref sig .tc .vmem S5000x2 .f32) (harg1 : arg1.IsWhole)
    (arg2 : Memref sig .tc .vmem S5000x2 .f32) (harg2 : arg2.IsWhole)
    (arg3 : Memref sig .tc .vmem S2x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S5000x64 .f32) (harg7 : arg7.IsWhole)
    (x0 : Vec F S5000x2 .f32) (x1 : Vec F S5000x2 .f32) (x2 : Vec F S2x64 .bf16) (x3 : Vec F S1x64 .f32) (x4 : Vec F S64x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the six input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.BodyA1.lean ====
/- The class-A half of region 1 of @main (custom_call 1, `cc1__gin_layer_kernel`, pipeline 1), at any `F` and at a
   PARAMETER `V` — the TensorCore's buffer contents when the region is entered: each window's block at a point
   (`iblk1`), the output window's staging buffer after the body as a function of the six input blocks (`out1_6`), the
   body's triple on whole staging memrefs (`sound_kernel1`), the pipeline's proof data (`dat1`) and its body
   obligation (`body_obligation1`). The body reads its six input blocks whole, reads the output block (a value it
   never uses) and overwrites the output block whole with the payload `k1_pay1` of the six blocks read. -/
import proofs.«110569_j70806830841987_1_alg».proof.Proof.Gen.KernelIdeal.Launch
import proofs.«110569_j70806830841987_1_alg».proof.Proof.Gen.KernelIdeal.Skeleton
import proofs.«110569_j70806830841987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in the output window's buffer -/

/-- Window 6's staging buffer after the body, from the six input windows' blocks: its one store, of the whole block. -/
def out1_6 (x0 : Vec F S5000x64 .f32) (x1 : Vec F S5000x64 .f32) (x2 : Vec F S64x64 .bf16) (x3 : Vec F S1x64 .f32) (x4 : Vec F S64x64 .bf16) (x5 : Vec F S1x64 .f32) : Vec F S5000x64 .f32 :=
  View.canon [⟨r1_0, k1_pay1 (View.ld x0 r1_0) (View.ld x1 r1_0) (View.ld x2 r1_1) (View.ld x3 r1_2) (View.ld x4 r1_1) (View.ld x5 r1_2)⟩]

/-- The store tiles the buffer, so it covers it. -/
theorem cover1_6 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at read contents `xW` and the output's at anything, runs to
    the continuation holding the inputs' as they were and the output's at `out1_6` of the inputs'. -/
theorem sound_kernel1 (c : Dev nD) (E : Set ℕ) (i : grid1.Coords)
    (arg1 : Memref sig .tc .vmem S5000x64 .f32) (harg1 : arg1.IsWhole)
    (arg2 : Memref sig .tc .vmem S5000x64 .f32) (harg2 : arg2.IsWhole)
    (arg3 : Memref sig .tc .vmem S64x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S5000x64 .f32) (harg7 : arg7.IsWhole)
    (x0 : Vec F S5000x64 .f32) (x1 : Vec F S5000x64 .f32) (x2 : Vec F S64x64 .bf16) (x3 : Vec F S1x64 .f32) (x4 : Vec F S64x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gin_layer_kernel i arg1 harg1 arg2 harg2 arg3 harg3 arg4 harg4 arg5 harg5 arg6 harg6 arg7 harg7) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the six input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.BodyA2.lean ====
/- The class-A half of region 2 of @main (custom_call 2, `cc2__gin_layer_kernel`, pipeline 2), at any `F` and at a
   PARAMETER `V` — the TensorCore's buffer contents when the region is entered: each window's block at a point
   (`iblk2`), the output window's staging buffer after the body as a function of the six input blocks (`out2_6`), the
   body's triple on whole staging memrefs (`sound_kernel2`), the pipeline's proof data (`dat2`) and its body
   obligation (`body_obligation2`). The body reads its six input blocks whole, reads the output block (a value it
   never uses) and overwrites the output block whole with the payload `k2_pay1` of the six blocks read. -/
import proofs.«110569_j70806830841987_1_alg».proof.Proof.Gen.KernelIdeal.Launch
import proofs.«110569_j70806830841987_1_alg».proof.Proof.Gen.KernelIdeal.Skeleton
import proofs.«110569_j70806830841987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole block -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in the output window's buffer -/

/-- Window 6's staging buffer after the body, from the six input windows' blocks: its one store, of the whole block. -/
def out2_6 (x0 : Vec F S5000x64 .f32) (x1 : Vec F S5000x64 .f32) (x2 : Vec F S64x64 .bf16) (x3 : Vec F S1x64 .f32) (x4 : Vec F S64x64 .bf16) (x5 : Vec F S1x64 .f32) : Vec F S5000x64 .f32 :=
  View.canon [⟨r2_0, k2_pay1 (View.ld x0 r2_0) (View.ld x1 r2_0) (View.ld x2 r2_1) (View.ld x3 r2_2) (View.ld x4 r2_1) (View.ld x5 r2_2)⟩]

/-- The store tiles the buffer, so it covers it. -/
theorem cover2_6 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `xW` and the output's at anything, runs to
    the continuation holding the inputs' as they were and the output's at `out2_6` of the inputs'. -/
theorem sound_kernel2 (c : Dev nD) (E : Set ℕ) (i : grid2.Coords)
    (arg1 : Memref sig .tc .vmem S5000x64 .f32) (harg1 : arg1.IsWhole)
    (arg2 : Memref sig .tc .vmem S5000x64 .f32) (harg2 : arg2.IsWhole)
    (arg3 : Memref sig .tc .vmem S64x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S5000x64 .f32) (harg7 : arg7.IsWhole)
    (x0 : Vec F S5000x64 .f32) (x1 : Vec F S5000x64 .f32) (x2 : Vec F S64x64 .bf16) (x3 : Vec F S1x64 .f32) (x4 : Vec F S64x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and the output's at `out2_6` of the six input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.BodyR3Runs.lean ====
/- The class-R half of region 3 (the mean-pool kernel), part one: the body's branch conditions decided over the grid,
   the whole-block accesses, and the body's triple in each of its three control cases — A (the first point: the scratch
   accumulator is zeroed, then the block's column sums are added to it), B (a middle point: the column sums are added),
   C (the last point: the column sums are added, then the accumulator scaled is stored into the output block).
   Every store of the body is a whole-block store, so each buffer it stores into ends at the last stored payload. -/
import proofs.«110569_j70806830841987_1_alg».proof.Proof.Gen.KernelIdeal.Launch
import proofs.«110569_j70806830841987_1_alg».proof.Proof.Gen.KernelIdeal.Skeleton
import proofs.«110569_j70806830841987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's first conditional, from the grid coordinates. -/
abbrev b_cond3_0 (i : grid3.Coords) : Prop := (Scalar.cmpi .ne (Scalar.extui (Scalar.cmpi .eq (BitVec.ofNat 32 (i 0).val) 0#32)) 0#32) = 1#1
/-- It holds at the first point only. -/
theorem b_hcond3_0 : ∀ t : Fin cfg3.N, b_cond3_0 (grid3.coords t) ↔ t.val = 0 :=
  (by decide +kernel : ∀ t : Fin grid3.N, b_cond3_0 (grid3.coords t) ↔ t.val = 0)

/-- The condition of the body's second conditional. -/
abbrev b_cond3_1 (i : grid3.Coords) : Prop := k3_cond2 i = 1#1
/-- It holds at the last point only. -/
theorem b_hcond3_1 : ∀ t : Fin cfg3.N, b_cond3_1 (grid3.coords t) ↔ t.val = 19 :=
  (by decide +kernel : ∀ t : Fin grid3.N, b_cond3_1 (grid3.coords t) ↔ t.val = 19)

/-- The whole-block rectangles of the body's accesses. -/
abbrev b_rS : Rect S1x64 := Rect.unit (s := S1x64) ![0, 0] S1x64.size inb_S1x64_S1x64_0_0
abbrev b_rB : Rect S5000x64 := Rect.unit (s := S5000x64) ![0, 0] S5000x64.size inb_S5000x64_S5000x64_0_0

/-! ## Whole-block accesses

A unit-stride rectangle at offsets zero of the shape's own sizes is the whole block: a load through it reads the
contents, and a write through it leaves its payload. -/

theorem b_idx_whole {s : Shape} {off : Fin s.rank → ℕ} (inb : ∀ a, off a + s.size a ≤ s.size a) (hoff : ∀ a, off a = 0)
    (x : (Rect.unit off s.size inb).shape.Idx) : (Rect.unit off s.size inb).toLoadRect.idx x = (x : s.Idx) :=
  funext fun a => Fin.ext (by
    show off a + 1 * (x a).val = (x a).val
    rw [hoff a]; omega)

theorem b_readAt_whole {sig : RefSig} {κ : Kind} {sp : Space} {s : Shape} {e : EltTy} {Val : EltTy → Type}
    (v : View sig κ sp s e) (f : v.ty.Contents Val)
    {off : Fin s.rank → ℕ} (inb : ∀ a, off a + s.size a ≤ s.size a) (hoff : ∀ a, off a = 0) :
    v.readAt Val (Rect.unit off s.size inb).toLoadRect f = fun x => v.read Val f x :=
  funext fun x => by rw [View.readAt_apply, b_idx_whole inb hoff]

theorem b_read_writes_whole {sig : RefSig} {κ : Kind} {sp : Space} {s : Shape} {e : EltTy} {Val : EltTy → Type}
    (v : View sig κ sp s e) (f : v.ty.Contents Val)
    {off : Fin s.rank → ℕ} (inb : ∀ a, off a + s.size a ≤ s.size a) (hoff : ∀ a, off a = 0)
    (w : (Rect.unit off s.size inb).shape.Idx → Val e) (L : List (View.Piece Val s e)) :
    v.read Val (v.writes Val f ((⟨Rect.unit off s.size inb, w⟩ : View.Piece Val s e) :: L)) = fun y => w y :=
  funext fun y => View.read_writes_cons_unit_of_mem v f inb w L y y rfl fun a => by rw [hoff a, Nat.zero_add]

theorem b_off00 : ∀ a : Fin 2, (![0, 0] : Fin 2 → ℕ) a = 0 := Fin.forall_fin_two.mpr ⟨rfl, rfl⟩

/-! ## The body's triple, case by case

The input block is held at read contents `x0`; the scratch at anything (case A) or at what the point before left
(`xs0`); the output block is handed back untouched where the body stores nothing into it (`xi1`, cases A and B). -/

set_option maxHeartbeats 1000000 in
/-- Case A (first conditional taken, second not): the scratch ends at the block's column sums added to zero. -/
theorem b_run3_A (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : b_cond3_0 i) (hc1 : ¬b_cond3_1 i)
    (x0 : Vec F S5000x64 .f32) (xi1 : Vec F S1x64 .f32) (E : Set ℕ) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1 ∗ owns (c : Thread nD τ) arg3 fullShare (k3_pay2 (k3_pay1 (F := F)) x0)) -∗ K ⟨⟩))
      ⊢ wp frame (wpE (defs₀ (F := F)) Variants.none c none) E (cc3__mean_pool_kernel i arg1 harg1 arg2 harg2 arg3 harg3) K := by
  simp only [cc3__mean_pool_kernel_eq_skeleton]; unfold cc3__mean_pool_kernel_skel
  unfold owns
  iintro ⟨⟨%f0, %hf0, H0⟩, ⟨%f1, %hf1, H1⟩, ⟨%ds0, %fs0, -, HS0⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [b_read_writes_whole _ _ _ b_off00]
  exact congrArg₂ k3_pay2 (View.readCov_cons_toLoadRect _ _ _ _) (b_readAt_whole _ _ _ b_off00)

set_option maxHeartbeats 1000000 in
/-- Case B (neither conditional taken): the scratch ends at the block's column sums added to what it held. -/
theorem b_run3_B (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬b_cond3_0 i) (hc1 : ¬b_cond3_1 i)
    (x0 : Vec F S5000x64 .f32) (xs0 : Vec F S1x64 .f32) (xi1 : Vec F S1x64 .f32) (E : Set ℕ) (K : PUnit → sProp 𝕄) :
    iprop(owns (c : Thread nD τ) arg1 fullShare x0 ∗ owns (c : Thread nD τ) arg2 fullShare xi1 ∗ owns (c : Thread nD τ) arg3 fullShare xs0
        ∗ (iprop(owns (c : Thread nD τ) arg1 fullShare x0 ∗ owns (c : Thread nD τ) arg2 fullShare xi1 ∗ owns (c : Thread nD τ) arg3 fullShare (k3_pay2 xs0 x0)) -∗ K ⟨⟩))
      ⊢ wp frame (wpE (defs₀ (F := F)) Variants.none c none) E (cc3__mean_pool_kernel i arg1 harg1 arg2 harg2 arg3 harg3) K := by
  simp only [cc3__mean_pool_kernel_eq_skeleton]; unfold cc3__mean_pool_kernel_skel
  unfold owns
  iintro ⟨⟨%f0, %hf0, H0⟩, ⟨%f1, %hf1, H1⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [b_read_writes_whole _ _ _ b_off00]
  exact congrArg₂ k3_pay2 (b_readAt_whole _ _ _ b_off00) (b_readAt_whole _ _ _ b_off00)

set_option maxHeartbeats 1000000 in
/-- Case C (first conditional not taken, second taken): the scratch as in case B, and the output block ends at the
    scratch scaled. -/
theorem b_run3_C (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬b_cond3_0 i) (hc1 : b_cond3_1 i)
    (x0 : Vec F S5000x64 .f32) (xs0 : Vec F S1x64 .f32) (E : Set ℕ) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k3_pay3 (k3_pay2 xs0 x0)) ∗ owns (c : Thread nD τ) arg3 fullShare (k3_pay2 xs0 x0)) -∗ K ⟨⟩))
      ⊢ wp frame (wpE (defs₀ (F := F)) Variants.none c none) E (cc3__mean_pool_kernel i arg1 harg1 arg2 harg2 arg3 harg3) K := by
  simp only [cc3__mean_pool_kernel_eq_skeleton]; unfold cc3__mean_pool_kernel_skel
  unfold owns
  iintro ⟨⟨%f0, %hf0, H0⟩, ⟨%d1, %f1, -, H1⟩, ⟨%fs0, %hfs0, HS0⟩, Hk⟩
  subst hf0; subst hfs0
  sl_exec (disch := first | exact hc0 | exact hc1)
  sl_step
  have hS : View.read (Elt F) arg3.view
      (arg3.view.writes (Elt F) fs0 [⟨b_rS, k3_pay2 (View.readAt (Elt F) arg3.view b_rS.toLoadRect fs0) (View.readAt (Elt F) arg1.view b_rB.toLoadRect f0)⟩])
      = k3_pay2 (View.read (Elt F) arg3.view fs0) (View.read (Elt F) arg1.view f0) := by
    rw [b_read_writes_whole _ _ _ b_off00]
    exact congrArg₂ k3_pay2 (b_readAt_whole _ _ _ b_off00) (b_readAt_whole _ _ _ b_off00)
  iapply Hk
  isplitl [H0]
  · iexists f0; isplitr; · ipureintro; rfl
    iexact H0
  isplitl [H1]
  · iexists _; isplitr
    swap; · iexact H1
    ipureintro
    rw [b_read_writes_whole _ _ _ b_off00]
    refine congrArg k3_pay3 ((View.readCov_cons_toLoadRect _ _ _ _).trans ?_)
    exact congrArg₂ k3_pay2 (b_readAt_whole _ _ _ b_off00) (b_readAt_whole _ _ _ b_off00)
  iexists _; isplitr
  swap; · iexact HS0
  ipureintro
  exact hS

end Cert.KernelIdeal.Hand

end
-- ==== Proof.KI.BodyR3.lean ====
/- The class-R half of region 3 (the mean-pool kernel), part two, at the region-entry contents `V`: the input block at a
   point, what the scratch accumulator holds after each point (a recursion over the points: zero plus the first block's
   column sums, then each block's column sums added), the output block after the last point (the accumulator scaled), the
   region's stepwise invariant (before the first point the launch's; afterwards the accumulator at the point before's
   contents, the other scoped buffers unopened, the generator register at some state), the proof data, and the body
   obligation by the three case triples. -/
import proofs.«110569_j70806830841987_1_alg».proof.Proof.KI.BodyR3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is `V`'s
    and whose body leaves the block in place. -/
theorem b_before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle -/

/-- Window 0 is never idle (an input). -/
theorem b_liveAt3_0 : ∀ t : Fin cfg3.N, cfg3.idle 0 (grid3.coords t) = false := by decide +kernel
/-- Off the last point the output window is idle: the body stores nothing into it, -/
theorem b_idleAt3_1 : ∀ t : Fin cfg3.N, ¬b_cond3_1 (grid3.coords t) → cfg3.idle 1 (grid3.coords t) = true := by decide +kernel
/-- and the pipeline does not write its block back. -/
theorem b_noFlush3_1 : ∀ t : Fin cfg3.N, ¬b_cond3_1 (grid3.coords t) → (cfg3.win 1).flush t = false := by decide +kernel
/-- At the last point it is live. -/
theorem b_liveAt3_1 : ∀ t : Fin cfg3.N, b_cond3_1 (grid3.coords t) → cfg3.idle 1 (grid3.coords t) = false := by decide +kernel

/-! ## The memrefs the body is called with -/

abbrev b_ms3_0 (t : Fin cfg3.N) : Memref sig .tc .vmem S5000x64 .f32 := win3_0.stage (cfg3.slots t 0)
abbrev b_hs3_0 (t : Fin cfg3.N) : (b_ms3_0 t).IsWhole := hstage3_0 ((cfg3.slots t 0).cast nbuf3_0)
abbrev b_ms3_1 (t : Fin cfg3.N) : Memref sig .tc .vmem S1x64 .f32 := win3_1.stage (cfg3.slots t 1)
abbrev b_hs3_1 (t : Fin cfg3.N) : (b_ms3_1 t).IsWhole := hstage3_1 ((cfg3.slots t 1).cast nbuf3_1)
/-- The scratch accumulator: a whole scoped buffer of the kernel's own, passed beside the windows. -/
abbrev b_scM3 : Memref sig .tc .vmem S1x64 .f32 := Memref.whole cc3_scratch0

/-- The launch's invariant with the scratch accumulator as a memref owned at some contents, the other scoped buffers
    unopened. -/
theorem b_PhiA3_eq (c : Dev nD) :
    (Pipeline.ΦA spec3 c : sProp 𝕄)
      = iprop(iprop((∃ d, owns (c : Thread nD τ) b_scM3 fullShare d) ∗ Pipeline.scopedRestBut spec3 c [cc3_scratch0]) ∗ (∃ r, prngReg c r)) := by
  unfold Pipeline.ΦA; rw [scopedRest3_split]; simp only [b_scM3, owns_whole]; try rfl

/-! ## What the scratch and the output hold after each point -/

/-- The scratch accumulator after the body at position `n`: zero plus the first block's column sums, then each block's
    column sums added to what the point before left. -/
def b_scr3 (c : Dev nD) : (n : ℕ) → n < cfg3.N → Vec F S1x64 .f32
  | 0, hn => k3_pay2 (k3_pay1 (F := F)) (iblk3 V c 0 ⟨0, hn⟩)
  | n + 1, hn => k3_pay2 (b_scr3 c n (Nat.lt_of_succ_lt hn)) (iblk3 V c 0 ⟨n + 1, hn⟩)

/-- After the body at position `n`: the output window's staging buffer (the accumulator scaled — what the last point
    stores; at the other points the window is idle and this component is not consulted) and the scratch. -/
def outsAt3 (c : Dev nD) (n : ℕ) (hn : n < cfg3.N) : Vec F S1x64 .f32 × Vec F S1x64 .f32 :=
  (k3_pay3 (b_scr3 V c n hn), b_scr3 V c n hn)

theorem b_scr3_first (c : Dev nD) (t : Fin cfg3.N) (h : t.val = 0) :
    b_scr3 V c t.val t.isLt = k3_pay2 (k3_pay1 (F := F)) (iblk3 V c 0 t) := by
  obtain ⟨n, hn⟩ := t
  cases n with
  | zero => rfl
  | succ n => exact absurd h (Nat.succ_ne_zero n)

theorem b_scr3_pos (c : Dev nD) (t : Fin cfg3.N) (h : t.val ≠ 0) :
    b_scr3 V c t.val t.isLt = k3_pay2 (b_scr3 V c (t.val - 1) (Nat.lt_of_le_of_lt (Nat.sub_le _ _) t.isLt)) (iblk3 V c 0 t) := by
  obtain ⟨n, hn⟩ := t
  cases n with
  | zero => exact absurd rfl h
  | succ n => rfl

theorem scr3_zero (c : Dev nD) (h : 0 < cfg3.N) : (outsAt3 V c 0 h).2 = k3_pay2 (k3_pay1 (F := F)) (iblk3 V c 0 ⟨0, h⟩) := rfl
theorem scr3_succ (c : Dev nD) (n : ℕ) (hn : n + 1 < cfg3.N) :
    (outsAt3 V c (n + 1) hn).2 = k3_pay2 (outsAt3 V c n (Nat.lt_of_succ_lt hn)).2 (iblk3 V c 0 ⟨n + 1, hn⟩) := rfl
theorem out3_last (c : Dev nD) (h : 19 < cfg3.N) : (outsAt3 V c 19 h).1 = k3_pay3 (outsAt3 V c 19 h).2 := rfl

/-! ## The region's stepwise invariant -/

/-- Before position `n`: before the first point the launch's invariant (every scoped buffer at anything); afterwards the
    scratch accumulator at what the point before left, the other scoped buffers unopened, the generator register at some
    state. -/
def b_PhiS3 (c : Dev nD) : (n : ℕ) → n ≤ cfg3.N → sProp 𝕄
  | 0, _ => Pipeline.ΦA spec3 c
  | n + 1, hn => iprop(iprop(owns (c : Thread nD τ) b_scM3 fullShare (b_scr3 V c n hn) ∗ Pipeline.scopedRestBut spec3 c [cc3_scratch0]) ∗ (∃ r, prngReg c r))

theorem b_PhiS3_zero (c : Dev nD) (n : ℕ) (h : n ≤ cfg3.N) (hz : n = 0) : b_PhiS3 V c n h = Pipeline.ΦA spec3 c := by
  subst hz; rfl

theorem b_PhiS3_succ (c : Dev nD) (n : ℕ) (hn : n < cfg3.N) :
    b_PhiS3 V c (n + 1) hn = iprop(iprop(owns (c : Thread nD τ) b_scM3 fullShare (b_scr3 V c n hn) ∗ Pipeline.scopedRestBut spec3 c [cc3_scratch0]) ∗ (∃ r, prngReg c r)) := rfl

theorem b_PhiS3_pos (c : Dev nD) (n : ℕ) (h : n ≤ cfg3.N) (hz : n ≠ 0) :
    b_PhiS3 V c n h = iprop(iprop(owns (c : Thread nD τ) b_scM3 fullShare (b_scr3 V c (n - 1) (by omega)) ∗ Pipeline.scopedRestBut spec3 c [cc3_scratch0]) ∗ (∃ r, prngReg c r)) := by
  cases n with
  | zero => exact absurd rfl hz
  | succ n => rfl

/-! ## The pipeline's proof data -/

/-- The proof data of pipeline 3 on core `c`: the arrays as the region finds them; after the body at point `t` the input's
    buffer at its block and the output's at `outsAt3`'s first component; the stepwise invariant; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt).1
  Φ t := b_PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem b_PhiS3_castSucc (c : Dev nD) (t : Fin cfg3.N) :
    (dat3 V c).Φ t.castSucc = b_PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt).1 := by dsimp only [dat3]
theorem b_after3_1' (c : Dev nD) (t : Fin cfg3.N) : (dat3 V c).after 1 t = k3_pay3 (b_scr3 V c t.val t.isLt) := by
  dsimp only [dat3, outsAt3]

theorem b_before3_0 (c : Dev nD) (t : Fin cfg3.N) (d) : (dat3 V c).before 0 t d = iblk3 V c 0 t :=
  b_before3_0_of V (dat3 V c) (A_eq3 V c 0) (after3_0 V c) t d

/-! ## The body obligation, at a generic point -/

/-- What the body is called with at point `t`, -/
def b_bodyPre3 (c : Dev nD) (t : Fin cfg3.N) : sProp 𝕄 :=
  iprop((dat3 V c).Φ t.castSucc ∗ (dat3 V c).owesAt () t.castSucc
    ∗ (∃ d, owns (c : Thread nD τ) (b_ms3_0 t) fullShare ((dat3 V c).before 0 t d))
    ∗ (∃ d, owns (c : Thread nD τ) (b_ms3_1 t) fullShare ((dat3 V c).before 1 t d)))

/-- and what it returns. -/
def b_bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4800000 in
/-- The body at any point: the input's memref holds its block; the point is the first, a middle one or the last, and the
    case's triple applies; the invariant hands the body the scratch at what the point before left (at anything at the first
    point) and takes it back at this point's contents, the other scoped buffers and the generator register passing through;
    the core owes nothing throughout. -/
theorem b_sound_body3 (c : Dev nD) (t : Fin cfg3.N) :
    b_bodyPre3 V c t ⊢ wp frame (wpE (defs₀ (F := F)) Variants.none c none) Set.univ (bodyAt3 t) (fun _ => b_bodyPost3 V c t) := by
  unfold b_bodyPre3 b_bodyPost3 bodyAt3
  simp only [b_before3_0]
  rw [show (dat3 V c).owesAt () t.succ = (dat3 V c).owesAt () t.castSucc from rfl]
  rw [show (dat3 V c).Φ t.succ = b_PhiS3 V c (t.val + 1) t.isLt from rfl, b_PhiS3_succ]
  have hN : t.val < 20 := lt_of_lt_of_eq t.isLt (show cfg3.N = 20 from N_3)
  rw [show (dat3 V c).leavesExact 0 t = owns (c : Thread nD τ) (b_ms3_0 t) fullShare ((dat3 V c).after 0 t) from by
    unfold Dat.leavesExact; rw [b_liveAt3_0 t], after3_0]
  by_cases h1 : t.val = 19
  · have h0 : t.val ≠ 0 := by omega
    rw [show (dat3 V c).leavesExact 1 t = owns (c : Thread nD τ) (b_ms3_1 t) fullShare ((dat3 V c).after 1 t) from by
      unfold Dat.leavesExact; rw [b_liveAt3_1 t ((b_hcond3_1 t).mpr h1)], b_after3_1']
    rw [b_scr3_pos V c t h0]
    rw [b_PhiS3_castSucc V c t, b_PhiS3_pos V c _ _ h0]
    iintro ⟨⟨⟨HS0, HR⟩, Hg⟩, Ho, ⟨%d0, H0⟩, ⟨%d1, H1⟩⟩
    iapply (b_run3_C c (grid3.coords t) _ _ _ _ _ _ (fun h => h0 ((b_hcond3_0 t).mp h)) ((b_hcond3_1 t).mpr h1) (iblk3 V c 0 t) _ Set.univ _)
    isplitl [H0]; · iexact H0
    isplitl [H1]; · iexists _; iexact H1
    isplitl [HS0]; · iexact HS0
    iintro ⟨H0, H1, HS0⟩
    isplitl [HS0 HR Hg]
    · isplitr [Hg]
      · isplitl [HS0]; · iexact HS0
        iexact HR
      iexact Hg
    isplitl [Ho]; · iexact Ho
    isplitl [H0]; · iexact H0
    iexact H1
  · rw [Dat.leavesExact_idle (dat3 V c) 1 t (b_idleAt3_1 t (fun h => h1 ((b_hcond3_1 t).mp h))) (b_noFlush3_1 t (fun h => h1 ((b_hcond3_1 t).mp h)))]
    by_cases h0 : t.val = 0
    · rw [b_scr3_first V c t h0]
      rw [b_PhiS3_castSucc V c t, b_PhiS3_zero V c _ _ h0, b_PhiA3_eq]
      iintro ⟨⟨⟨HS0, HR⟩, Hg⟩, Ho, ⟨%d0, H0⟩, ⟨%d1, H1⟩⟩
      iapply (b_run3_A c (grid3.coords t) _ _ _ _ _ _ ((b_hcond3_0 t).mpr h0) (fun h => h1 ((b_hcond3_1 t).mp h)) (iblk3 V c 0 t) _ Set.univ _)
      isplitl [H0]; · iexact H0
      isplitl [H1]; · iexact H1
      isplitl [HS0]; · iexact HS0
      iintro ⟨H0, H1, HS0⟩
      isplitl [HS0 HR Hg]
      · isplitr [Hg]
        · isplitl [HS0]; · iexact HS0
          iexact HR
        iexact Hg
      isplitl [Ho]; · iexact Ho
      isplitl [H0]; · iexact H0
      iexists _; iexact H1
    · rw [b_scr3_pos V c t h0]
      rw [b_PhiS3_castSucc V c t, b_PhiS3_pos V c _ _ h0]
      iintro ⟨⟨⟨HS0, HR⟩, Hg⟩, Ho, ⟨%d0, H0⟩, ⟨%d1, H1⟩⟩
      iapply (b_run3_B c (grid3.coords t) _ _ _ _ _ _ (fun h => h0 ((b_hcond3_0 t).mp h)) (fun h => h1 ((b_hcond3_1 t).mp h)) (iblk3 V c 0 t) _ _ Set.univ _)
      isplitl [H0]; · iexact H0
      isplitl [H1]; · iexact H1
      isplitl [HS0]; · iexact HS0
      iintro ⟨H0, H1, HS0⟩
      isplitl [HS0 HR Hg]
      · isplitr [Hg]
        · isplitl [HS0]; · iexact HS0
          iexact HR
        iexact Hg
      isplitl [Ho]; · iexact Ho
      isplitl [H0]; · iexact H0
      iexists _; iexact H1

/-- The library's body obligation, at every point. -/
theorem body_obligation3 (c : Dev nD) : BodyObligation (dat3 (F := F) V c) (defs₀ (F := F)) Variants.none () Set.univ := fun t => by
  rw [bigSep_W3, bigSep_W3]
  exact b_sound_body3 V c t

/-- What the launch hands the region is the invariant before the first point. -/
theorem hin3 (c : Dev nD) : Pipeline.ΦA spec3 c ⊢ (dat3 V c).Φ 0 := by
  rw [show (dat3 V c).Φ 0 = b_PhiS3 V c 0 (Nat.zero_le _) from rfl, b_PhiS3_zero V c 0 _ rfl]
  try exact Idealize.SL.BI.Entails.refl _

/-- After any point but the first the invariant gives the launch's back: the scratch's named contents are forgotten. -/
theorem b_Phi_out3 (c : Dev nD) (t : Fin (cfg3.N + 1)) (ht : t.val ≠ 0) : (dat3 V c).Φ t ⊢ Pipeline.ΦA spec3 c := by
  rw [show (dat3 V c).Φ t = b_PhiS3 V c t.val (Nat.le_of_lt_succ t.isLt) from rfl, b_PhiS3_pos V c _ _ ht, b_PhiA3_eq]
  iintro ⟨⟨HS0, HR⟩, Hg⟩
  isplitr [Hg]
  · isplitl [HS0]
    · iexists _; iexact HS0
    iexact HR
  iexact Hg

/-- The same after the last point. -/
theorem hout3 (c : Dev nD) : (dat3 V c).Φ (Fin.last cfg3.N) ⊢ Pipeline.ΦA spec3 c :=
  b_Phi_out3 V c _ (by rw [Fin.val_last]; have : cfg3.N = 20 := N_3; omega)

end Cert.KernelIdeal.Hand

end
-- ==== Proof.KI.Run.lean ====
/- The run of @main over its eight items — the host stretch before each of the three layer regions, those regions, the
   pooling region and the closing reshape — at any `F`: the buffer contents at every boundary between items as a fold from the
   launch memory (`W0` … `W8`), every pipeline's proof data at its region's entry contents (`pdats`), each region as a
   segment over the thread state "every unscoped buffer at the boundary's contents, the generator register at some
   state, nothing owed" (`reg0` … `reg3`), the run (`run_all`: the final memory holds `W8`), each argument array read
   back through the fold to its launch contents (`W8_main_argK`), and the frame claim (`frame`). -/
import proofs.«110569_j70806830841987_1_alg».proof.Proof.KI.BodyA0
import proofs.«110569_j70806830841987_1_alg».proof.Proof.KI.BodyA1
import proofs.«110569_j70806830841987_1_alg».proof.Proof.KI.BodyA2
import proofs.«110569_j70806830841987_1_alg».proof.Proof.KI.BodyR3
import proofs.«110569_j70806830841987_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run of @main: eight items from the launch to the return

## The class invariant entered and left -/

/-- The class invariant of a region from the generator register and the scoped buffers no window stages (a
    prefetched-table part, which no pipeline here has, is dropped). -/
theorem enterΦA {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ Pipeline.ΦA win c := by
  unfold Pipeline.ΦA
  iintro ⟨Hp, -, Hr⟩
  isplitl [Hr]; · iexact Hr
  iexact Hp

/-- The class invariant gives back the generator register and those scoped buffers. -/
theorem leaveΦA {gr W : Nat} (win : Fin W → Pipeline.WinSpec sig gr) (c : Dev nD) :
    Pipeline.ΦA win c
      ⊢ iprop((∃ r, prngReg c r) ∗ (BI.emp : sProp 𝕄) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

variable (m : (ℓ : Loc nD τ sig) → Buf (Elt F) ℓ) (ρ : Dev nD → PrngReg)

/-! ## The buffer contents at each boundary between items: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (each input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves (each input as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves (each input as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (each input as entered, the output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves, every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the host stretch `hostOps4`. -/
abbrev W8 : Dev nD → Valuation τ sig (Elt F) := fun c => StableHlo.after hostOps4 (W7 m ρ c)

/-! ### The arguments end as launched -/

/-- A buffer that no host stretch writes and that is no region's array holds at the end what it held at launch. -/
theorem W8_of_bypassed (c : Dev nD) (b : Ref sig .tc) (h4 : b ∉ hostOps4_W) (r3 : ∀ w, Pipeline.arrRef spec3 w ≠ b)
    (r2 : ∀ w, Pipeline.arrRef spec2 w ≠ b) (h2 : b ∉ hostOps2_W) (r1 : ∀ w, Pipeline.arrRef spec1 w ≠ b) (h1 : b ∉ hostOps1_W)
    (r0 : ∀ w, Pipeline.arrRef spec0 w ≠ b) (h0 : b ∉ hostOps0_W) :
    W8 m ρ c (Proc.devRef .tc b) = m ((c : Thread nD τ).loc b) :=
  calc W8 m ρ c (Proc.devRef .tc b)
    _ = W7 m ρ c (Proc.devRef .tc b) := StableHlo.after_of_writes_sub hostOps4 _ hostOps4_writes h4
    _ = W6 m ρ c (Proc.devRef .tc b) := W7_of_ne m ρ c b r3
    _ = W5 m ρ c (Proc.devRef .tc b) := W6_of_ne m ρ c b r2
    _ = W4 m ρ c (Proc.devRef .tc b) := StableHlo.after_of_writes_sub hostOps2 _ hostOps2_writes h2
    _ = W3 m ρ c (Proc.devRef .tc b) := W4_of_ne m ρ c b r1
    _ = W2 m ρ c (Proc.devRef .tc b) := StableHlo.after_of_writes_sub hostOps1 _ hostOps1_writes h1
    _ = W1 m ρ c (Proc.devRef .tc b) := W2_of_ne m ρ c b r0
    _ = W0 m ρ c (Proc.devRef .tc b) := StableHlo.after_of_writes_sub hostOps0 _ hostOps0_writes h0
    _ = m ((c : Thread nD τ).loc b) := rfl

/-- `main_arg0` ends as launched: no host stretch writes it; region 0 reads it through an input window; the other
    regions bypass it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps4 _ hostOps4_writes (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  W8_of_bypassed m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_bypassed m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_bypassed m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_bypassed m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_bypassed m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_bypassed m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_bypassed m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_bypassed m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_bypassed m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_bypassed m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of_bypassed m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of_bypassed m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of_bypassed m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_of_bypassed m ρ c main_arg14 (by decide) (by decide) (by decide) (by decide) (by decide) (by decide) (by decide) (by decide)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W8`, the generator
    register at some state. -/
abbrev Tₙ (c : Dev nD) : sProp 𝕄 := iprop(StableHlo.held (c : Thread nD τ) (Pipeline.ucRefs τ sig) (W8 m ρ c) ∗ ∃ r, prngReg c r)

/-- The last item's thread state is the last thread state beside the core owing nothing. -/
theorem Tₙ_of_last (c : Dev nD) :
    iprop(StableHlo.held (c : Thread nD τ) (Pipeline.ucRefs τ sig) (W8 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- REGION 0 over the thread state: entered from every unscoped buffer at `W1`, left at `W2`. Its arrays are
    split out of the unscoped buffers and put back at the exit contents; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hin c := by
    rw [show (pdats m ρ 0 c).Φ 0 = Pipeline.ΦA spec0 c from rfl]
    exact enterΦA spec0 c _
  hout c := by
    rw [Pipeline.ownSems0_none, show (pdats m ρ 0 c).Φ (Fin.last _) = Pipeline.ΦA spec0 c from rfl]
    exact leaveΦA spec0 c
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register goes into the class
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hin c := by
    rw [show (pdats m ρ 1 c).Φ 0 = Pipeline.ΦA spec1 c from rfl]
    exact enterΦA spec1 c _
  hout c := by
    rw [Pipeline.ownSems0_none, show (pdats m ρ 1 c).Φ (Fin.last _) = Pipeline.ΦA spec1 c from rfl]
    exact leaveΦA spec1 c
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register goes into the class
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hin c := by
    rw [show (pdats m ρ 2 c).Φ 0 = Pipeline.ΦA spec2 c from rfl]
    exact enterΦA spec2 c _
  hout c := by
    rw [Pipeline.ownSems0_none, show (pdats m ρ 2 c).Φ (Fin.last _) = Pipeline.ΦA spec2 c from rfl]
    exact leaveΦA spec2 c
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. As the regions before it,
    but its invariant is the stepwise one of the accumulating body: entered from the class invariant and left to it. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hin c := by
    rw [show (pdats m ρ 3 c).Φ 0 = (dat3 (V6 m ρ) c).Φ 0 from rfl]
    exact (enterΦA spec3 c _).trans (hin3 (V6 m ρ) c)
  hout c := by
    rw [Pipeline.ownSems0_none, show (pdats m ρ 3 c).Φ (Fin.last _) = (dat3 (V6 m ρ) c).Φ (Fin.last cfg3.N) from rfl]
    exact (hout3 (V6 m ρ) c).trans (leaveΦA spec3 c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]
/-- @main is the run of the segments. -/
theorem main_run (c : Dev nD) : main (F := F) c = Pipeline.Seg.run (segs m ρ) := (main_chain c).trans (by chain_rfl)

set_option backward.isDefEq.respectTransparency.types false in
/-- The run, at any post that follows from the final memory holding every unscoped buffer at `W8`: from any memory
    with zero counters every weakly fair execution of @main on the TensorCores terminates, nothing faulting, and the
    final memory satisfies the post. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => Tₙ_of_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- THE RUN: every final memory holds every unscoped buffer of every core at the last boundary's contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  run_post m ρ fun s h => h

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ fun s h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c)⟩

end Cert.KernelIdeal.Hand

end
-- ==== Proof.Val.Host.lean ====
/-
  The host operations of the kernel's program between its kernel launches, read against the reference's own stages.

  Before each of the three layer kernels the host normalises the source words (a negative word has the node count
  added), gathers the rows of the current feature array at them, adds the gathered rows into a zero array at the
  destination words, rounds the two weight matrices to the narrower format and views each bias as a one-row matrix.  The
  reference performs the same gather and scatter-add on its own copy of the features, so each of these buffers is the
  reference's stage of the same name applied to what the kernel's program holds in the buffers read; after the last
  kernel the one-row result is viewed as a vector.  Every statement is over an arbitrary valuation of the buffers and at
  every instance of the float operations.
-/
import proofs.«110569_j70806830841987_1_alg».proof.Proof.Gen.KernelIdeal.Launch
import proofs.«110569_j70806830841987_1_alg».proof.Proof.Gen.ReferenceIdeal.Read
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

variable {F : FTy → Type} [FloatOps F] [Named F]

/-- The neighbour sum over 64 columns as the reference spells it: the rows of `h` gathered at the normalised source
    words `x1`, added into a zero array at the destination words `x2`. -/
def seg64 (h : (⟨Cert.ReferenceIdeal.S100000x64, .f32⟩ : BufTy).Contents (Elt F))
    (x1 x2 : (⟨Cert.ReferenceIdeal.S1200000, .i32⟩ : BufTy).Contents (Elt F)) : (⟨Cert.ReferenceIdeal.S100000x64, .f32⟩ : BufTy).Contents (Elt F) :=
  Host.scatterAdd Cert.ReferenceIdeal.scatter_S100000x64_S1200000x1_S1200000x64_1_0_0_1 (Cert.ReferenceIdeal.Read.val_main_v28 (F := F))
    (Cert.ReferenceIdeal.Read.val_main_v29 (F := F) x2)
    (Host.gather Cert.ReferenceIdeal.gather_S100000x64_S1200000x1_S1200000x64_1_0_n_n_0_1_164 h (Cert.ReferenceIdeal.Read.val_main_v26 (F := F) x1))

/-- The reference's neighbour sum of its first layer's result is that function of it, -/
theorem v30_eq (a0 : (⟨Cert.ReferenceIdeal.S100000x2, .f32⟩ : BufTy).Contents (Elt F)) (a1 a2 : (⟨Cert.ReferenceIdeal.S1200000, .i32⟩ : BufTy).Contents (Elt F)) (a3 : (⟨Cert.ReferenceIdeal.S2x64, .f32⟩ : BufTy).Contents (Elt F)) (a4 : (⟨Cert.ReferenceIdeal.S64, .f32⟩ : BufTy).Contents (Elt F)) (a5 : (⟨Cert.ReferenceIdeal.S64x64, .f32⟩ : BufTy).Contents (Elt F)) (a6 : (⟨Cert.ReferenceIdeal.S64, .f32⟩ : BufTy).Contents (Elt F)) :
    Cert.ReferenceIdeal.Read.val_main_v30 (F := F) a0 a1 a2 a3 a4 a5 a6 = seg64 (F := F) (Cert.ReferenceIdeal.Read.val_main_v20 (F := F) a0 a1 a2 a3 a4 a5 a6) a1 a2 := rfl

/-- and so is the one of its second layer's result. -/
theorem v51_eq (a0 : (⟨Cert.ReferenceIdeal.S100000x2, .f32⟩ : BufTy).Contents (Elt F)) (a1 a2 : (⟨Cert.ReferenceIdeal.S1200000, .i32⟩ : BufTy).Contents (Elt F)) (a3 : (⟨Cert.ReferenceIdeal.S2x64, .f32⟩ : BufTy).Contents (Elt F)) (a4 : (⟨Cert.ReferenceIdeal.S64, .f32⟩ : BufTy).Contents (Elt F)) (a5 : (⟨Cert.ReferenceIdeal.S64x64, .f32⟩ : BufTy).Contents (Elt F)) (a6 : (⟨Cert.ReferenceIdeal.S64, .f32⟩ : BufTy).Contents (Elt F)) (a7 : (⟨Cert.ReferenceIdeal.S64x64, .f32⟩ : BufTy).Contents (Elt F)) (a8 : (⟨Cert.ReferenceIdeal.S64, .f32⟩ : BufTy).Contents (Elt F)) (a9 : (⟨Cert.ReferenceIdeal.S64x64, .f32⟩ : BufTy).Contents (Elt F)) (a10 : (⟨Cert.ReferenceIdeal.S64, .f32⟩ : BufTy).Contents (Elt F)) :
    Cert.ReferenceIdeal.Read.val_main_v51 (F := F) a0 a1 a2 a3 a4 a5 a6 a7 a8 a9 a10 = seg64 (F := F) (Cert.ReferenceIdeal.Read.val_main_v41 (F := F) a0 a1 a2 a3 a4 a5 a6 a7 a8 a9 a10) a1 a2 := rfl

/-! ## Before the first layer's kernel -/

/-- The two-column neighbour sum of the input features is the reference's. -/
theorem s0_v9 (Wk : Valuation τ sig (Elt F)) :
    StableHlo.after (hostOps0 (F := F)) Wk (Proc.devRef .tc main_v9)
      = Cert.ReferenceIdeal.Read.val_main_v9 (F := F) (Wk (Proc.devRef .tc main_arg0)) (Wk (Proc.devRef .tc main_arg1)) (Wk (Proc.devRef .tc main_arg2)) := by
  after_results_simp <;> rfl
theorem s0_v10 (Wk : Valuation τ sig (Elt F)) :
    StableHlo.after (hostOps0 (F := F)) Wk (Proc.devRef .tc main_v10) = truncf .bf16 (Wk (Proc.devRef .tc main_arg3)) bitsLt_bf16_f32 := by
  after_results_simp <;> rfl
theorem s0_v11 (Wk : Valuation τ sig (Elt F)) :
    StableHlo.after (hostOps0 (F := F)) Wk (Proc.devRef .tc main_v11) = truncf .bf16 (Wk (Proc.devRef .tc main_arg5)) bitsLt_bf16_f32 := by
  after_results_simp <;> rfl
theorem s0_v12 (Wk : Valuation τ sig (Elt F)) :
    StableHlo.after (hostOps0 (F := F)) Wk (Proc.devRef .tc main_v12) = shapeCast S1x64 (Wk (Proc.devRef .tc main_arg4)) shapeCasts_S64_S1x64 := by
  after_results_simp <;> rfl
theorem s0_v13 (Wk : Valuation τ sig (Elt F)) :
    StableHlo.after (hostOps0 (F := F)) Wk (Proc.devRef .tc main_v13) = shapeCast S1x64 (Wk (Proc.devRef .tc main_arg6)) shapeCasts_S64_S1x64 := by
  after_results_simp <;> rfl

/-! ## Before the second layer's kernel -/

/-- The neighbour sum of the first layer's result, wherever that array came from. -/
theorem s1_v24 (Wk : Valuation τ sig (Elt F)) :
    StableHlo.after (hostOps1 (F := F)) Wk (Proc.devRef .tc main_v24)
      = seg64 (F := F) (Wk (Proc.devRef .tc main_v14)) (Wk (Proc.devRef .tc main_arg1)) (Wk (Proc.devRef .tc main_arg2)) := by
  after_results_simp <;> rfl
theorem s1_v25 (Wk : Valuation τ sig (Elt F)) :
    StableHlo.after (hostOps1 (F := F)) Wk (Proc.devRef .tc main_v25) = truncf .bf16 (Wk (Proc.devRef .tc main_arg7)) bitsLt_bf16_f32 := by
  after_results_simp <;> rfl
theorem s1_v26 (Wk : Valuation τ sig (Elt F)) :
    StableHlo.after (hostOps1 (F := F)) Wk (Proc.devRef .tc main_v26) = truncf .bf16 (Wk (Proc.devRef .tc main_arg9)) bitsLt_bf16_f32 := by
  after_results_simp <;> rfl
theorem s1_v27 (Wk : Valuation τ sig (Elt F)) :
    StableHlo.after (hostOps1 (F := F)) Wk (Proc.devRef .tc main_v27) = shapeCast S1x64 (Wk (Proc.devRef .tc main_arg8)) shapeCasts_S64_S1x64 := by
  after_results_simp <;> rfl
theorem s1_v28 (Wk : Valuation τ sig (Elt F)) :
    StableHlo.after (hostOps1 (F := F)) Wk (Proc.devRef .tc main_v28) = shapeCast S1x64 (Wk (Proc.devRef .tc main_arg10)) shapeCasts_S64_S1x64 := by
  after_results_simp <;> rfl

/-! ## Before the third layer's kernel -/

/-- The neighbour sum of the second layer's result. -/
theorem s2_v39 (Wk : Valuation τ sig (Elt F)) :
    StableHlo.after (hostOps2 (F := F)) Wk (Proc.devRef .tc main_v39)
      = seg64 (F := F) (Wk (Proc.devRef .tc main_v29)) (Wk (Proc.devRef .tc main_arg1)) (Wk (Proc.devRef .tc main_arg2)) := by
  after_results_simp <;> rfl
theorem s2_v40 (Wk : Valuation τ sig (Elt F)) :
    StableHlo.after (hostOps2 (F := F)) Wk (Proc.devRef .tc main_v40) = truncf .bf16 (Wk (Proc.devRef .tc main_arg11)) bitsLt_bf16_f32 := by
  after_results_simp <;> rfl
theorem s2_v41 (Wk : Valuation τ sig (Elt F)) :
    StableHlo.after (hostOps2 (F := F)) Wk (Proc.devRef .tc main_v41) = truncf .bf16 (Wk (Proc.devRef .tc main_arg13)) bitsLt_bf16_f32 := by
  after_results_simp <;> rfl
theorem s2_v42 (Wk : Valuation τ sig (Elt F)) :
    StableHlo.after (hostOps2 (F := F)) Wk (Proc.devRef .tc main_v42) = shapeCast S1x64 (Wk (Proc.devRef .tc main_arg12)) shapeCasts_S64_S1x64 := by
  after_results_simp <;> rfl
theorem s2_v43 (Wk : Valuation τ sig (Elt F)) :
    StableHlo.after (hostOps2 (F := F)) Wk (Proc.devRef .tc main_v43) = shapeCast S1x64 (Wk (Proc.devRef .tc main_arg14)) shapeCasts_S64_S1x64 := by
  after_results_simp <;> rfl

/-! ## After the pooling kernel -/

/-- The result vector is the pooling kernel's one-row output array viewed as a vector. -/
theorem s4_v46 (Wk : Valuation τ sig (Elt F)) :
    StableHlo.after (hostOps4 (F := F)) Wk (Proc.devRef .tc main_v46) = shapeCast S64 (Wk (Proc.devRef .tc main_v45)) shapeCasts_S1x64_S64 := by
  after_results_simp <;> rfl

end Cert.Bridge.Host

end
-- ==== Proof.Spec.lean ====
/-
  The mathematics both programs compute, stated once over plain index types.

  A graph-isomorphism layer sends a node's feature row `h n` and the sum `agg n` of its in-neighbours' rows to
  `relu (relu ((h n + agg n) · W₁ + b₁) · W₂ + b₂)`; the network's result is the mean over the nodes of the last layer,
  column by column.  On the extended reals the positive part is `max · 0`, a matrix product is the plain sum over the
  contracted index, and a change of float format is the identity, so one row of a layer is `mlpRow` below whatever the
  tiling, and the mean is `colMean` whatever the order the rows are added in.
-/
import Idealize.ShloMosaic.PureOps.Ideal

noncomputable section

namespace Cert.Spec

open scoped BigOperators

/-- One node's row `z` (its own features plus its neighbours' sum) through the two dense layers, each followed by the
    positive part: `max (∑ k, max (∑ i, z i · w₁ i k + b₁ k) 0 · w₂ k q + b₂ q) 0` at output column `q`. -/
def mlpRow {d : ℕ} (z : Fin d → EReal) (w1 : Fin d → Fin 64 → EReal) (b1 : Fin 64 → EReal)
    (w2 : Fin 64 → Fin 64 → EReal) (b2 : Fin 64 → EReal) (q : Fin 64) : EReal :=
  max ((∑ k : Fin 64, max ((∑ i : Fin d, z i * w1 i k) + b1 k) 0 * w2 k q) + b2 q) 0

/-- The mean over the 100000 nodes of one feature column, the division by the node count spelt as the product with its
    reciprocal (on the extended reals the two agree at every value, infinite ones included). -/
def colMean (h : Fin 100000 → EReal) : EReal :=
  (∑ n : Fin 100000, h n) * ((1 / 100000 : ℝ) : EReal)

end Cert.Spec

end
-- ==== Proof.Val.Pay.lean ====
/-
  One entry of the block a layer kernel stores, at the ideal values.

  Each of the three layer kernels stores, for its tile of 5000 node rows, the block
  `relu (relu ((h + agg) · W₁ + b₁) · W₂ + b₂)` computed from the tile's rows of `h` and `agg` and the whole weight and bias
  arrays.  On the extended reals a change of float format is the identity, a product accumulated into the zero block is the plain
  sum over the contracted index, a bias row broadcast over the tile reads its one row, and the positive part is `max · 0`; so the
  entry at row `p` and column `q` of the stored block is `Cert.Spec.mlpRow` of row `p` of `h + agg`.  The input width is 2 for
  the first layer and 64 for the other two; nothing else differs.
-/
import proofs.«110569_j70806830841987_1_alg».proof.Proof.Gen.KernelIdeal.Skeleton
import proofs.«110569_j70806830841987_1_alg».proof.Proof.Spec
import Idealize.ShloMosaic.Lib.ValueLayout
import Idealize.ShloMosaic.PureOps.Ideal.Laws

noncomputable section

namespace Cert.Bridge.Layer

open Cert.KernelIdeal Cert.KernelIdeal.Gen Idealize.ShloMosaic Idealize.ShloMosaic.ValueIdx
open scoped BigOperators

/-! ## A product into the zero block, read at an index -/

/-- The left operand's row coordinate at output index `i` is `i`'s row, whatever the contraction index. -/
theorem d_lhs64_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The right operand's column coordinate at output index `i` is `i`'s column, whatever the contraction index. -/
theorem d_rhs64_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product into the zero block, read at row `p` and column `q`: the sum over the 64 contracted positions `k` of the left
    operand at `(p, k)` times the right operand at `(k, q)`. -/
theorem d_matmul64_at (lhs : FVec Ideal S5000x64 .bf16) (rhs : FVec Ideal S64x64 .bf16) (p : Fin 5000) (q : Fin 64) :
    matmul dot_S5000x64_S64x64_S5000x64_1_0_0_1_n_n none lhs rhs (constant S5000x64 .f32 0x00000000#32) (ix2 p q)
      = ∑ k : Fin 64, lhs (ix2 p k) * rhs (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact d_lhs64_0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact d_rhs64_1 _ _)
  rw [el, er]

/-- The left operand's row coordinate at output index `i` is `i`'s row, whatever the contraction index. -/
theorem d_lhs2_0 (i : S5000x64.Idx) (c : dot_S5000x2_S2x64_S5000x64_1_0_0_1_n_n.contr.Idx) :
    (dot_S5000x2_S2x64_S5000x64_1_0_0_1_n_n.lhsIdx i c 0).val = (i 0).val := by
  unfold DotDims.lhsIdx
  rw [dif_neg (show ¬(0 : Fin S5000x2.rank) ∈ dot_S5000x2_S2x64_S5000x64_1_0_0_1_n_n.lhsBatch by decide), dif_pos (show (0 : Fin S5000x2.rank) ∈ dot_S5000x2_S2x64_S5000x64_1_0_0_1_n_n.lhsNonContracting by decide)]
  rfl

/-- The right operand's column coordinate at output index `i` is `i`'s column, whatever the contraction index. -/
theorem d_rhs2_1 (i : S5000x64.Idx) (c : dot_S5000x2_S2x64_S5000x64_1_0_0_1_n_n.contr.Idx) :
    (dot_S5000x2_S2x64_S5000x64_1_0_0_1_n_n.rhsIdx i c 1).val = (i 1).val := by
  unfold DotDims.rhsIdx
  rw [dif_neg (show ¬(1 : Fin S2x64.rank) ∈ dot_S5000x2_S2x64_S5000x64_1_0_0_1_n_n.rhsBatch by decide), dif_pos (show (1 : Fin S2x64.rank) ∈ dot_S5000x2_S2x64_S5000x64_1_0_0_1_n_n.rhsNonContracting by decide)]
  rfl

/-- A product into the zero block, read at row `p` and column `q`: the sum over the 2 contracted positions `k` of the left
    operand at `(p, k)` times the right operand at `(k, q)`. -/
theorem d_matmul2_at (lhs : FVec Ideal S5000x2 .bf16) (rhs : FVec Ideal S2x64 .bf16) (p : Fin 5000) (q : Fin 64) :
    matmul dot_S5000x2_S2x64_S5000x64_1_0_0_1_n_n none lhs rhs (constant S5000x64 .f32 0x00000000#32) (ix2 p q)
      = ∑ k : Fin 2, lhs (ix2 p k) * rhs (ix2 k q) := by
  simp only [matmul]
  rw [Ideal.matmul_constant_zero_apply, ← Equiv.sum_comp (contrEquiv1 dot_S5000x2_S2x64_S5000x64_1_0_0_1_n_n 2 rfl rfl).symm]
  refine Finset.sum_congr rfl fun k _ => ?_
  have hk := contrEquiv1_symm_val dot_S5000x2_S2x64_S5000x64_1_0_0_1_n_n 2 rfl rfl k
  have el : dot_S5000x2_S2x64_S5000x64_1_0_0_1_n_n.lhsIdx (ix2 p q) ((contrEquiv1 dot_S5000x2_S2x64_S5000x64_1_0_0_1_n_n 2 rfl rfl).symm k) = ix2 p k := funext fun a => Fin.ext (by
    match a with
    | ⟨0, _⟩ => exact d_lhs2_0 _ _
    | ⟨1, _⟩ => exact (dot_S5000x2_S2x64_S5000x64_1_0_0_1_n_n.lhsIdx_val_of_single rfl _ _).trans hk)
  have er : dot_S5000x2_S2x64_S5000x64_1_0_0_1_n_n.rhsIdx (ix2 p q) ((contrEquiv1 dot_S5000x2_S2x64_S5000x64_1_0_0_1_n_n 2 rfl rfl).symm k) = ix2 k q := funext fun a => Fin.ext (by
    match a with
    | ⟨0, _⟩ => exact (dot_S5000x2_S2x64_S5000x64_1_0_0_1_n_n.rhsIdx_val_of_single rfl _ _).trans hk
    | ⟨1, _⟩ => exact d_rhs2_1 _ _)
  rw [el, er]

/-! ## The stored block at an index -/

/-- The second layer's stored block at `(p, q)` is `mlpRow` of row `p` of `h + agg` (width 64). -/
theorem pay64_at (x0 x1 : Vec Ideal S5000x64 .f32) (w1 : Vec Ideal S64x64 .bf16) (b1 : Vec Ideal S1x64 .f32) (w2 : Vec Ideal S64x64 .bf16) (b2 : Vec Ideal S1x64 .f32) (p : Fin 5000) (q : Fin 64) :
    k1_pay1 (F := Ideal) x0 x1 w1 b1 w2 b2 (ix2 p q)
      = Cert.Spec.mlpRow (fun i => x0 (ix2 p i) + x1 (ix2 p i)) (fun i k => w1 (ix2 i k)) (fun k => b1 (ix2 0 k)) (fun k j => w2 (ix2 k j)) (fun j => b2 (ix2 0 j)) q := by
  unfold k1_pay1 Cert.Spec.mlpRow
  dsimp only
  simp only [shapeCast_self]
  -- the outer positive part, the second product and the second bias, at (p, q)
  show max (matmul (F := Ideal) dot_S5000x64_S64x64_S5000x64_1_0_0_1_n_n none _ (w2 : FVec Ideal S64x64 .bf16) (constant (F := Ideal) S5000x64 .f32 0x00000000#32) (ix2 p q)
      + broadcastTo S5000x64 b2 broadcasts_S1x64_S5000x64 (ix2 p q)) (Ideal.ofBits .f32 0x00000000#32) = _
  rw [d_matmul64_at, broadcastTo_1b_ab_apply, Ideal.ofBits_zero_f32]
  refine congrArg (fun s => max (s + b2 (ix2 0 q)) 0) (Finset.sum_congr rfl fun k _ => ?_)
  refine congrArg (· * w2 (ix2 k q)) ?_
  -- the hidden layer's entry k of row p: the inner positive part, the first product and the first bias, at (p, k)
  show max (matmul (F := Ideal) dot_S5000x64_S64x64_S5000x64_1_0_0_1_n_n none _ (w1 : FVec Ideal S64x64 .bf16) (constant (F := Ideal) S5000x64 .f32 0x00000000#32) (ix2 p k)
      + broadcastTo S5000x64 b1 broadcasts_S1x64_S5000x64 (ix2 p k)) (Ideal.ofBits .f32 0x00000000#32) = _
  rw [d_matmul64_at, broadcastTo_1b_ab_apply, Ideal.ofBits_zero_f32]
  rfl

/-- The third layer's stored block at `(p, q)`: the same function of its own operands (width 64). -/
theorem d_pay64_at_k2 (x0 x1 : Vec Ideal S5000x64 .f32) (w1 : Vec Ideal S64x64 .bf16) (b1 : Vec Ideal S1x64 .f32) (w2 : Vec Ideal S64x64 .bf16) (b2 : Vec Ideal S1x64 .f32) (p : Fin 5000) (q : Fin 64) :
    k2_pay1 (F := Ideal) x0 x1 w1 b1 w2 b2 (ix2 p q)
      = Cert.Spec.mlpRow (fun i => x0 (ix2 p i) + x1 (ix2 p i)) (fun i k => w1 (ix2 i k)) (fun k => b1 (ix2 0 k)) (fun k j => w2 (ix2 k j)) (fun j => b2 (ix2 0 j)) q := by
  unfold k2_pay1 Cert.Spec.mlpRow
  dsimp only
  simp only [shapeCast_self]
  -- the outer positive part, the second product and the second bias, at (p, q)
  show max (matmul (F := Ideal) dot_S5000x64_S64x64_S5000x64_1_0_0_1_n_n none _ (w2 : FVec Ideal S64x64 .bf16) (constant (F := Ideal) S5000x64 .f32 0x00000000#32) (ix2 p q)
      + broadcastTo S5000x64 b2 broadcasts_S1x64_S5000x64 (ix2 p q)) (Ideal.ofBits .f32 0x00000000#32) = _
  rw [d_matmul64_at, broadcastTo_1b_ab_apply, Ideal.ofBits_zero_f32]
  refine congrArg (fun s => max (s + b2 (ix2 0 q)) 0) (Finset.sum_congr rfl fun k _ => ?_)
  refine congrArg (· * w2 (ix2 k q)) ?_
  -- the hidden layer's entry k of row p: the inner positive part, the first product and the first bias, at (p, k)
  show max (matmul (F := Ideal) dot_S5000x64_S64x64_S5000x64_1_0_0_1_n_n none _ (w1 : FVec Ideal S64x64 .bf16) (constant (F := Ideal) S5000x64 .f32 0x00000000#32) (ix2 p k)
      + broadcastTo S5000x64 b1 broadcasts_S1x64_S5000x64 (ix2 p k)) (Ideal.ofBits .f32 0x00000000#32) = _
  rw [d_matmul64_at, broadcastTo_1b_ab_apply, Ideal.ofBits_zero_f32]
  rfl

/-- The first layer's stored block at `(p, q)` is `mlpRow` of row `p` of `h + agg`, of width 2. -/
theorem d_pay2_at (x0 x1 : Vec Ideal S5000x2 .f32) (w1 : Vec Ideal S2x64 .bf16) (b1 : Vec Ideal S1x64 .f32) (w2 : Vec Ideal S64x64 .bf16) (b2 : Vec Ideal S1x64 .f32) (p : Fin 5000) (q : Fin 64) :
    k0_pay1 (F := Ideal) x0 x1 w1 b1 w2 b2 (ix2 p q)
      = Cert.Spec.mlpRow (fun i => x0 (ix2 p i) + x1 (ix2 p i)) (fun i k => w1 (ix2 i k)) (fun k => b1 (ix2 0 k)) (fun k j => w2 (ix2 k j)) (fun j => b2 (ix2 0 j)) q := by
  unfold k0_pay1 Cert.Spec.mlpRow
  dsimp only
  simp only [shapeCast_self]
  -- the outer positive part, the second product and the second bias, at (p, q)
  show max (matmul (F := Ideal) dot_S5000x64_S64x64_S5000x64_1_0_0_1_n_n none _ (w2 : FVec Ideal S64x64 .bf16) (constant (F := Ideal) S5000x64 .f32 0x00000000#32) (ix2 p q)
      + broadcastTo S5000x64 b2 broadcasts_S1x64_S5000x64 (ix2 p q)) (Ideal.ofBits .f32 0x00000000#32) = _
  rw [d_matmul64_at, broadcastTo_1b_ab_apply, Ideal.ofBits_zero_f32]
  refine congrArg (fun s => max (s + b2 (ix2 0 q)) 0) (Finset.sum_congr rfl fun k _ => ?_)
  refine congrArg (· * w2 (ix2 k q)) ?_
  -- the hidden layer's entry k of row p: the inner positive part, the first product and the first bias, at (p, k)
  show max (matmul (F := Ideal) dot_S5000x2_S2x64_S5000x64_1_0_0_1_n_n none _ (w1 : FVec Ideal S2x64 .bf16) (constant (F := Ideal) S5000x64 .f32 0x00000000#32) (ix2 p k)
      + broadcastTo S5000x64 b1 broadcasts_S1x64_S5000x64 (ix2 p k)) (Ideal.ofBits .f32 0x00000000#32) = _
  rw [d_matmul2_at, broadcastTo_1b_ab_apply, Ideal.ofBits_zero_f32]
  rfl

end Cert.Bridge.Layer

end
-- ==== Proof.Val.RefLayer.lean ====
/-
  The reference's three layer stages, read at an index.

  Each layer of the reference adds to a node's row the sum of its in-neighbours' rows (the stage `agg`, a scatter-add the host
  computes; it is kept as the named stage it is), multiplies by the first weight matrix, adds the first bias, takes the positive
  part, multiplies by the second weight matrix, adds the second bias and takes the positive part again.  Read at node `n` and
  column `q`, each product is the plain sum over the contracted index, each bias broadcast reads its entry at the column, and the
  positive part is `max · 0`; so the layer's result at `(n, q)` is `Cert.Spec.mlpRow` of row `n` of `h + agg`.
-/
import proofs.«110569_j70806830841987_1_alg».proof.Proof.Gen.ReferenceIdeal.Read
import proofs.«110569_j70806830841987_1_alg».proof.Proof.Spec

noncomputable section

namespace Cert.Bridge.Layer

open Cert.ReferenceIdeal Idealize.ShloMosaic Idealize.ShloMosaic.ValueIdx
open scoped BigOperators

/-! ## Layer 0: index maps of its two products and two bias rows, at coordinates -/

theorem d_lidx16 (n : Fin 100000) (q k : Fin 64) : Cert.ReferenceIdeal.Read.lidx_main_v16 (ix2 n q) k = ix2 n k :=
  funext fun a => Fin.ext (by match a with | ⟨0, _⟩ => rfl | ⟨1, _⟩ => rfl)
theorem d_ridx16 (n : Fin 100000) (q k : Fin 64) : Cert.ReferenceIdeal.Read.ridx_main_v16 (ix2 n q) k = ix2 k q :=
  funext fun a => Fin.ext (by match a with | ⟨0, _⟩ => rfl | ⟨1, _⟩ => rfl)
theorem d_bidx17 (n : Fin 100000) (q : Fin 64) : Cert.ReferenceIdeal.Read.idx_main_v17 (Cert.ReferenceIdeal.Read.idx_main_v18 (ix2 n q)) = ix1 q :=
  funext fun a => Fin.ext (by match a with | ⟨0, _⟩ => rfl)
theorem d_lidx11 (n : Fin 100000) (k : Fin 64) (i : Fin 2) : Cert.ReferenceIdeal.Read.lidx_main_v11 (ix2 n k) i = ix2 n i :=
  funext fun a => Fin.ext (by match a with | ⟨0, _⟩ => rfl | ⟨1, _⟩ => rfl)
theorem d_ridx11 (n : Fin 100000) (k : Fin 64) (i : Fin 2) : Cert.ReferenceIdeal.Read.ridx_main_v11 (ix2 n k) i = ix2 i k :=
  funext fun a => Fin.ext (by match a with | ⟨0, _⟩ => rfl | ⟨1, _⟩ => rfl)
theorem d_bidx12 (n : Fin 100000) (k : Fin 64) : Cert.ReferenceIdeal.Read.idx_main_v12 (Cert.ReferenceIdeal.Read.idx_main_v13 (ix2 n k)) = ix1 k :=
  funext fun a => Fin.ext (by match a with | ⟨0, _⟩ => rfl)

/-- The reference's first layer at node `n`, column `q`: `mlpRow` of row `n` (of width 2) of the input features plus their neighbour sums, with the first layer's weights and biases. -/
theorem v20_at (a0 : (⟨S100000x2, .f32⟩ : BufTy).Contents (Elt Ideal)) (a1 : (⟨S1200000, .i32⟩ : BufTy).Contents (Elt Ideal)) (a2 : (⟨S1200000, .i32⟩ : BufTy).Contents (Elt Ideal)) (a3 : (⟨S2x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (n : Fin 100000) (q : Fin 64) :
    Cert.ReferenceIdeal.Read.val_main_v20 (F := Ideal) a0 a1 a2 a3 a4 a5 a6 (ix2 n q)
      = Cert.Spec.mlpRow (fun i => a0 (ix2 n i) + Cert.ReferenceIdeal.Read.val_main_v9 (F := Ideal) a0 a1 a2 (ix2 n i))
          (fun i k => a3 (ix2 i k)) (fun k => a4 (ix1 k)) (fun k j => a5 (ix2 k j)) (fun j => a6 (ix1 j)) q := by
  unfold Cert.Spec.mlpRow
  -- the outer positive part, the second product and the second bias, at (n, q)
  rw [Cert.ReferenceIdeal.Read.val_main_v20_apply, Cert.ReferenceIdeal.Read.val_main_v19_apply, Cert.ReferenceIdeal.Read.val_main_v16_apply, Cert.ReferenceIdeal.Read.val_main_v18_apply, Cert.ReferenceIdeal.Read.val_main_v17_apply,
    Cert.ReferenceIdeal.Read.val_main_call1_v0_apply, Cert.ReferenceIdeal.Read.val_main_call1_cst_apply, d_bidx17 n q]
  show max ((∑ k, _) + a6 (ix1 q)) (Ideal.ofBits .f32 0x00000000#32) = _
  rw [Ideal.ofBits_zero_f32]
  refine congrArg (fun s => max (s + a6 (ix1 q)) 0) (Finset.sum_congr rfl fun k _ => ?_)
  rw [d_lidx16 n q k, d_ridx16 n q k]
  refine congrArg (· * a5 (ix2 k q)) ?_
  -- the hidden layer's entry k of row n: the inner positive part, the first product and the first bias, at (n, k)
  rw [Cert.ReferenceIdeal.Read.val_main_v15_apply, Cert.ReferenceIdeal.Read.val_main_v14_apply, Cert.ReferenceIdeal.Read.val_main_v11_apply, Cert.ReferenceIdeal.Read.val_main_v13_apply, Cert.ReferenceIdeal.Read.val_main_v12_apply,
    Cert.ReferenceIdeal.Read.val_main_call0_v0_apply, Cert.ReferenceIdeal.Read.val_main_call0_cst_apply, d_bidx12 n k]
  show max ((∑ i, _) + a4 (ix1 k)) (Ideal.ofBits .f32 0x00000000#32) = _
  rw [Ideal.ofBits_zero_f32]
  refine congrArg (fun s => max (s + a4 (ix1 k)) 0) (Finset.sum_congr rfl fun i _ => ?_)
  rw [d_lidx11 n k i, d_ridx11 n k i, Cert.ReferenceIdeal.Read.val_main_v10_apply]
  rfl

/-! ## Layer 1: index maps of its two products and two bias rows, at coordinates -/

theorem d_lidx37 (n : Fin 100000) (q k : Fin 64) : Cert.ReferenceIdeal.Read.lidx_main_v37 (ix2 n q) k = ix2 n k :=
  funext fun a => Fin.ext (by match a with | ⟨0, _⟩ => rfl | ⟨1, _⟩ => rfl)
theorem d_ridx37 (n : Fin 100000) (q k : Fin 64) : Cert.ReferenceIdeal.Read.ridx_main_v37 (ix2 n q) k = ix2 k q :=
  funext fun a => Fin.ext (by match a with | ⟨0, _⟩ => rfl | ⟨1, _⟩ => rfl)
theorem d_bidx38 (n : Fin 100000) (q : Fin 64) : Cert.ReferenceIdeal.Read.idx_main_v38 (Cert.ReferenceIdeal.Read.idx_main_v39 (ix2 n q)) = ix1 q :=
  funext fun a => Fin.ext (by match a with | ⟨0, _⟩ => rfl)
theorem d_lidx32 (n : Fin 100000) (k : Fin 64) (i : Fin 64) : Cert.ReferenceIdeal.Read.lidx_main_v32 (ix2 n k) i = ix2 n i :=
  funext fun a => Fin.ext (by match a with | ⟨0, _⟩ => rfl | ⟨1, _⟩ => rfl)
theorem d_ridx32 (n : Fin 100000) (k : Fin 64) (i : Fin 64) : Cert.ReferenceIdeal.Read.ridx_main_v32 (ix2 n k) i = ix2 i k :=
  funext fun a => Fin.ext (by match a with | ⟨0, _⟩ => rfl | ⟨1, _⟩ => rfl)
theorem d_bidx33 (n : Fin 100000) (k : Fin 64) : Cert.ReferenceIdeal.Read.idx_main_v33 (Cert.ReferenceIdeal.Read.idx_main_v34 (ix2 n k)) = ix1 k :=
  funext fun a => Fin.ext (by match a with | ⟨0, _⟩ => rfl)

/-- The reference's second layer at node `n`, column `q`: `mlpRow` of row `n` of the first layer's result plus its neighbour sums, with the second layer's weights and biases. -/
theorem v41_at (a0 : (⟨S100000x2, .f32⟩ : BufTy).Contents (Elt Ideal)) (a1 : (⟨S1200000, .i32⟩ : BufTy).Contents (Elt Ideal)) (a2 : (⟨S1200000, .i32⟩ : BufTy).Contents (Elt Ideal)) (a3 : (⟨S2x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) (a9 : (⟨S64x64, .f32⟩ : BufTy).Contents (Elt Ideal)) (a10 : (⟨S64, .f32⟩ : BufTy).Contents (Elt Ideal)) (n : Fin 100000) (q : Fin 64) :
    Cert.ReferenceIdeal.Read.val_main_v41 (F := Ideal) a0 a1 a2 a3 a4 a5 a6 a7 a8 a9 a10 (ix2 n q)
      = Cert.Spec.mlpRow (fun i => Cert.ReferenceIdeal.Read.val_main_v20 (F := Ideal) a0 a1 a2 a3 a4 a5 a6 (ix2 n i) + Cert.ReferenceIdeal.Read.val_main_v30 (F := Ideal) a0 a1 a2 a3 a4 a5 a6 (ix2 n i))
          (fun i k => a7 (ix2 i k)) (fun k => a8 (ix1 k)) (fun k j => a9 (ix2 k j)) (fun j => a10 (ix1 j)) q := by
  unfold Cert.Spec.mlpRow
  -- the outer positive part, the second product and the second bias, at (n, q)
  rw [Cert.ReferenceIdeal.Read.val_main_v41_apply, Cert.ReferenceIdeal.Read.val_main_v40_apply, Cert.ReferenceIdeal.Read.val_main_v37_apply, Cert.ReferenceIdeal.Read.val_main_v39_apply, Cert.ReferenceIdeal.Read.val_main_v38_apply,
    Cert.ReferenceIdeal.Read.val_main_call3_v0_apply, Cert.ReferenceIdeal.Read.val_main_call3_cst_apply, d_bidx38 n q]
  show max ((∑ k, _) + a10 (ix1 q)) (Ideal.ofBits .f32 0x00000000#32) = _
  rw [Ideal.ofBits_zero_f32]
  refine congrArg (fun s => max (s + a10 (ix1 q)) 0) (Finset.sum_congr rfl fun k _ => ?_)
  rw [d_lidx37 n q k, d_ridx37 n q k]
  refine congrArg (· * a9 (ix2 k q)) ?_
  -- the hidden layer's entry k of row n: the inner positive part, the first product and the first bias, at (n, k)
  rw [Cert.ReferenceIdeal.Read.val_main_v36_apply, Cert.ReferenceIdeal.Read.val_main_v35_apply, Cert.ReferenceIdeal.Read.val_main_v32_apply, Cert.ReferenceIdeal.Read.val_main_v34_apply, Cert.ReferenceIdeal.Read.val_main_v33_apply,
    Cert.ReferenceIdeal.Read.val_main_call2_v0_apply, Cert.ReferenceIdeal.Read.val_main_call2_cst_apply, d_bidx33 n k]
  show max ((∑ i, _) + a8 (ix1 k)) (Ideal.ofBits .f32 0x00000000#32) = _
  rw [Ideal.ofBits_zero_f32]
  refine congrArg (fun s => max (s + a8 (ix1 k)) 0) (Finset.sum_congr rfl fun i _ => ?_)
  rw [d_lidx32 n k i, d_ridx32 n k i, Cert.ReferenceIdeal.Read.val_main_v31_apply]
  rfl

/-! ## Layer 2: index maps of its two products and two bias rows, at coordinates -/

theorem d_lidx58 (n : Fin 100000) (q k : Fin 64) : Cert.ReferenceIdeal.Read.lidx_main_v58 (ix2 n q) k = ix2 n k :=
  funext fun a => Fin.ext (by match a with | ⟨0, _⟩ => rfl | ⟨1, _⟩ => rfl)
theorem d_ridx58 (n : Fin 100000) (q k : Fin 64) : Cert.ReferenceIdeal.Read.ridx_main_v58 (ix2 n q) k = ix2 k q :=
  funext fun a => Fin.ext (by match a with | ⟨0, _⟩ => rfl | ⟨1, _⟩ => rfl)
theorem d_bidx59 (n : Fin 100000) (q : Fin 64) : Cert.ReferenceIdeal.Read.idx_main_v59 (Cert.ReferenceIdeal.Read.idx_main_v60 (ix2 n q)) = ix1 q :=
  funext fun a => Fin.ext (by match a with | ⟨0, _⟩ => rfl)
theorem d_lidx53 (n : Fin 100000) (k : Fin 64) (i : Fin 64) : Cert.ReferenceIdeal.Read.lidx_main_v53 (ix2 n k) i = ix2 n i :=
  funext fun a => Fin.ext (by match a with | ⟨0, _⟩ => rfl | ⟨1, _⟩ => rfl)
theorem d_ridx53 (n : Fin 100000) (k : Fin 64) (i : Fin 64) : Cert.ReferenceIdeal.Read.ridx_main_v53 (ix2 n k) i = ix2 i k :=
  funext fun a => Fin.ext (by match a with | ⟨0, _⟩ => rfl | ⟨1, _⟩ => rfl)
theorem d_bidx54 (n : Fin 100000) (k : Fin 64) : Cert.ReferenceIdeal.Read.idx_main_v54 (Cert.ReferenceIdeal.Read.idx_main_v55 (ix2 n k)) = ix1 k :=
  funext fun a => Fin.ext (by match a with | ⟨0, _⟩ => rfl)

/-- The reference's third layer at node `n`, column `q`: `mlpRow` of row `n` of the second layer's result plus its neighbour sums, with the third layer's weights and biases. -/
theorem v62_at (a0 : (⟨S100000x2, .f32⟩ : BufTy).Contents (Elt Ideal)) (a1 : (⟨S1200000, .i32⟩ : BufTy).Contents (Elt Ideal)) (a2 : (⟨S1200000, .i32⟩ : BufTy).Contents (Elt Ideal)) (a3 : (⟨S2x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) (a9 : (⟨S64x64, .f32⟩ : BufTy).Contents (Elt Ideal)) (a10 : (⟨S64, .f32⟩ : BufTy).Contents (Elt Ideal)) (a11 : (⟨S64x64, .f32⟩ : BufTy).Contents (Elt Ideal)) (a12 : (⟨S64, .f32⟩ : BufTy).Contents (Elt Ideal)) (a13 : (⟨S64x64, .f32⟩ : BufTy).Contents (Elt Ideal)) (a14 : (⟨S64, .f32⟩ : BufTy).Contents (Elt Ideal)) (n : Fin 100000) (q : Fin 64) :
    Cert.ReferenceIdeal.Read.val_main_v62 (F := Ideal) a0 a1 a2 a3 a4 a5 a6 a7 a8 a9 a10 a11 a12 a13 a14 (ix2 n q)
      = Cert.Spec.mlpRow (fun i => Cert.ReferenceIdeal.Read.val_main_v41 (F := Ideal) a0 a1 a2 a3 a4 a5 a6 a7 a8 a9 a10 (ix2 n i) + Cert.ReferenceIdeal.Read.val_main_v51 (F := Ideal) a0 a1 a2 a3 a4 a5 a6 a7 a8 a9 a10 (ix2 n i))
          (fun i k => a11 (ix2 i k)) (fun k => a12 (ix1 k)) (fun k j => a13 (ix2 k j)) (fun j => a14 (ix1 j)) q := by
  unfold Cert.Spec.mlpRow
  -- the outer positive part, the second product and the second bias, at (n, q)
  rw [Cert.ReferenceIdeal.Read.val_main_v62_apply, Cert.ReferenceIdeal.Read.val_main_v61_apply, Cert.ReferenceIdeal.Read.val_main_v58_apply, Cert.ReferenceIdeal.Read.val_main_v60_apply, Cert.ReferenceIdeal.Read.val_main_v59_apply,
    Cert.ReferenceIdeal.Read.val_main_call5_v0_apply, Cert.ReferenceIdeal.Read.val_main_call5_cst_apply, d_bidx59 n q]
  show max ((∑ k, _) + a14 (ix1 q)) (Ideal.ofBits .f32 0x00000000#32) = _
  rw [Ideal.ofBits_zero_f32]
  refine congrArg (fun s => max (s + a14 (ix1 q)) 0) (Finset.sum_congr rfl fun k _ => ?_)
  rw [d_lidx58 n q k, d_ridx58 n q k]
  refine congrArg (· * a13 (ix2 k q)) ?_
  -- the hidden layer's entry k of row n: the inner positive part, the first product and the first bias, at (n, k)
  rw [Cert.ReferenceIdeal.Read.val_main_v57_apply, Cert.ReferenceIdeal.Read.val_main_v56_apply, Cert.ReferenceIdeal.Read.val_main_v53_apply, Cert.ReferenceIdeal.Read.val_main_v55_apply, Cert.ReferenceIdeal.Read.val_main_v54_apply,
    Cert.ReferenceIdeal.Read.val_main_call4_v0_apply, Cert.ReferenceIdeal.Read.val_main_call4_cst_apply, d_bidx54 n k]
  show max ((∑ i, _) + a12 (ix1 k)) (Ideal.ofBits .f32 0x00000000#32) = _
  rw [Ideal.ofBits_zero_f32]
  refine congrArg (fun s => max (s + a12 (ix1 k)) 0) (Finset.sum_congr rfl fun i _ => ?_)
  rw [d_lidx53 n k i, d_ridx53 n k i, Cert.ReferenceIdeal.Read.val_main_v52_apply]
  rfl

end Cert.Bridge.Layer

end
-- ==== Proof.Val.Region0.lean ====
/-
  What region 0 (the first layer's kernel) leaves in its output array, at the ideal values.

  The first layer's rows have width 2: at tile `t` of the 20 tiles the kernel reads rows `5000 t … 5000 t + 4999` of the input
  features and of their neighbour sums (arrays of 100000 rows of 2) and the whole weight and bias arrays (the first weight matrix
  is 2 by 64) and writes back the 5000 by 64 block of `Cert.Spec.mlpRow` values of those rows (Val/Pay.lean).  When the arrays the
  region finds are the reference's input features, their neighbour sums and the first layer's weights and biases, entry `(p, q)`
  of tile `t`'s block is the reference's first-layer result at `(5000 t + p, q)` (Val/RefLayer.lean); the tiles cover the 100000
  rows, so the output array ends holding that result.
-/
import proofs.«110569_j70806830841987_1_alg».proof.Proof.KI.BodyA0
import proofs.«110569_j70806830841987_1_alg».proof.Proof.Val.Pay
import proofs.«110569_j70806830841987_1_alg».proof.Proof.Val.RefLayer
import Idealize.ShloMosaic.Lib.Pipeline.Value

-- membership in a rectangle of 5000 rows: the elaborator's structural look recurses once per coordinate of the long axis
set_option maxRecDepth 16384

noncomputable section

namespace Cert.Bridge.Layer

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

theorem d_hz0 : (![0, 0] : Fin 2 → Nat) = fun _ => 0 := funext fun a => by fin_cases a <;> rfl

/-! ## Region 0: the index maps, decided over the grid -/

/-- Windows 0, 1 (the rows of `h` and of `agg`) and 6 (the result) move with the point along the rows; windows 2 to 5 (weights and
    biases) stay at block (0, 0). -/
theorem d_idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Region 0: each input window's block, read off its array -/

/-- Input window 0's block at point `t`: entry `(p, i)` is entry `(5000 t + p, i)` of its array. -/
theorem d_iblk0_0 (c : Dev nD) (t : Fin cfg0.N) (p : Fin 5000) (i : Fin 2) (n : Fin 100000) (hn : n.val = 5000 * t.val + p.val) :
    (iblk0 V c 0 t : Vec Ideal S5000x2 .f32) (ix2 p i) = (V c main_arg0 : S100000x2.Idx → EReal) (ix2 n i) := by
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = n.val; rw [(d_idx_facts0 t).1, hn]; omega
  | ⟨1, _⟩ => show win0_0.index t (1 : Fin 2) * 2 + 1 * i.val = i.val; rw [(d_idx_facts0 t).2.1]; omega

/-- Input window 1's block at point `t`: entry `(p, i)` is entry `(5000 t + p, i)` of its array. -/
theorem d_iblk0_1 (c : Dev nD) (t : Fin cfg0.N) (p : Fin 5000) (i : Fin 2) (n : Fin 100000) (hn : n.val = 5000 * t.val + p.val) :
    (iblk0 V c 1 t : Vec Ideal S5000x2 .f32) (ix2 p i) = (V c main_v9 : S100000x2.Idx → EReal) (ix2 n i) := by
  unfold iblk0
  rw [View.read_apply]
  show V c main_v9 _ = V c main_v9 _
  refine congrArg (V c main_v9) (funext fun a => Fin.ext ?_)
  match a with
  | ⟨0, _⟩ => show win0_1.index t (0 : Fin 2) * 5000 + 1 * p.val = n.val; rw [(d_idx_facts0 t).2.2.1, hn]; omega
  | ⟨1, _⟩ => show win0_1.index t (1 : Fin 2) * 2 + 1 * i.val = i.val; rw [(d_idx_facts0 t).2.2.2.1]; omega

/-- Input window 2's block at every point is its whole array. -/
theorem d_iblk0_2 (c : Dev nD) (t : Fin cfg0.N) (i : Fin 2) (k : Fin 64) :
    (iblk0 V c 2 t : Vec Ideal S2x64 .bf16) (ix2 i k) = (V c main_v10 : S2x64.Idx → EReal) (ix2 i k) := by
  unfold iblk0
  rw [View.read_apply]
  show V c main_v10 _ = V c main_v10 _
  refine congrArg (V c main_v10) (funext fun a => Fin.ext ?_)
  match a with
  | ⟨0, _⟩ => show win0_2.index t (0 : Fin 2) * 2 + 1 * i.val = i.val; rw [(d_idx_facts0 t).2.2.2.2.1]; omega
  | ⟨1, _⟩ => show win0_2.index t (1 : Fin 2) * 64 + 1 * k.val = k.val; rw [(d_idx_facts0 t).2.2.2.2.2.1]; omega

/-- Input window 3's block at every point is its whole array. -/
theorem d_iblk0_3 (c : Dev nD) (t : Fin cfg0.N) (i : Fin 1) (k : Fin 64) :
    (iblk0 V c 3 t : Vec Ideal S1x64 .f32) (ix2 i k) = (V c main_v12 : S1x64.Idx → EReal) (ix2 i k) := by
  unfold iblk0
  rw [View.read_apply]
  show V c main_v12 _ = V c main_v12 _
  refine congrArg (V c main_v12) (funext fun a => Fin.ext ?_)
  match a with
  | ⟨0, _⟩ => show win0_3.index t (0 : Fin 2) * 1 + 1 * i.val = i.val; rw [(d_idx_facts0 t).2.2.2.2.2.2.1]; omega
  | ⟨1, _⟩ => show win0_3.index t (1 : Fin 2) * 64 + 1 * k.val = k.val; rw [(d_idx_facts0 t).2.2.2.2.2.2.2.1]; omega

/-- Input window 4's block at every point is its whole array. -/
theorem d_iblk0_4 (c : Dev nD) (t : Fin cfg0.N) (i : Fin 64) (k : Fin 64) :
    (iblk0 V c 4 t : Vec Ideal S64x64 .bf16) (ix2 i k) = (V c main_v11 : S64x64.Idx → EReal) (ix2 i k) := by
  unfold iblk0
  rw [View.read_apply]
  show V c main_v11 _ = V c main_v11 _
  refine congrArg (V c main_v11) (funext fun a => Fin.ext ?_)
  match a with
  | ⟨0, _⟩ => show win0_4.index t (0 : Fin 2) * 64 + 1 * i.val = i.val; rw [(d_idx_facts0 t).2.2.2.2.2.2.2.2.1]; omega
  | ⟨1, _⟩ => show win0_4.index t (1 : Fin 2) * 64 + 1 * k.val = k.val; rw [(d_idx_facts0 t).2.2.2.2.2.2.2.2.2.1]; omega

/-- Input window 5's block at every point is its whole array. -/
theorem d_iblk0_5 (c : Dev nD) (t : Fin cfg0.N) (i : Fin 1) (k : Fin 64) :
    (iblk0 V c 5 t : Vec Ideal S1x64 .f32) (ix2 i k) = (V c main_v13 : S1x64.Idx → EReal) (ix2 i k) := by
  unfold iblk0
  rw [View.read_apply]
  show V c main_v13 _ = V c main_v13 _
  refine congrArg (V c main_v13) (funext fun a => Fin.ext ?_)
  match a with
  | ⟨0, _⟩ => show win0_5.index t (0 : Fin 2) * 1 + 1 * i.val = i.val; rw [(d_idx_facts0 t).2.2.2.2.2.2.2.2.2.2.1]; omega
  | ⟨1, _⟩ => show win0_5.index t (1 : Fin 2) * 64 + 1 * k.val = k.val; rw [(d_idx_facts0 t).2.2.2.2.2.2.2.2.2.2.2.1]; omega

/-! ## Region 0: one entry of the stored block is the reference's layer at the entry's node -/

/-- Over variable blocks: when row `p` of the two row blocks is row `n` of the reference's `h` and `agg` and the weight and bias
    blocks are the reference's, entry `(p, q)` of the stored block is the reference's layer result at `(n, q)`: both are `mlpRow`
    of the same row and weights. -/
theorem d_entry0 (x0 x1 : Vec Ideal S5000x2 .f32) (w1 : Vec Ideal S2x64 .bf16) (b1 : Vec Ideal S1x64 .f32) (w2 : Vec Ideal S64x64 .bf16) (b2 : Vec Ideal S1x64 .f32)
    (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (p : Fin 5000) (q : Fin 64) (n : Fin 100000)
    (h0 : ∀ i : Fin 2, x0 (ix2 p i) = a0 (ix2 n i))
    (h1 : ∀ i : Fin 2, x1 (ix2 p i) = Cert.ReferenceIdeal.Read.val_main_v9 (F := Ideal) a0 a1 a2 (ix2 n i))
    (hw1 : ∀ (i : Fin 2) (k : Fin 64), (w1 (ix2 i k) : EReal) = a3 (ix2 i k))
    (hb1 : ∀ k : Fin 64, b1 (ix2 0 k) = a4 (ix1 k))
    (hw2 : ∀ k j : Fin 64, (w2 (ix2 k j) : EReal) = a5 (ix2 k j))
    (hb2 : ∀ j : Fin 64, b2 (ix2 0 j) = a6 (ix1 j)) :
    k0_pay1 (F := Ideal) x0 x1 w1 b1 w2 b2 (ix2 p q) = Cert.ReferenceIdeal.Read.val_main_v20 (F := Ideal) a0 a1 a2 a3 a4 a5 a6 (ix2 n q) := by
  rw [d_pay2_at, v20_at]
  simp only [h0, h1, hw1, hb1, hw2, hb2]

/-! ## Region 0: what a point writes back, the cover, the array -/

/-- What point `t` writes back is the stored block of the six input blocks at `t`: the body's one store covers the whole staging
    buffer, and each load reads its whole block. -/
theorem d_flushed0_pay (c : Dev nD) (t : Fin cfg0.N) :
    (dat0 V c).flushed 6 t = (cfg0.win 6).cut (grid0.coords t)
      (k0_pay1 (F := Ideal) (iblk0 V c 0 t) (iblk0 V c 1 t) (iblk0 V c 2 t) (iblk0 V c 3 t) (iblk0 V c 4 t) (iblk0 V c 5 t)) := by
  show (cfg0.win 6).cut (grid0.coords t) ((dat0 V c).after 6 t) = _
  rw [after0_6]
  unfold out0_6
  rw [View.canon_unit_zero d_hz0]
  simp only [View.ld_unit_zero (S := S5000x2) d_hz0, View.ld_unit_zero (S := S2x64) d_hz0, View.ld_unit_zero (S := S64x64) d_hz0, View.ld_unit_zero (S := S1x64) d_hz0]

/-- Read at an entry `j` of the block, with `j`'s two coordinates named `p` and `q`: the stored block at `(p, q)`. -/
theorem d_flushed0_at (c : Dev nD) (t : Fin cfg0.N) (j : ((cfg0.win 6).xblock (grid0.coords t)).Idx) (p : Fin 5000) (q : Fin 64)
    (hp : p.val = (j 0).val) (hq : q.val = (j 1).val) :
    (dat0 V c).flushed 6 t j = k0_pay1 (F := Ideal) (iblk0 V c 0 t) (iblk0 V c 1 t) (iblk0 V c 2 t) (iblk0 V c 3 t) (iblk0 V c 4 t) (iblk0 V c 5 t) (ix2 p q) := by
  rw [d_flushed0_pay V c t]
  show k0_pay1 (F := Ideal) (iblk0 V c 0 t) (iblk0 V c 1 t) (iblk0 V c 2 t) (iblk0 V c 3 t) (iblk0 V c 4 t) (iblk0 V c 5 t) ((cfg0.win 6).xinj (grid0.coords t) j) = _
  refine congrArg (k0_pay1 (F := Ideal) (iblk0 V c 0 t) (iblk0 V c 1 t) (iblk0 V c 2 t) (iblk0 V c 3 t) (iblk0 V c 4 t) (iblk0 V c 5 t)) (funext fun a => Fin.ext ?_)
  match a with
  | ⟨0, _⟩ => exact hp.symm
  | ⟨1, _⟩ => exact hq.symm

/-- Entry `j` of the output window's block at point `t` sits in the result array at row `5000 t + j₀`, column `j₁`. -/
theorem d_emb0_6 (t : Fin cfg0.N) (j : ((cfg0.win 6).xblock (grid0.coords t)).Idx) (n : Fin 100000) (q : Fin 64)
    (hn : n.val = 5000 * t.val + (j 0).val) (hq : q.val = (j 1).val) :
    ((cfg0.win 6).blk t).view.emb j = ix2 n q := by
  funext a
  apply Fin.ext
  match a with
  | ⟨0, _⟩ => show win0_6.index t (0 : Fin 2) * 5000 + 1 * (j 0).val = n.val; rw [(d_idx_facts0 t).2.2.2.2.2.2.2.2.2.2.2.2.1, hn]; omega
  | ⟨1, _⟩ => show win0_6.index t (1 : Fin 2) * 64 + 1 * (j 1).val = q.val; rw [(d_idx_facts0 t).2.2.2.2.2.2.2.2.2.2.2.2.2, hq]; omega

/-- WHAT POINT `t` WRITES BACK is block `t` of the reference's layer result. -/
theorem d_flushed0_eq (c : Dev nD) (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal))
    (hh : V c main_arg0 = a0) (hagg : V c main_v9 = Cert.ReferenceIdeal.Read.val_main_v9 (F := Ideal) a0 a1 a2)
    (hw1 : V c main_v10 = a3) (hb1 : ∀ k : Fin 64, V c main_v12 (ix2 0 k) = a4 (ix1 k))
    (hw2 : V c main_v11 = a5) (hb2 : ∀ k : Fin 64, V c main_v13 (ix2 0 k) = a6 (ix1 k)) (t : Fin cfg0.N) :
    (dat0 V c).flushed 6 t = ((cfg0.win 6).blk t).view.read (Elt Ideal) (Cert.ReferenceIdeal.Read.val_main_v20 (F := Ideal) a0 a1 a2 a3 a4 a5 a6) := by
  funext j
  have hN : cfg0.N = 20 := N_0
  have ht : t.val < 20 := hN ▸ t.isLt
  have hp : (j 0).val < 5000 := (j 0).isLt
  have hq : (j 1).val < 64 := (j 1).isLt
  rw [View.read_apply, d_emb0_6 t j ⟨5000 * t.val + (j 0).val, by omega⟩ ⟨(j 1).val, hq⟩ rfl rfl,
    d_flushed0_at V c t j ⟨(j 0).val, hp⟩ ⟨(j 1).val, hq⟩ rfl rfl]
  refine d_entry0 (iblk0 V c 0 t) (iblk0 V c 1 t) (iblk0 V c 2 t) (iblk0 V c 3 t) (iblk0 V c 4 t) (iblk0 V c 5 t)
    a0 a1 a2 a3 a4 a5 a6 ⟨(j 0).val, hp⟩ ⟨(j 1).val, hq⟩ ⟨5000 * t.val + (j 0).val, by omega⟩ ?_ ?_ ?_ ?_ ?_ ?_
  · intro i; rw [d_iblk0_0 V c t ⟨(j 0).val, hp⟩ i ⟨5000 * t.val + (j 0).val, by omega⟩ rfl, hh]
  · intro i; rw [d_iblk0_1 V c t ⟨(j 0).val, hp⟩ i ⟨5000 * t.val + (j 0).val, by omega⟩ rfl, hagg]
  · intro i k; rw [d_iblk0_2 V c t i k, hw1]
  · intro k; rw [d_iblk0_3 V c t 0 k]; exact hb1 k
  · intro k j'; rw [d_iblk0_4 V c t k j', hw2]
  · intro k; rw [d_iblk0_5 V c t 0 k]; exact hb2 k

/-- An index of the result array is in point `t`'s block iff each coordinate is in the block's range on its axis. -/
theorem d_mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v14).slice (win0_6.rect t)).set ↔ _
  rw [View.set_slice_whole, Rect.mem_set_unit]
  exact Iff.rfl

/-- Every index of the result array is in the block of the point its row falls in: row `r` is in block `r / 5000`. -/
theorem d_cover0 (i : S100000x64.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 64 := (i 1).isLt
  refine ⟨⟨(i 0).val / 5000, by omega⟩, flush0_6 _, ?_⟩
  rw [d_mem_blk0]
  intro a
  match a with
  | ⟨0, _⟩ =>
    show win0_6.index ⟨(i 0).val / 5000, _⟩ (0 : Fin 2) * 5000 ≤ (i 0).val ∧ (i 0).val < win0_6.index ⟨(i 0).val / 5000, _⟩ (0 : Fin 2) * 5000 + 5000
    rw [(d_idx_facts0 ⟨(i 0).val / 5000, by omega⟩).2.2.2.2.2.2.2.2.2.2.2.2.1]
    show (i 0).val / 5000 * 5000 ≤ (i 0).val ∧ (i 0).val < (i 0).val / 5000 * 5000 + 5000
    omega
  | ⟨1, _⟩ =>
    show win0_6.index ⟨(i 0).val / 5000, _⟩ (1 : Fin 2) * 64 ≤ (i 1).val ∧ (i 1).val < win0_6.index ⟨(i 0).val / 5000, _⟩ (1 : Fin 2) * 64 + 64
    rw [(d_idx_facts0 ⟨(i 0).val / 5000, by omega⟩).2.2.2.2.2.2.2.2.2.2.2.2.2]
    omega

/-- THE ARRAY region 0 leaves in its output window is the reference's layer result. -/
theorem region0_val (c : Dev nD) (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal))
    (hh : V c main_arg0 = a0) (hagg : V c main_v9 = Cert.ReferenceIdeal.Read.val_main_v9 (F := Ideal) a0 a1 a2)
    (hw1 : V c main_v10 = a3) (hb1 : ∀ k : Fin 64, V c main_v12 (ix2 0 k) = a4 (ix1 k))
    (hw2 : V c main_v11 = a5) (hb2 : ∀ k : Fin 64, V c main_v13 (ix2 0 k) = a6 (ix1 k)) :
    (dat0 V c).arrAt 6 cfg0.N = Cert.ReferenceIdeal.Read.val_main_v20 (F := Ideal) a0 a1 a2 a3 a4 a5 a6 :=
  (dat0 V c).arrAt_eq_of_cover 6 (Cert.ReferenceIdeal.Read.val_main_v20 (F := Ideal) a0 a1 a2 a3 a4 a5 a6)
    (fun t _ => d_flushed0_eq V c a0 a1 a2 a3 a4 a5 a6 hh hagg hw1 hb1 hw2 hb2 t) d_cover0

end Cert.Bridge.Layer

end
-- ==== Proof.Val.Region1.lean ====
/-
  What region 1 (the second layer's kernel) leaves in its output array, at the ideal values.

  The region runs the layer kernel over 20 tiles of 5000 node rows.  At tile `t` the kernel reads rows `5000 t … 5000 t + 4999` of
  `h` and of `agg` and the whole weight and bias arrays, and writes back the block of `Cert.Spec.mlpRow` values of those rows
  (Val/Pay.lean).  When the arrays the region finds are the reference's first-layer result, its neighbour sums and the second
  layer's weights and biases, entry `(p, q)` of tile `t`'s block is the reference's second-layer result at `(5000 t + p, q)`
  (Val/RefLayer.lean); the 20 tiles cover the 100000 rows, so the output array ends holding that result.
-/
import proofs.«110569_j70806830841987_1_alg».proof.Proof.KI.BodyA1
import proofs.«110569_j70806830841987_1_alg».proof.Proof.Val.Pay
import proofs.«110569_j70806830841987_1_alg».proof.Proof.Val.RefLayer
import Idealize.ShloMosaic.Lib.Pipeline.Value

-- membership in a rectangle of 5000 rows: the elaborator's structural look recurses once per coordinate of the long axis
set_option maxRecDepth 16384

noncomputable section

namespace Cert.Bridge.Layer

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

theorem d_hz1 : (![0, 0] : Fin 2 → Nat) = fun _ => 0 := funext fun a => by fin_cases a <;> rfl

/-! ## Region 1: the index maps, decided over the grid -/

/-- Windows 0, 1 (the rows of `h` and of `agg`) and 6 (the result) move with the point along the rows; windows 2 to 5 (weights and
    biases) stay at block (0, 0). -/
theorem d_idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Region 1: each input window's block, read off its array -/

/-- Input window 0's block at point `t`: entry `(p, i)` is entry `(5000 t + p, i)` of its array. -/
theorem d_iblk1_0 (c : Dev nD) (t : Fin cfg1.N) (p : Fin 5000) (i : Fin 64) (n : Fin 100000) (hn : n.val = 5000 * t.val + p.val) :
    (iblk1 V c 0 t : Vec Ideal S5000x64 .f32) (ix2 p i) = (V c main_v14 : S100000x64.Idx → EReal) (ix2 n i) := by
  unfold iblk1
  rw [View.read_apply]
  show V c main_v14 _ = V c main_v14 _
  refine congrArg (V c main_v14) (funext fun a => Fin.ext ?_)
  match a with
  | ⟨0, _⟩ => show win1_0.index t (0 : Fin 2) * 5000 + 1 * p.val = n.val; rw [(d_idx_facts1 t).1, hn]; omega
  | ⟨1, _⟩ => show win1_0.index t (1 : Fin 2) * 64 + 1 * i.val = i.val; rw [(d_idx_facts1 t).2.1]; omega

/-- Input window 1's block at point `t`: entry `(p, i)` is entry `(5000 t + p, i)` of its array. -/
theorem d_iblk1_1 (c : Dev nD) (t : Fin cfg1.N) (p : Fin 5000) (i : Fin 64) (n : Fin 100000) (hn : n.val = 5000 * t.val + p.val) :
    (iblk1 V c 1 t : Vec Ideal S5000x64 .f32) (ix2 p i) = (V c main_v24 : S100000x64.Idx → EReal) (ix2 n i) := by
  unfold iblk1
  rw [View.read_apply]
  show V c main_v24 _ = V c main_v24 _
  refine congrArg (V c main_v24) (funext fun a => Fin.ext ?_)
  match a with
  | ⟨0, _⟩ => show win1_1.index t (0 : Fin 2) * 5000 + 1 * p.val = n.val; rw [(d_idx_facts1 t).2.2.1, hn]; omega
  | ⟨1, _⟩ => show win1_1.index t (1 : Fin 2) * 64 + 1 * i.val = i.val; rw [(d_idx_facts1 t).2.2.2.1]; omega

/-- Input window 2's block at every point is its whole array. -/
theorem d_iblk1_2 (c : Dev nD) (t : Fin cfg1.N) (i : Fin 64) (k : Fin 64) :
    (iblk1 V c 2 t : Vec Ideal S64x64 .bf16) (ix2 i k) = (V c main_v25 : S64x64.Idx → EReal) (ix2 i k) := by
  unfold iblk1
  rw [View.read_apply]
  show V c main_v25 _ = V c main_v25 _
  refine congrArg (V c main_v25) (funext fun a => Fin.ext ?_)
  match a with
  | ⟨0, _⟩ => show win1_2.index t (0 : Fin 2) * 64 + 1 * i.val = i.val; rw [(d_idx_facts1 t).2.2.2.2.1]; omega
  | ⟨1, _⟩ => show win1_2.index t (1 : Fin 2) * 64 + 1 * k.val = k.val; rw [(d_idx_facts1 t).2.2.2.2.2.1]; omega

/-- Input window 3's block at every point is its whole array. -/
theorem d_iblk1_3 (c : Dev nD) (t : Fin cfg1.N) (i : Fin 1) (k : Fin 64) :
    (iblk1 V c 3 t : Vec Ideal S1x64 .f32) (ix2 i k) = (V c main_v27 : S1x64.Idx → EReal) (ix2 i k) := by
  unfold iblk1
  rw [View.read_apply]
  show V c main_v27 _ = V c main_v27 _
  refine congrArg (V c main_v27) (funext fun a => Fin.ext ?_)
  match a with
  | ⟨0, _⟩ => show win1_3.index t (0 : Fin 2) * 1 + 1 * i.val = i.val; rw [(d_idx_facts1 t).2.2.2.2.2.2.1]; omega
  | ⟨1, _⟩ => show win1_3.index t (1 : Fin 2) * 64 + 1 * k.val = k.val; rw [(d_idx_facts1 t).2.2.2.2.2.2.2.1]; omega

/-- Input window 4's block at every point is its whole array. -/
theorem d_iblk1_4 (c : Dev nD) (t : Fin cfg1.N) (i : Fin 64) (k : Fin 64) :
    (iblk1 V c 4 t : Vec Ideal S64x64 .bf16) (ix2 i k) = (V c main_v26 : S64x64.Idx → EReal) (ix2 i k) := by
  unfold iblk1
  rw [View.read_apply]
  show V c main_v26 _ = V c main_v26 _
  refine congrArg (V c main_v26) (funext fun a => Fin.ext ?_)
  match a with
  | ⟨0, _⟩ => show win1_4.index t (0 : Fin 2) * 64 + 1 * i.val = i.val; rw [(d_idx_facts1 t).2.2.2.2.2.2.2.2.1]; omega
  | ⟨1, _⟩ => show win1_4.index t (1 : Fin 2) * 64 + 1 * k.val = k.val; rw [(d_idx_facts1 t).2.2.2.2.2.2.2.2.2.1]; omega

/-- Input window 5's block at every point is its whole array. -/
theorem d_iblk1_5 (c : Dev nD) (t : Fin cfg1.N) (i : Fin 1) (k : Fin 64) :
    (iblk1 V c 5 t : Vec Ideal S1x64 .f32) (ix2 i k) = (V c main_v28 : S1x64.Idx → EReal) (ix2 i k) := by
  unfold iblk1
  rw [View.read_apply]
  show V c main_v28 _ = V c main_v28 _
  refine congrArg (V c main_v28) (funext fun a => Fin.ext ?_)
  match a with
  | ⟨0, _⟩ => show win1_5.index t (0 : Fin 2) * 1 + 1 * i.val = i.val; rw [(d_idx_facts1 t).2.2.2.2.2.2.2.2.2.2.1]; omega
  | ⟨1, _⟩ => show win1_5.index t (1 : Fin 2) * 64 + 1 * k.val = k.val; rw [(d_idx_facts1 t).2.2.2.2.2.2.2.2.2.2.2.1]; omega

/-! ## Region 1: one entry of the stored block is the reference's layer at the entry's node -/

/-- Over variable blocks: when row `p` of the two row blocks is row `n` of the reference's `h` and `agg` and the weight and bias
    blocks are the reference's, entry `(p, q)` of the stored block is the reference's layer result at `(n, q)`: both are `mlpRow`
    of the same row and weights. -/
theorem d_entry1 (x0 x1 : Vec Ideal S5000x64 .f32) (w1 : Vec Ideal S64x64 .bf16) (b1 : Vec Ideal S1x64 .f32) (w2 : Vec Ideal S64x64 .bf16) (b2 : Vec Ideal S1x64 .f32)
    (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal)) (p : Fin 5000) (q : Fin 64) (n : Fin 100000)
    (h0 : ∀ i : Fin 64, x0 (ix2 p i) = Cert.ReferenceIdeal.Read.val_main_v20 (F := Ideal) a0 a1 a2 a3 a4 a5 a6 (ix2 n i))
    (h1 : ∀ i : Fin 64, x1 (ix2 p i) = Cert.ReferenceIdeal.Read.val_main_v30 (F := Ideal) a0 a1 a2 a3 a4 a5 a6 (ix2 n i))
    (hw1 : ∀ (i : Fin 64) (k : Fin 64), (w1 (ix2 i k) : EReal) = a7 (ix2 i k))
    (hb1 : ∀ k : Fin 64, b1 (ix2 0 k) = a8 (ix1 k))
    (hw2 : ∀ k j : Fin 64, (w2 (ix2 k j) : EReal) = a9 (ix2 k j))
    (hb2 : ∀ j : Fin 64, b2 (ix2 0 j) = a10 (ix1 j)) :
    k1_pay1 (F := Ideal) x0 x1 w1 b1 w2 b2 (ix2 p q) = Cert.ReferenceIdeal.Read.val_main_v41 (F := Ideal) a0 a1 a2 a3 a4 a5 a6 a7 a8 a9 a10 (ix2 n q) := by
  rw [pay64_at, v41_at]
  simp only [h0, h1, hw1, hb1, hw2, hb2]

/-! ## Region 1: what a point writes back, the cover, the array -/

/-- What point `t` writes back is the stored block of the six input blocks at `t`: the body's one store covers the whole staging
    buffer, and each load reads its whole block. -/
theorem d_flushed1_pay (c : Dev nD) (t : Fin cfg1.N) :
    (dat1 V c).flushed 6 t = (cfg1.win 6).cut (grid1.coords t)
      (k1_pay1 (F := Ideal) (iblk1 V c 0 t) (iblk1 V c 1 t) (iblk1 V c 2 t) (iblk1 V c 3 t) (iblk1 V c 4 t) (iblk1 V c 5 t)) := by
  show (cfg1.win 6).cut (grid1.coords t) ((dat1 V c).after 6 t) = _
  rw [after1_6]
  unfold out1_6
  rw [View.canon_unit_zero d_hz1]
  simp only [View.ld_unit_zero (S := S5000x64) d_hz1, View.ld_unit_zero (S := S64x64) d_hz1, View.ld_unit_zero (S := S64x64) d_hz1, View.ld_unit_zero (S := S1x64) d_hz1]

/-- Read at an entry `j` of the block, with `j`'s two coordinates named `p` and `q`: the stored block at `(p, q)`. -/
theorem d_flushed1_at (c : Dev nD) (t : Fin cfg1.N) (j : ((cfg1.win 6).xblock (grid1.coords t)).Idx) (p : Fin 5000) (q : Fin 64)
    (hp : p.val = (j 0).val) (hq : q.val = (j 1).val) :
    (dat1 V c).flushed 6 t j = k1_pay1 (F := Ideal) (iblk1 V c 0 t) (iblk1 V c 1 t) (iblk1 V c 2 t) (iblk1 V c 3 t) (iblk1 V c 4 t) (iblk1 V c 5 t) (ix2 p q) := by
  rw [d_flushed1_pay V c t]
  show k1_pay1 (F := Ideal) (iblk1 V c 0 t) (iblk1 V c 1 t) (iblk1 V c 2 t) (iblk1 V c 3 t) (iblk1 V c 4 t) (iblk1 V c 5 t) ((cfg1.win 6).xinj (grid1.coords t) j) = _
  refine congrArg (k1_pay1 (F := Ideal) (iblk1 V c 0 t) (iblk1 V c 1 t) (iblk1 V c 2 t) (iblk1 V c 3 t) (iblk1 V c 4 t) (iblk1 V c 5 t)) (funext fun a => Fin.ext ?_)
  match a with
  | ⟨0, _⟩ => exact hp.symm
  | ⟨1, _⟩ => exact hq.symm

/-- Entry `j` of the output window's block at point `t` sits in the result array at row `5000 t + j₀`, column `j₁`. -/
theorem d_emb1_6 (t : Fin cfg1.N) (j : ((cfg1.win 6).xblock (grid1.coords t)).Idx) (n : Fin 100000) (q : Fin 64)
    (hn : n.val = 5000 * t.val + (j 0).val) (hq : q.val = (j 1).val) :
    ((cfg1.win 6).blk t).view.emb j = ix2 n q := by
  funext a
  apply Fin.ext
  match a with
  | ⟨0, _⟩ => show win1_6.index t (0 : Fin 2) * 5000 + 1 * (j 0).val = n.val; rw [(d_idx_facts1 t).2.2.2.2.2.2.2.2.2.2.2.2.1, hn]; omega
  | ⟨1, _⟩ => show win1_6.index t (1 : Fin 2) * 64 + 1 * (j 1).val = q.val; rw [(d_idx_facts1 t).2.2.2.2.2.2.2.2.2.2.2.2.2, hq]; omega

/-- WHAT POINT `t` WRITES BACK is block `t` of the reference's layer result. -/
theorem d_flushed1_eq (c : Dev nD) (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal))
    (hh : V c main_v14 = Cert.ReferenceIdeal.Read.val_main_v20 (F := Ideal) a0 a1 a2 a3 a4 a5 a6) (hagg : V c main_v24 = Cert.ReferenceIdeal.Read.val_main_v30 (F := Ideal) a0 a1 a2 a3 a4 a5 a6)
    (hw1 : V c main_v25 = a7) (hb1 : ∀ k : Fin 64, V c main_v27 (ix2 0 k) = a8 (ix1 k))
    (hw2 : V c main_v26 = a9) (hb2 : ∀ k : Fin 64, V c main_v28 (ix2 0 k) = a10 (ix1 k)) (t : Fin cfg1.N) :
    (dat1 V c).flushed 6 t = ((cfg1.win 6).blk t).view.read (Elt Ideal) (Cert.ReferenceIdeal.Read.val_main_v41 (F := Ideal) a0 a1 a2 a3 a4 a5 a6 a7 a8 a9 a10) := by
  funext j
  have hN : cfg1.N = 20 := N_1
  have ht : t.val < 20 := hN ▸ t.isLt
  have hp : (j 0).val < 5000 := (j 0).isLt
  have hq : (j 1).val < 64 := (j 1).isLt
  rw [View.read_apply, d_emb1_6 t j ⟨5000 * t.val + (j 0).val, by omega⟩ ⟨(j 1).val, hq⟩ rfl rfl,
    d_flushed1_at V c t j ⟨(j 0).val, hp⟩ ⟨(j 1).val, hq⟩ rfl rfl]
  refine d_entry1 (iblk1 V c 0 t) (iblk1 V c 1 t) (iblk1 V c 2 t) (iblk1 V c 3 t) (iblk1 V c 4 t) (iblk1 V c 5 t)
    a0 a1 a2 a3 a4 a5 a6 a7 a8 a9 a10 ⟨(j 0).val, hp⟩ ⟨(j 1).val, hq⟩ ⟨5000 * t.val + (j 0).val, by omega⟩ ?_ ?_ ?_ ?_ ?_ ?_
  · intro i; rw [d_iblk1_0 V c t ⟨(j 0).val, hp⟩ i ⟨5000 * t.val + (j 0).val, by omega⟩ rfl, hh]
  · intro i; rw [d_iblk1_1 V c t ⟨(j 0).val, hp⟩ i ⟨5000 * t.val + (j 0).val, by omega⟩ rfl, hagg]
  · intro i k; rw [d_iblk1_2 V c t i k, hw1]
  · intro k; rw [d_iblk1_3 V c t 0 k]; exact hb1 k
  · intro k j'; rw [d_iblk1_4 V c t k j', hw2]
  · intro k; rw [d_iblk1_5 V c t 0 k]; exact hb2 k

/-- An index of the result array is in point `t`'s block iff each coordinate is in the block's range on its axis. -/
theorem d_mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every index of the result array is in the block of the point its row falls in: row `r` is in block `r / 5000`. -/
theorem d_cover1 (i : S100000x64.Idx) : ∃ t : Fin cfg1.N, (cfg1.win 6).flush t = true ∧ i ∈ ((cfg1.win 6).blk t).view.set := by
  have hN : cfg1.N = 20 := N_1
  have hi0 : (i 0).val < 100000 := (i 0).isLt
  have hi1 : (i 1).val < 64 := (i 1).isLt
  refine ⟨⟨(i 0).val / 5000, by omega⟩, flush1_6 _, ?_⟩
  rw [d_mem_blk1]
  intro a
  match a with
  | ⟨0, _⟩ =>
    show win1_6.index ⟨(i 0).val / 5000, _⟩ (0 : Fin 2) * 5000 ≤ (i 0).val ∧ (i 0).val < win1_6.index ⟨(i 0).val / 5000, _⟩ (0 : Fin 2) * 5000 + 5000
    rw [(d_idx_facts1 ⟨(i 0).val / 5000, by omega⟩).2.2.2.2.2.2.2.2.2.2.2.2.1]
    show (i 0).val / 5000 * 5000 ≤ (i 0).val ∧ (i 0).val < (i 0).val / 5000 * 5000 + 5000
    omega
  | ⟨1, _⟩ =>
    show win1_6.index ⟨(i 0).val / 5000, _⟩ (1 : Fin 2) * 64 ≤ (i 1).val ∧ (i 1).val < win1_6.index ⟨(i 0).val / 5000, _⟩ (1 : Fin 2) * 64 + 64
    rw [(d_idx_facts1 ⟨(i 0).val / 5000, by omega⟩).2.2.2.2.2.2.2.2.2.2.2.2.2]
    omega

/-- THE ARRAY region 1 leaves in its output window is the reference's layer result. -/
theorem region1_val (c : Dev nD) (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal))
    (hh : V c main_v14 = Cert.ReferenceIdeal.Read.val_main_v20 (F := Ideal) a0 a1 a2 a3 a4 a5 a6) (hagg : V c main_v24 = Cert.ReferenceIdeal.Read.val_main_v30 (F := Ideal) a0 a1 a2 a3 a4 a5 a6)
    (hw1 : V c main_v25 = a7) (hb1 : ∀ k : Fin 64, V c main_v27 (ix2 0 k) = a8 (ix1 k))
    (hw2 : V c main_v26 = a9) (hb2 : ∀ k : Fin 64, V c main_v28 (ix2 0 k) = a10 (ix1 k)) :
    (dat1 V c).arrAt 6 cfg1.N = Cert.ReferenceIdeal.Read.val_main_v41 (F := Ideal) a0 a1 a2 a3 a4 a5 a6 a7 a8 a9 a10 :=
  (dat1 V c).arrAt_eq_of_cover 6 (Cert.ReferenceIdeal.Read.val_main_v41 (F := Ideal) a0 a1 a2 a3 a4 a5 a6 a7 a8 a9 a10)
    (fun t _ => d_flushed1_eq V c a0 a1 a2 a3 a4 a5 a6 a7 a8 a9 a10 hh hagg hw1 hb1 hw2 hb2 t) d_cover1

end Cert.Bridge.Layer

end
-- ==== Proof.Val.Region2.lean ====
/-
  What region 2 (the third layer's kernel) leaves in its output array, at the ideal values.

  As for the second layer: at tile `t` of the 20 tiles the kernel reads rows `5000 t … 5000 t + 4999` of `h` and of `agg` and the
  whole weight and bias arrays and writes back the block of `Cert.Spec.mlpRow` values of those rows (Val/Pay.lean).  When the
  arrays the region finds are the reference's second-layer result, its neighbour sums and the third layer's weights and biases,
  entry `(p, q)` of tile `t`'s block is the reference's third-layer result at `(5000 t + p, q)` (Val/RefLayer.lean); the tiles
  cover the 100000 rows, so the output array ends holding that result.
-/
import proofs.«110569_j70806830841987_1_alg».proof.Proof.KI.BodyA2
import proofs.«110569_j70806830841987_1_alg».proof.Proof.Val.Pay
import proofs.«110569_j70806830841987_1_alg».proof.Proof.Val.RefLayer
import Idealize.ShloMosaic.Lib.Pipeline.Value

-- membership in a rectangle of 5000 rows: the elaborator's structural look recurses once per coordinate of the long axis
set_option maxRecDepth 16384

noncomputable section

namespace Cert.Bridge.Layer

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

theorem d_hz2 : (![0, 0] : Fin 2 → Nat) = fun _ => 0 := funext fun a => by fin_cases a <;> rfl

/-! ## Region 2: the index maps, decided over the grid -/

/-- Windows 0, 1 (the rows of `h` and of `agg`) and 6 (the result) move with the point along the rows; windows 2 to 5 (weights and
    biases) stay at block (0, 0). -/
theorem d_idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## Region 2: each input window's block, read off its array -/

/-- Input window 0's block at point `t`: entry `(p, i)` is entry `(5000 t + p, i)` of its array. -/
theorem d_iblk2_0 (c : Dev nD) (t : Fin cfg2.N) (p : Fin 5000) (i : Fin 64) (n : Fin 100000) (hn : n.val = 5000 * t.val + p.val) :
    (iblk2 V c 0 t : Vec Ideal S5000x64 .f32) (ix2 p i) = (V c main_v29 : S100000x64.Idx → EReal) (ix2 n i) := by
  unfold iblk2
  rw [View.read_apply]
  show V c main_v29 _ = V c main_v29 _
  refine congrArg (V c main_v29) (funext fun a => Fin.ext ?_)
  match a with
  | ⟨0, _⟩ => show win2_0.index t (0 : Fin 2) * 5000 + 1 * p.val = n.val; rw [(d_idx_facts2 t).1, hn]; omega
  | ⟨1, _⟩ => show win2_0.index t (1 : Fin 2) * 64 + 1 * i.val = i.val; rw [(d_idx_facts2 t).2.1]; omega

/-- Input window 1's block at point `t`: entry `(p, i)` is entry `(5000 t + p, i)` of its array. -/
theorem d_iblk2_1 (c : Dev nD) (t : Fin cfg2.N) (p : Fin 5000) (i : Fin 64) (n : Fin 100000) (hn : n.val = 5000 * t.val + p.val) :
    (iblk2 V c 1 t : Vec Ideal S5000x64 .f32) (ix2 p i) = (V c main_v39 : S100000x64.Idx → EReal) (ix2 n i) := by
  unfold iblk2
  rw [View.read_apply]
  show V c main_v39 _ = V c main_v39 _
  refine congrArg (V c main_v39) (funext fun a => Fin.ext ?_)
  match a with
  | ⟨0, _⟩ => show win2_1.index t (0 : Fin 2) * 5000 + 1 * p.val = n.val; rw [(d_idx_facts2 t).2.2.1, hn]; omega
  | ⟨1, _⟩ => show win2_1.index t (1 : Fin 2) * 64 + 1 * i.val = i.val; rw [(d_idx_facts2 t).2.2.2.1]; omega

/-- Input window 2's block at every point is its whole array. -/
theorem d_iblk2_2 (c : Dev nD) (t : Fin cfg2.N) (i : Fin 64) (k : Fin 64) :
    (iblk2 V c 2 t : Vec Ideal S64x64 .bf16) (ix2 i k) = (V c main_v40 : S64x64.Idx → EReal) (ix2 i k) := by
  unfold iblk2
  rw [View.read_apply]
  show V c main_v40 _ = V c main_v40 _
  refine congrArg (V c main_v40) (funext fun a => Fin.ext ?_)
  match a with
  | ⟨0, _⟩ => show win2_2.index t (0 : Fin 2) * 64 + 1 * i.val = i.val; rw [(d_idx_facts2 t).2.2.2.2.1]; omega
  | ⟨1, _⟩ => show win2_2.index t (1 : Fin 2) * 64 + 1 * k.val = k.val; rw [(d_idx_facts2 t).2.2.2.2.2.1]; omega

/-- Input window 3's block at every point is its whole array. -/
theorem d_iblk2_3 (c : Dev nD) (t : Fin cfg2.N) (i : Fin 1) (k : Fin 64) :
    (iblk2 V c 3 t : Vec Ideal S1x64 .f32) (ix2 i k) = (V c main_v42 : S1x64.Idx → EReal) (ix2 i k) := by
  unfold iblk2
  rw [View.read_apply]
  show V c main_v42 _ = V c main_v42 _
  refine congrArg (V c main_v42) (funext fun a => Fin.ext ?_)
  match a with
  | ⟨0, _⟩ => show win2_3.index t (0 : Fin 2) * 1 + 1 * i.val = i.val; rw [(d_idx_facts2 t).2.2.2.2.2.2.1]; omega
  | ⟨1, _⟩ => show win2_3.index t (1 : Fin 2) * 64 + 1 * k.val = k.val; rw [(d_idx_facts2 t).2.2.2.2.2.2.2.1]; omega

/-- Input window 4's block at every point is its whole array. -/
theorem d_iblk2_4 (c : Dev nD) (t : Fin cfg2.N) (i : Fin 64) (k : Fin 64) :
    (iblk2 V c 4 t : Vec Ideal S64x64 .bf16) (ix2 i k) = (V c main_v41 : S64x64.Idx → EReal) (ix2 i k) := by
  unfold iblk2
  rw [View.read_apply]
  show V c main_v41 _ = V c main_v41 _
  refine congrArg (V c main_v41) (funext fun a => Fin.ext ?_)
  match a with
  | ⟨0, _⟩ => show win2_4.index t (0 : Fin 2) * 64 + 1 * i.val = i.val; rw [(d_idx_facts2 t).2.2.2.2.2.2.2.2.1]; omega
  | ⟨1, _⟩ => show win2_4.index t (1 : Fin 2) * 64 + 1 * k.val = k.val; rw [(d_idx_facts2 t).2.2.2.2.2.2.2.2.2.1]; omega

/-- Input window 5's block at every point is its whole array. -/
theorem d_iblk2_5 (c : Dev nD) (t : Fin cfg2.N) (i : Fin 1) (k : Fin 64) :
    (iblk2 V c 5 t : Vec Ideal S1x64 .f32) (ix2 i k) = (V c main_v43 : S1x64.Idx → EReal) (ix2 i k) := by
  unfold iblk2
  rw [View.read_apply]
  show V c main_v43 _ = V c main_v43 _
  refine congrArg (V c main_v43) (funext fun a => Fin.ext ?_)
  match a with
  | ⟨0, _⟩ => show win2_5.index t (0 : Fin 2) * 1 + 1 * i.val = i.val; rw [(d_idx_facts2 t).2.2.2.2.2.2.2.2.2.2.1]; omega
  | ⟨1, _⟩ => show win2_5.index t (1 : Fin 2) * 64 + 1 * k.val = k.val; rw [(d_idx_facts2 t).2.2.2.2.2.2.2.2.2.2.2.1]; omega

/-! ## Region 2: one entry of the stored block is the reference's layer at the entry's node -/

/-- Over variable blocks: when row `p` of the two row blocks is row `n` of the reference's `h` and `agg` and the weight and bias
    blocks are the reference's, entry `(p, q)` of the stored block is the reference's layer result at `(n, q)`: both are `mlpRow`
    of the same row and weights. -/
theorem d_entry2 (x0 x1 : Vec Ideal S5000x64 .f32) (w1 : Vec Ideal S64x64 .bf16) (b1 : Vec Ideal S1x64 .f32) (w2 : Vec Ideal S64x64 .bf16) (b2 : Vec Ideal S1x64 .f32)
    (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal)) (a11 : (⟨Cert.ReferenceIdeal.S64x64, .f32⟩ : BufTy).Contents (Elt Ideal)) (a12 : (⟨Cert.ReferenceIdeal.S64, .f32⟩ : BufTy).Contents (Elt Ideal)) (a13 : (⟨Cert.ReferenceIdeal.S64x64, .f32⟩ : BufTy).Contents (Elt Ideal)) (a14 : (⟨Cert.ReferenceIdeal.S64, .f32⟩ : BufTy).Contents (Elt Ideal)) (p : Fin 5000) (q : Fin 64) (n : Fin 100000)
    (h0 : ∀ i : Fin 64, x0 (ix2 p i) = Cert.ReferenceIdeal.Read.val_main_v41 (F := Ideal) a0 a1 a2 a3 a4 a5 a6 a7 a8 a9 a10 (ix2 n i))
    (h1 : ∀ i : Fin 64, x1 (ix2 p i) = Cert.ReferenceIdeal.Read.val_main_v51 (F := Ideal) a0 a1 a2 a3 a4 a5 a6 a7 a8 a9 a10 (ix2 n i))
    (hw1 : ∀ (i : Fin 64) (k : Fin 64), (w1 (ix2 i k) : EReal) = a11 (ix2 i k))
    (hb1 : ∀ k : Fin 64, b1 (ix2 0 k) = a12 (ix1 k))
    (hw2 : ∀ k j : Fin 64, (w2 (ix2 k j) : EReal) = a13 (ix2 k j))
    (hb2 : ∀ j : Fin 64, b2 (ix2 0 j) = a14 (ix1 j)) :
    k2_pay1 (F := Ideal) x0 x1 w1 b1 w2 b2 (ix2 p q) = Cert.ReferenceIdeal.Read.val_main_v62 (F := Ideal) a0 a1 a2 a3 a4 a5 a6 a7 a8 a9 a10 a11 a12 a13 a14 (ix2 n q) := by
  rw [d_pay64_at_k2, v62_at]
  simp only [h0, h1, hw1, hb1, hw2, hb2]

/-! ## Region 2: what a point writes back, the cover, the array -/

/-- What point `t` writes back is the stored block of the six input blocks at `t`: the body's one store covers the whole staging
    buffer, and each load reads its whole block. -/
theorem d_flushed2_pay (c : Dev nD) (t : Fin cfg2.N) :
    (dat2 V c).flushed 6 t = (cfg2.win 6).cut (grid2.coords t)
      (k2_pay1 (F := Ideal) (iblk2 V c 0 t) (iblk2 V c 1 t) (iblk2 V c 2 t) (iblk2 V c 3 t) (iblk2 V c 4 t) (iblk2 V c 5 t)) := by
  show (cfg2.win 6).cut (grid2.coords t) ((dat2 V c).after 6 t) = _
  rw [after2_6]
  unfold out2_6
  rw [View.canon_unit_zero d_hz2]
  simp only [View.ld_unit_zero (S := S5000x64) d_hz2, View.ld_unit_zero (S := S64x64) d_hz2, View.ld_unit_zero (S := S64x64) d_hz2, View.ld_unit_zero (S := S1x64) d_hz2]

/-- Read at an entry `j` of the block, with `j`'s two coordinates named `p` and `q`: the stored block at `(p, q)`. -/
theorem d_flushed2_at (c : Dev nD) (t : Fin cfg2.N) (j : ((cfg2.win 6).xblock (grid2.coords t)).Idx) (p : Fin 5000) (q : Fin 64)
    (hp : p.val = (j 0).val) (hq : q.val = (j 1).val) :
    (dat2 V c).flushed 6 t j = k2_pay1 (F := Ideal) (iblk2 V c 0 t) (iblk2 V c 1 t) (iblk2 V c 2 t) (iblk2 V c 3 t) (iblk2 V c 4 t) (iblk2 V c 5 t) (ix2 p q) := by
  rw [d_flushed2_pay V c t]
  show k2_pay1 (F := Ideal) (iblk2 V c 0 t) (iblk2 V c 1 t) (iblk2 V c 2 t) (iblk2 V c 3 t) (iblk2 V c 4 t) (iblk2 V c 5 t) ((cfg2.win 6).xinj (grid2.coords t) j) = _
  refine congrArg (k2_pay1 (F := Ideal) (iblk2 V c 0 t) (iblk2 V c 1 t) (iblk2 V c 2 t) (iblk2 V c 3 t) (iblk2 V c 4 t) (iblk2 V c 5 t)) (funext fun a => Fin.ext ?_)
  match a with
  | ⟨0, _⟩ => exact hp.symm
  | ⟨1, _⟩ => exact hq.symm

/-- Entry `j` of the output window's block at point `t` sits in the result array at row `5000 t + j₀`, column `j₁`. -/
theorem d_emb2_6 (t : Fin cfg2.N) (j : ((cfg2.win 6).xblock (grid2.coords t)).Idx) (n : Fin 100000) (q : Fin 64)
    (hn : n.val = 5000 * t.val + (j 0).val) (hq : q.val = (j 1).val) :
    ((cfg2.win 6).blk t).view.emb j = ix2 n q := by
  funext a
  apply Fin.ext
  match a with
  | ⟨0, _⟩ => show win2_6.index t (0 : Fin 2) * 5000 + 1 * (j 0).val = n.val; rw [(d_idx_facts2 t).2.2.2.2.2.2.2.2.2.2.2.2.1, hn]; omega
  | ⟨1, _⟩ => show win2_6.index t (1 : Fin 2) * 64 + 1 * (j 1).val = q.val; rw [(d_idx_facts2 t).2.2.2.2.2.2.2.2.2.2.2.2.2, hq]; omega

/-- WHAT POINT `t` WRITES BACK is block `t` of the reference's layer result. -/
theorem d_flushed2_eq (c : Dev nD) (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal)) (a11 : (⟨Cert.ReferenceIdeal.S64x64, .f32⟩ : BufTy).Contents (Elt Ideal)) (a12 : (⟨Cert.ReferenceIdeal.S64, .f32⟩ : BufTy).Contents (Elt Ideal)) (a13 : (⟨Cert.ReferenceIdeal.S64x64, .f32⟩ : BufTy).Contents (Elt Ideal)) (a14 : (⟨Cert.ReferenceIdeal.S64, .f32⟩ : BufTy).Contents (Elt Ideal))
    (hh : V c main_v29 = Cert.ReferenceIdeal.Read.val_main_v41 (F := Ideal) a0 a1 a2 a3 a4 a5 a6 a7 a8 a9 a10) (hagg : V c main_v39 = Cert.ReferenceIdeal.Read.val_main_v51 (F := Ideal) a0 a1 a2 a3 a4 a5 a6 a7 a8 a9 a10)
    (hw1 : V c main_v40 = a11) (hb1 : ∀ k : Fin 64, V c main_v42 (ix2 0 k) = a12 (ix1 k))
    (hw2 : V c main_v41 = a13) (hb2 : ∀ k : Fin 64, V c main_v43 (ix2 0 k) = a14 (ix1 k)) (t : Fin cfg2.N) :
    (dat2 V c).flushed 6 t = ((cfg2.win 6).blk t).view.read (Elt Ideal) (Cert.ReferenceIdeal.Read.val_main_v62 (F := Ideal) a0 a1 a2 a3 a4 a5 a6 a7 a8 a9 a10 a11 a12 a13 a14) := by
  funext j
  have hN : cfg2.N = 20 := N_2
  have ht : t.val < 20 := hN ▸ t.isLt
  have hp : (j 0).val < 5000 := (j 0).isLt
  have hq : (j 1).val < 64 := (j 1).isLt
  rw [View.read_apply, d_emb2_6 t j ⟨5000 * t.val + (j 0).val, by omega⟩ ⟨(j 1).val, hq⟩ rfl rfl,
    d_flushed2_at V c t j ⟨(j 0).val, hp⟩ ⟨(j 1).val, hq⟩ rfl rfl]
  refine d_entry2 (iblk2 V c 0 t) (iblk2 V c 1 t) (iblk2 V c 2 t) (iblk2 V c 3 t) (iblk2 V c 4 t) (iblk2 V c 5 t)
    a0 a1 a2 a3 a4 a5 a6 a7 a8 a9 a10 a11 a12 a13 a14 ⟨(j 0).val, hp⟩ ⟨(j 1).val, hq⟩ ⟨5000 * t.val + (j 0).val, by omega⟩ ?_ ?_ ?_ ?_ ?_ ?_
  · intro i; rw [d_iblk2_0 V c t ⟨(j 0).val, hp⟩ i ⟨5000 * t.val + (j 0).val, by omega⟩ rfl, hh]
  · intro i; rw [d_iblk2_1 V c t ⟨(j 0).val, hp⟩ i ⟨5000 * t.val + (j 0).val, by omega⟩ rfl, hagg]
  · intro i k; rw [d_iblk2_2 V c t i k, hw1]
  · intro k; rw [d_iblk2_3 V c t 0 k]; exact hb1 k
  · intro k j'; rw [d_iblk2_4 V c t k j', hw2]
  · intro k; rw [d_iblk2_5 V c t 0 k]; exact hb2 k

/-- An index of the result array is in point `t`'s block iff each coordinate is in the block's range on its axis. -/
theorem d_mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v44).slice (win2_6.rect t)).set ↔ _
  rw [View.set_slice_whole, Rect.mem_set_unit]
  exact Iff.rfl

/-- Every index of the result array is in the block of the point its row falls in: row `r` is in block `r / 5000`. -/
theorem d_cover2 (i : S100000x64.Idx) : ∃ t : Fin cfg2.N, (cfg2.win 6).flush t = true ∧ i ∈ ((cfg2.win 6).blk t).view.set := by
  have hN : cfg2.N = 20 := N_2
  have hi0 : (i 0).val < 100000 := (i 0).isLt
  have hi1 : (i 1).val < 64 := (i 1).isLt
  refine ⟨⟨(i 0).val / 5000, by omega⟩, flush2_6 _, ?_⟩
  rw [d_mem_blk2]
  intro a
  match a with
  | ⟨0, _⟩ =>
    show win2_6.index ⟨(i 0).val / 5000, _⟩ (0 : Fin 2) * 5000 ≤ (i 0).val ∧ (i 0).val < win2_6.index ⟨(i 0).val / 5000, _⟩ (0 : Fin 2) * 5000 + 5000
    rw [(d_idx_facts2 ⟨(i 0).val / 5000, by omega⟩).2.2.2.2.2.2.2.2.2.2.2.2.1]
    show (i 0).val / 5000 * 5000 ≤ (i 0).val ∧ (i 0).val < (i 0).val / 5000 * 5000 + 5000
    omega
  | ⟨1, _⟩ =>
    show win2_6.index ⟨(i 0).val / 5000, _⟩ (1 : Fin 2) * 64 ≤ (i 1).val ∧ (i 1).val < win2_6.index ⟨(i 0).val / 5000, _⟩ (1 : Fin 2) * 64 + 64
    rw [(d_idx_facts2 ⟨(i 0).val / 5000, by omega⟩).2.2.2.2.2.2.2.2.2.2.2.2.2]
    omega

/-- THE ARRAY region 2 leaves in its output window is the reference's layer result. -/
theorem region2_val (c : Dev nD) (a0 : (⟨Cert.ReferenceIdeal.S100000x2, .f32⟩ : BufTy).Contents (Elt Ideal)) (a1 : (⟨Cert.ReferenceIdeal.S1200000, .i32⟩ : BufTy).Contents (Elt Ideal)) (a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal)) (a11 : (⟨Cert.ReferenceIdeal.S64x64, .f32⟩ : BufTy).Contents (Elt Ideal)) (a12 : (⟨Cert.ReferenceIdeal.S64, .f32⟩ : BufTy).Contents (Elt Ideal)) (a13 : (⟨Cert.ReferenceIdeal.S64x64, .f32⟩ : BufTy).Contents (Elt Ideal)) (a14 : (⟨Cert.ReferenceIdeal.S64, .f32⟩ : BufTy).Contents (Elt Ideal))
    (hh : V c main_v29 = Cert.ReferenceIdeal.Read.val_main_v41 (F := Ideal) a0 a1 a2 a3 a4 a5 a6 a7 a8 a9 a10) (hagg : V c main_v39 = Cert.ReferenceIdeal.Read.val_main_v51 (F := Ideal) a0 a1 a2 a3 a4 a5 a6 a7 a8 a9 a10)
    (hw1 : V c main_v40 = a11) (hb1 : ∀ k : Fin 64, V c main_v42 (ix2 0 k) = a12 (ix1 k))
    (hw2 : V c main_v41 = a13) (hb2 : ∀ k : Fin 64, V c main_v43 (ix2 0 k) = a14 (ix1 k)) :
    (dat2 V c).arrAt 6 cfg2.N = Cert.ReferenceIdeal.Read.val_main_v62 (F := Ideal) a0 a1 a2 a3 a4 a5 a6 a7 a8 a9 a10 a11 a12 a13 a14 :=
  (dat2 V c).arrAt_eq_of_cover 6 (Cert.ReferenceIdeal.Read.val_main_v62 (F := Ideal) a0 a1 a2 a3 a4 a5 a6 a7 a8 a9 a10 a11 a12 a13 a14)
    (fun t _ => d_flushed2_eq V c a0 a1 a2 a3 a4 a5 a6 a7 a8 a9 a10 a11 a12 a13 a14 hh hagg hw1 hb1 hw2 hb2 t) d_cover2

end Cert.Bridge.Layer

end
-- ==== Proof.Val.SumTiles.lean ====
/-
  Twenty tiles of five thousand rows are the hundred thousand rows.

  Row `r` of tile `t` is row `5000 * t + r` of the whole array, and `(t, r) ↦ 5000 * t + r` is a bijection of
  `Fin 20 × Fin 5000` with `Fin 100000`; a sum over a commutative monoid does not see the order of its terms, so the
  sum tile by tile is the sum over all rows.  Nothing here asks for finiteness of the summands.
-/
import Mathlib.Algebra.BigOperators.Fin
import Mathlib.Logic.Equiv.Fin.Basic

namespace Cert.Bridge.Pool

open scoped BigOperators

/-- Row `r` of tile `t` is a row of the array. -/
theorem f_tile_row_lt (t : Fin 20) (r : Fin 5000) : 5000 * t.val + r.val < 100000 := by
  have ht := t.isLt
  have hr := r.isLt
  omega

/-- The sum over the twenty tiles of the sums over a tile's five thousand rows is the sum over the hundred thousand
    rows. -/
theorem f_sum_tiles {M : Type*} [AddCommMonoid M] (f : Fin 100000 → M) :
    ∑ t : Fin 20, ∑ r : Fin 5000, f ⟨5000 * t.val + r.val, f_tile_row_lt t r⟩ = ∑ n : Fin 100000, f n := by
  refine (Fintype.sum_prod_type' fun (t : Fin 20) (r : Fin 5000) =>
    f ⟨5000 * t.val + r.val, f_tile_row_lt t r⟩).symm.trans ?_
  refine Fintype.sum_equiv (finProdFinEquiv (m := 20) (n := 5000)) _ _ ?_
  rintro ⟨t, r⟩
  refine congrArg f (Fin.ext ?_)
  show 5000 * t.val + r.val = r.val + 5000 * t.val
  omega

/-- The tiles up to and including tile `n`, one more tile at a time: the first `n + 2` tiles are the first `n + 1`
    and tile `n + 1`. -/
theorem f_sum_tiles_succ {M : Type*} [AddCommMonoid M] (g : ℕ → M) (n : ℕ) :
    ∑ t : Fin (n + 2), g t.val = (∑ t : Fin (n + 1), g t.val) + g (n + 1) := by
  rw [Fin.sum_univ_castSucc]
  rfl

end Cert.Bridge.Pool
-- ==== Proof.Val.Pool.lean ====
/-
  What the mean-pool region and the final reshape leave, at the ideal values, is the reference's mean stage.

  The region walks the hundred thousand rows of the last layer in twenty tiles of five thousand. Its accumulator, one
  row of sixty-four columns, is set to zero at the first tile and at every tile takes, column by column, the sum of that
  tile's rows on top of what it held; after the last tile it is scaled by the reciprocal of the node count and stored as
  the region's output, whose one block is written back at that point only. On the extended reals the accumulator after
  tile `n` is therefore, at column `q`, the sum over the tiles up to `n` of the sums over a tile's rows (an induction
  on `n`), after the last tile the sum over all rows (twenty tiles of five thousand rows are the hundred thousand rows),
  and the output is that sum times `1 / 100000`. The reference adds the same column over all rows from zero and divides
  by `100000`, which on the extended reals is the product with `1 / 100000` at every value. Both are the column's mean.
-/
import proofs.«110569_j70806830841987_1_alg».proof.Proof.KI.BodyR3
import proofs.«110569_j70806830841987_1_alg».proof.Proof.Gen.ReferenceIdeal.Read
import proofs.«110569_j70806830841987_1_alg».proof.Proof.Spec
import proofs.«110569_j70806830841987_1_alg».proof.Proof.Val.SumTiles
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.Bridge.Pool

open Idealize.ShloMosaic Idealize.ShloMosaic.ValueIdx
open Cert.KernelIdeal Cert.KernelIdeal.Gen
open scoped BigOperators

/-- The reset value of the accumulator is zero in every column. -/
theorem f_pay1_at (q : Fin 64) : k3_pay1 (F := Ideal) (ix2 (0 : Fin 1) q) = 0 := by
  unfold k3_pay1
  refine (congrFun (shapeCast_self _ _) _).trans ?_
  exact Ideal.ofBits_zero_f32

/-- One step of the accumulation, at a column: what was there plus the column's sum over the block's rows. -/
theorem f_pay2_at (v3 : Vec Ideal S1x64 .f32) (v4 : Vec Ideal S5000x64 .f32) (q : Fin 64) :
    k3_pay2 (F := Ideal) v3 v4 (ix2 (0 : Fin 1) q) = v3 (ix2 (0 : Fin 1) q) + ∑ r : Fin 5000, v4 (ix2 r q) := by
  unfold k3_pay2
  refine (congrFun (shapeCast_self _ _) _).trans ?_
  refine congrArg (v3 (ix2 (0 : Fin 1) q) + ·) ?_
  refine (shapeCast_a_1a_apply _ _ (0 : Fin 1) q).trans ?_
  refine (Ideal.multiReduction_add_single _ 0x00000000#32 reduces_S5000x64_S64 (.inl rfl) rfl (ix1 q)).trans ?_
  refine Finset.sum_congr rfl fun r _ => ?_
  refine (congrFun (shapeCast_self v4 _) _).trans ?_
  refine congrArg v4 (funext fun a => Fin.ext ?_)
  match a with
  | ⟨0, _⟩ => rfl
  | ⟨1, _⟩ => rfl

/-- The constant the output is scaled by is the reciprocal of the node count. -/
theorem f_inv_n : Named.named (F := Ideal) Cert.KernelIdeal.κ "inv_100000" (φ := .f32) 0x3727C5AC#32 = ((1 / 100000 : ℝ) : EReal) :=
  IdealRules.named_const.ideal_named_scalar _ _ _ _ rfl

/-- The stored output, at a column: the accumulator scaled by the reciprocal of the node count. -/
theorem f_pay3_at (v15 : Vec Ideal S1x64 .f32) (q : Fin 64) :
    k3_pay3 (F := Ideal) v15 (ix2 (0 : Fin 1) q) = v15 (ix2 (0 : Fin 1) q) * ((1 / 100000 : ℝ) : EReal) := by
  unfold k3_pay3
  exact congrArg (v15 (ix2 (0 : Fin 1) q) * ·) f_inv_n

/-- The reference's divisor is the real number one hundred thousand. -/
theorem f_ofBits_100000 : Ideal.ofBits .f32 0x47C35000#32 = ((100000 : ℝ) : EReal) := by
  simp [Ideal.ofBits, Ideal.ieee, -EReal.coe_mul]; norm_num

/-- The reference's mean stage at a column: the mean over the nodes of the last layer's column. -/
theorem f_v65_at (a0 : (⟨Cert.ReferenceIdeal.S100000x2, .f32⟩ : BufTy).Contents (Elt Ideal)) (a1 a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal)) (a11 : (⟨Cert.ReferenceIdeal.S64x64, .f32⟩ : BufTy).Contents (Elt Ideal)) (a12 : (⟨Cert.ReferenceIdeal.S64, .f32⟩ : BufTy).Contents (Elt Ideal)) (a13 : (⟨Cert.ReferenceIdeal.S64x64, .f32⟩ : BufTy).Contents (Elt Ideal)) (a14 : (⟨Cert.ReferenceIdeal.S64, .f32⟩ : BufTy).Contents (Elt Ideal)) (q : Fin 64) :
    Cert.ReferenceIdeal.Read.val_main_v65 (F := Ideal) a0 a1 a2 a3 a4 a5 a6 a7 a8 a9 a10 a11 a12 a13 a14 (ix1 q)
      = Cert.Spec.colMean fun n => Cert.ReferenceIdeal.Read.val_main_v62 (F := Ideal) a0 a1 a2 a3 a4 a5 a6 a7 a8 a9 a10 a11 a12 a13 a14 (ix2 n q) := by
  rw [Cert.ReferenceIdeal.Read.val_main_v65_apply, Cert.ReferenceIdeal.Read.val_main_v63_apply,
    Cert.ReferenceIdeal.Read.val_main_v64_apply, Cert.ReferenceIdeal.Read.val_main_cst_8_apply,
    Cert.ReferenceIdeal.Read.val_main_cst_7_apply]
  simp only [Ideal.hostDivf_def, Ideal.ofBits_def, Ideal.ofBits_zero_f32, f_ofBits_100000, zero_add,
    Ideal.div_coe (by norm_num : (100000 : ℝ) ≠ 0)]
  unfold Cert.Spec.colMean
  refine congrArg (· * ((1 / 100000 : ℝ) : EReal)) (Finset.sum_congr rfl fun n _ => ?_)
  refine congrArg _ (funext fun a => Fin.ext ?_)
  match a with
  | ⟨0, _⟩ => rfl
  | ⟨1, _⟩ => rfl

/-! ## Region 3 at the ideal values -/

open Cert.KernelIdeal.Hand
open Idealize.ShloMosaic.TcCoe Idealize.SL.Sem
open Idealize.ShloMosaic.Pipeline (Dat Cfg Window)

variable (V : (c : Dev nD) → (b : Ref sig .tc) → Buf (Elt Ideal) ((c : Thread nD τ).loc b))

/-- The grid of the mean-pool region has twenty points. -/
theorem f_N3 : cfg3.N = 20 := N_3

theorem f_lt19 : 19 < cfg3.N := by decide

/-- The printed index maps over the grid: the input's block at point `t` is block `t` along the rows, and the
    output's one block is the whole array at every point. -/
theorem f_idx3 : ∀ t : Fin cfg3.N, win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- Column `q` of an array of a hundred thousand rows, row by row; zero past the last row (never read). -/
def f_col (H : S100000x64.Idx → EReal) (q : Fin 64) (k : ℕ) : EReal :=
  if h : k < 100000 then H (ix2 (⟨k, h⟩ : Fin 100000) q) else 0

/-- Row `r` of the block the region reads at point `t` is row `5000 * t + r` of the array. -/
theorem f_iblk_at (c : Dev nD) (H : S100000x64.Idx → EReal) (hH : V c main_v44 = H) (t : Fin cfg3.N) (r : Fin 5000)
    (q : Fin 64) : (iblk3 V c 0 t : S5000x64.Idx → EReal) (ix2 r q) = f_col H q (5000 * t.val + r.val) := by
  have ht : t.val < 20 := lt_of_lt_of_eq t.isLt f_N3
  have hr := r.isLt
  obtain ⟨e0, e1, -, -⟩ := f_idx3 t
  subst hH
  unfold f_col
  rw [dif_pos (by omega)]
  show (V c main_v44 : S100000x64.Idx → EReal) (((cfg3.win 0).blk t).view.emb (ix2 r q)) = _
  refine congrArg (V c main_v44 : S100000x64.Idx → EReal) (funext fun a => Fin.ext ?_)
  match a with
  | ⟨0, _⟩ =>
    show win3_0.index t (0 : Fin 2) * 5000 + 1 * r.val = 5000 * t.val + r.val
    omega
  | ⟨1, _⟩ =>
    show win3_0.index t (1 : Fin 2) * 64 + 1 * q.val = q.val
    omega

/-- THE ACCUMULATOR after point `n`, at column `q`: the sum, over the tiles up to `n`, of the column's sums over each
    tile's rows. -/
theorem f_scr_at (c : Dev nD) (H : S100000x64.Idx → EReal) (hH : V c main_v44 = H) (q : Fin 64) : ∀ (n : ℕ) (hn : n < cfg3.N),
    (outsAt3 V c n hn).2 (ix2 (0 : Fin 1) q) = ∑ t : Fin (n + 1), ∑ r : Fin 5000, f_col H q (5000 * t.val + r.val)
  | 0, hn => by
    refine (congrFun (scr3_zero V c hn) (ix2 (0 : Fin 1) q)).trans ?_
    refine (f_pay2_at (k3_pay1 (F := Ideal)) (iblk3 V c 0 ⟨0, hn⟩) q).trans ?_
    rw [f_pay1_at q, zero_add, Fin.sum_univ_one]
    exact Finset.sum_congr rfl fun r _ => f_iblk_at V c H hH ⟨0, hn⟩ r q
  | n + 1, hn => by
    refine (congrFun (scr3_succ V c n hn) (ix2 (0 : Fin 1) q)).trans ?_
    refine (f_pay2_at (outsAt3 V c n (Nat.lt_of_succ_lt hn)).2 (iblk3 V c 0 ⟨n + 1, hn⟩) q).trans ?_
    rw [f_scr_at c H hH q n (Nat.lt_of_succ_lt hn),
      f_sum_tiles_succ (fun t => ∑ r : Fin 5000, f_col H q (5000 * t + r.val)) n]
    exact congrArg (_ + ·) (Finset.sum_congr rfl fun r _ => f_iblk_at V c H hH ⟨n + 1, hn⟩ r q)

/-- After the last point the accumulator holds, at column `q`, the sum of the column over all the rows. -/
theorem f_scr_last (c : Dev nD) (H : S100000x64.Idx → EReal) (hH : V c main_v44 = H) (q : Fin 64) :
    (outsAt3 V c 19 f_lt19).2 (ix2 (0 : Fin 1) q) = ∑ n : Fin 100000, H (ix2 n q) := by
  rw [f_scr_at V c H hH q 19 f_lt19, ← f_sum_tiles fun n : Fin 100000 => H (ix2 n q)]
  refine Finset.sum_congr rfl fun t _ => Finset.sum_congr rfl fun r _ => ?_
  unfold f_col
  exact dif_pos (f_tile_row_lt t r)

/-- THE OUTPUT ARRAY after the region: its one block is written back at the last point only, so it holds what the
    body left in the output's buffer there. -/
theorem f_arr_last (c : Dev nD) :
    ((dat3 V c).arrAt 1 cfg3.N : S1x64.Idx → EReal) = (outsAt3 V c 19 f_lt19).1 := by
  have h19 : (cfg3.win 1).flush ⟨19, f_lt19⟩ = true := (flush3_1 ⟨19, f_lt19⟩).mpr rfl
  have hone : ∀ t : Fin cfg3.N, (cfg3.win 1).flush t = true → t = ⟨19, f_lt19⟩ := fun t hf => by
    have h1 := (flush3_1 t).mp hf
    have h2 : t.val < 20 := lt_of_lt_of_eq t.isLt f_N3
    exact Fin.ext (by show t.val = 19; omega)
  have hread := (dat3 V c).read_blk_arrAt_eq_flushed 1
    (fun t t' hf hf' hne => absurd ((hone t hf).trans (hone t' hf').symm) hne) cfg3.N ⟨19, f_lt19⟩ f_lt19 h19
  obtain ⟨-, -, e2, e3⟩ := f_idx3 ⟨19, f_lt19⟩
  funext j
  have hemb : ((cfg3.win 1).blk ⟨19, f_lt19⟩).view.emb j = j := by
    funext a; apply Fin.ext
    match a with
    | ⟨0, _⟩ =>
      show win3_1.index ⟨19, f_lt19⟩ (0 : Fin 2) * 1 + 1 * (j 0).val = (j 0).val
      omega
    | ⟨1, _⟩ =>
      show win3_1.index ⟨19, f_lt19⟩ (1 : Fin 2) * 64 + 1 * (j 1).val = (j 1).val
      omega
  have h1 : ((dat3 V c).arrAt 1 cfg3.N : S1x64.Idx → EReal) (((cfg3.win 1).blk ⟨19, f_lt19⟩).view.emb j)
      = ((dat3 V c).after 1 ⟨19, f_lt19⟩ : S1x64.Idx → EReal) j := congrFun hread j
  rw [hemb, after3_1] at h1
  exact h1

/-- REGION 3 AND THE FINAL RESHAPE at the ideal values: when the region's input array is the reference's last layer,
    the reshaped output array is the reference's mean stage. -/
theorem region3_val (c : Dev nD) (a0 : (⟨Cert.ReferenceIdeal.S100000x2, .f32⟩ : BufTy).Contents (Elt Ideal)) (a1 a2 : (⟨Cert.ReferenceIdeal.S1200000, .i32⟩ : BufTy).Contents (Elt Ideal)) (a3 : (⟨Cert.ReferenceIdeal.S2x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal)) (a11 : (⟨Cert.ReferenceIdeal.S64x64, .f32⟩ : BufTy).Contents (Elt Ideal)) (a12 : (⟨Cert.ReferenceIdeal.S64, .f32⟩ : BufTy).Contents (Elt Ideal)) (a13 : (⟨Cert.ReferenceIdeal.S64x64, .f32⟩ : BufTy).Contents (Elt Ideal)) (a14 : (⟨Cert.ReferenceIdeal.S64, .f32⟩ : BufTy).Contents (Elt Ideal))
    (hh : V c main_v44 = Cert.ReferenceIdeal.Read.val_main_v62 (F := Ideal) a0 a1 a2 a3 a4 a5 a6 a7 a8 a9 a10 a11 a12 a13 a14) :
    shapeCast S64 ((dat3 V c).arrAt 1 cfg3.N) shapeCasts_S1x64_S64
      = Cert.ReferenceIdeal.Read.val_main_v65 (F := Ideal) a0 a1 a2 a3 a4 a5 a6 a7 a8 a9 a10 a11 a12 a13 a14 := by
  funext i
  obtain ⟨q, rfl⟩ : ∃ q : Fin 64, i = ix1 q := ⟨i 0, eq_ix1 i⟩
  rw [f_v65_at]
  refine (shapeCast_1a_a_apply ((dat3 V c).arrAt 1 cfg3.N : S1x64.Idx → EReal) shapeCasts_S1x64_S64 q).trans ?_
  rw [f_arr_last V c, out3_last V c f_lt19]
  refine (f_pay3_at (outsAt3 V c 19 f_lt19).2 q).trans ?_
  rw [f_scr_last V c _ hh q]
  rfl

end Cert.Bridge.Pool

end
-- ==== Proof.Final.lean ====
/-
  The kernel's program computes the reference's result: the chain from the launch contents to the result vector.

  Between its items the program's buffers hold, in turn: after the host's first stretch the two-column neighbour sum of
  the input features, the rounded weights and the one-row biases; after the first layer's kernel the reference's first
  layer (every node's row through the two dense layers); after the next stretch the 64-column neighbour sum of that
  array, which the reference forms of the same array by the same gather and scatter-add; and so on through the second and
  third layers; after the pooling kernel and the last reshape the mean over the nodes.  Each step is one fact
  "this buffer at this boundary is this stage of the reference, applied to the launch contents of the arguments"; a
  buffer that no stretch writes and that is no array of a kernel is still at its launch contents.
-/
import proofs.«110569_j70806830841987_1_alg».proof.Proof.KI.Run
import proofs.«110569_j70806830841987_1_alg».proof.Proof.Gen.KernelIdeal.Regions
import proofs.«110569_j70806830841987_1_alg».proof.Proof.Gen.ReferenceIdeal.Read
import proofs.«110569_j70806830841987_1_alg».proof.Proof.Val.Host
import proofs.«110569_j70806830841987_1_alg».proof.Proof.Val.Region0
import proofs.«110569_j70806830841987_1_alg».proof.Proof.Val.Region1
import proofs.«110569_j70806830841987_1_alg».proof.Proof.Val.Region2
import proofs.«110569_j70806830841987_1_alg».proof.Proof.Val.Pool
import Idealize.ShloMosaic.Lib.ValueIdx
import Idealize.ShloMosaic.Lib.ValueLayout
import Idealize.ShloMosaic.Lib.StableHlo.Run

set_option maxRecDepth 16384

noncomputable section

namespace Cert.Bridge.Final

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## What no item touches is still at its launch contents -/

/-- A buffer the first host stretch does not write is as launched after it. -/
theorem keep1 (r : Ref sig .tc) (h0 : r ∉ hostOps0_W) : W1 m ρ c (Proc.devRef .tc r) = W0 m ρ c (Proc.devRef .tc r) :=
  StableHlo.after_of_writes_sub hostOps0 _ hostOps0_writes h0

/-- Nor does the first layer's kernel change it, unless it is one of that kernel's arrays. -/
theorem keep2 (r : Ref sig .tc) (h0 : r ∉ hostOps0_W) (s0 : ∀ w, Pipeline.arrRef spec0 w ≠ r) : W2 m ρ c (Proc.devRef .tc r) = W0 m ρ c (Proc.devRef .tc r) :=
  (W2_of_ne m ρ c r s0).trans (keep1 m ρ c r h0)

theorem keep3 (r : Ref sig .tc) (h0 : r ∉ hostOps0_W) (s0 : ∀ w, Pipeline.arrRef spec0 w ≠ r) (h1 : r ∉ hostOps1_W) :
    W3 m ρ c (Proc.devRef .tc r) = W0 m ρ c (Proc.devRef .tc r) :=
  (StableHlo.after_of_writes_sub hostOps1 _ hostOps1_writes h1).trans (keep2 m ρ c r h0 s0)

theorem keep4 (r : Ref sig .tc) (h0 : r ∉ hostOps0_W) (s0 : ∀ w, Pipeline.arrRef spec0 w ≠ r) (h1 : r ∉ hostOps1_W)
    (s1 : ∀ w, Pipeline.arrRef spec1 w ≠ r) : W4 m ρ c (Proc.devRef .tc r) = W0 m ρ c (Proc.devRef .tc r) :=
  (W4_of_ne m ρ c r s1).trans (keep3 m ρ c r h0 s0 h1)

/-! ## The layers, one after the other -/

/-- After the first layer's kernel its output array holds the reference's first layer. -/
theorem e2 : W2 m ρ c (Proc.devRef .tc main_v14) = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W2_arr m ρ c 6).trans (Cert.Bridge.Layer.region0_val (V1 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (keep1 m ρ c main_arg0 (by decide))
    (Cert.Bridge.Host.s0_v9 (F := Ideal) (W0 m ρ c))
    (Cert.Bridge.Host.s0_v10 (F := Ideal) (W0 m ρ c))
    (fun k => (congrFun (Cert.Bridge.Host.s0_v12 (F := Ideal) (W0 m ρ c)) (ix2 0 k)).trans (shapeCast_a_1a_apply _ _ 0 k))
    (Cert.Bridge.Host.s0_v11 (F := Ideal) (W0 m ρ c))
    (fun k => (congrFun (Cert.Bridge.Host.s0_v13 (F := Ideal) (W0 m ρ c)) (ix2 0 k)).trans (shapeCast_a_1a_apply _ _ 0 k)))

/-- The neighbour sum the host then forms of it is the reference's. -/
theorem e3_agg : W3 m ρ c (Proc.devRef .tc main_v24) = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (Cert.Bridge.Host.s1_v24 (F := Ideal) (W2 m ρ c)).trans (by
    rw [e2 m ρ c, keep2 m ρ c main_arg1 (by decide) (by decide), keep2 m ρ c main_arg2 (by decide) (by decide)]
    exact (Cert.Bridge.Host.v30_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).symm)

theorem e3_h : W3 m ρ c (Proc.devRef .tc main_v14) = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (StableHlo.after_of_writes_sub hostOps1 _ hostOps1_writes (by decide)).trans (e2 m ρ c)

/-- After the second layer's kernel its output array holds the reference's second layer. -/
theorem e4 : W4 m ρ c (Proc.devRef .tc main_v29) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W4_arr m ρ c 6).trans (Cert.Bridge.Layer.region1_val (V3 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    (e3_h m ρ c) (e3_agg m ρ c)
    ((Cert.Bridge.Host.s1_v25 (F := Ideal) (W2 m ρ c)).trans (keep2 m ρ c main_arg7 (by decide) (by decide)))
    (fun k => (congrFun (Cert.Bridge.Host.s1_v27 (F := Ideal) (W2 m ρ c)) (ix2 0 k)).trans
      ((shapeCast_a_1a_apply _ _ 0 k).trans (congrFun (keep2 m ρ c main_arg8 (by decide) (by decide)) (ix1 k))))
    ((Cert.Bridge.Host.s1_v26 (F := Ideal) (W2 m ρ c)).trans (keep2 m ρ c main_arg9 (by decide) (by decide)))
    (fun k => (congrFun (Cert.Bridge.Host.s1_v28 (F := Ideal) (W2 m ρ c)) (ix2 0 k)).trans
      ((shapeCast_a_1a_apply _ _ 0 k).trans (congrFun (keep2 m ρ c main_arg10 (by decide) (by decide)) (ix1 k)))))

theorem e5_agg : W5 m ρ c (Proc.devRef .tc main_v39) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (Cert.Bridge.Host.s2_v39 (F := Ideal) (W4 m ρ c)).trans (by
    rw [e4 m ρ c, keep4 m ρ c main_arg1 (by decide) (by decide) (by decide) (by decide), keep4 m ρ c main_arg2 (by decide) (by decide) (by decide) (by decide)]
    exact (Cert.Bridge.Host.v51_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).symm)

theorem e5_h : W5 m ρ c (Proc.devRef .tc main_v29) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (StableHlo.after_of_writes_sub hostOps2 _ hostOps2_writes (by decide)).trans (e4 m ρ c)

/-- After the third layer's kernel its output array holds the reference's third layer. -/
theorem e6 : W6 m ρ c (Proc.devRef .tc main_v44) = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (W6_arr m ρ c 6).trans (Cert.Bridge.Layer.region2_val (V5 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    (e5_h m ρ c) (e5_agg m ρ c)
    ((Cert.Bridge.Host.s2_v40 (F := Ideal) (W4 m ρ c)).trans (keep4 m ρ c main_arg11 (by decide) (by decide) (by decide) (by decide)))
    (fun k => (congrFun (Cert.Bridge.Host.s2_v42 (F := Ideal) (W4 m ρ c)) (ix2 0 k)).trans
      ((shapeCast_a_1a_apply _ _ 0 k).trans (congrFun (keep4 m ρ c main_arg12 (by decide) (by decide) (by decide) (by decide)) (ix1 k))))
    ((Cert.Bridge.Host.s2_v41 (F := Ideal) (W4 m ρ c)).trans (keep4 m ρ c main_arg13 (by decide) (by decide) (by decide) (by decide)))
    (fun k => (congrFun (Cert.Bridge.Host.s2_v43 (F := Ideal) (W4 m ρ c)) (ix2 0 k)).trans
      ((shapeCast_a_1a_apply _ _ 0 k).trans (congrFun (keep4 m ρ c main_arg14 (by decide) (by decide) (by decide) (by decide)) (ix1 k)))))

/-- The result vector is the reference's mean of the third layer. -/
theorem e8 : W8 m ρ c (Proc.devRef .tc main_v46) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (Cert.Bridge.Host.s4_v46 (F := Ideal) (W7 m ρ c)).trans (by
    rw [W7_arr m ρ c 1]
    exact Cert.Bridge.Pool.region3_val (V6 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (e6 m ρ c))

end Cert.Bridge.Final

namespace Cert.Bridge.Final

open Cert.KernelIdeal Cert.KernelIdeal.Gen Cert.KernelIdeal.Hand
open Idealize.ShloMosaic Idealize.ShloMosaic.TcCoe Idealize.SL.Sem

/-- Every weakly fair execution of the kernel's program at the ideal instance ends, faulting nowhere, with its result
    vector at the reference's mean stage of the launch contents of the arguments, and with every argument as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun r h c =>
    ⟨(h c _ (mem_uc main_v46 (by decide))).trans (e8 m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩)
    (run_all m ρ)

end Cert.Bridge.Final

end
-- ==== Proof.lean ====
/-
  The certificate: a three-layer graph-isomorphism network tiled over the nodes, against its plain reference.

  Each layer sends a node's features plus the sum of its in-neighbours' features through two dense layers, each followed
  by the positive part; the result is the mean over the 100000 nodes.  The kernel's program leaves the neighbour sums to
  the host (a gather and a scatter-add, the same operations the reference performs), computes each layer on blocks of
  5000 nodes, and forms the mean by adding the column sums of the blocks into an accumulator that is scaled by the named
  constant 1/100000 at the last block.  On the extended reals the change of float format is the identity, a block's rows
  are rows of the whole array, the accumulated column sums are one sum over all the rows, and the product with 1/100000 is
  the reference's quotient by 100000: the two programs compute one function.
  * The three frames: both kernel programs run to the end and leave their arguments as launched (`Hand.frame`, the run of
    the program's eight items over the library's launch of several kernel regions); the reference's is its run.
  * The sanctioned idealization has one entry: the kernel's literal 9.99999974E-6 is named 1/100000.
  * The value: the kernel's run names its result vector as the reference's last stage of the launch arguments
    (`Cert.Bridge.Final.kernel_run`), the reference's run names its own; the memories agree on the arguments.
-/
import proofs.«110569_j70806830841987_1_alg».proof.Defs
import proofs.«110569_j70806830841987_1_alg».proof.Proof.Gen.Kernel
import proofs.«110569_j70806830841987_1_alg».proof.Proof.Gen.KernelIdeal
import proofs.«110569_j70806830841987_1_alg».proof.Proof.Gen.ReferenceIdeal
import proofs.«110569_j70806830841987_1_alg».proof.Proof.Gen.ReferenceIdeal.Read
import proofs.«110569_j70806830841987_1_alg».proof.Proof.Gen.Pre_finite_inputs
import proofs.«110569_j70806830841987_1_alg».proof.Proof.K.Run
import proofs.«110569_j70806830841987_1_alg».proof.Proof.Final
import Idealize.ShloMosaic.PureOps.IdealRules
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hR : Cert.ReferenceIdeal.Facts] [hP : Cert.Pre_finite_inputs.Facts]

/-- The word-level program runs and keeps its arguments. -/
theorem frame_k : Cert.frame_Kernel := fun m ρ _ => Cert.Kernel.Hand.frame (F := Bits) m ρ

/-- So does the idealized one: its run, the result forgotten. -/
theorem frame_ki : Cert.frame_KernelIdeal := fun m ρ _ =>
  (θ_run (Cert.KernelIdeal.defs (F := Ideal)) _ _).mono (fun _ h c => (h c).2) (Cert.Bridge.Final.kernel_run m ρ)

/-- And the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the table gives the name `inv_100000` the value 1/100000. -/
theorem preserves : Cert.preserves_Kernel_KernelIdeal :=
  IdealRules.named_const.statement Cert.KernelIdeal.κ "inv_100000" .f32 0x3727C5AC#32 ((1 / 100000 : ℝ) : EReal) rfl

/-- Both runs end with the reference's last stage of arguments on which the two memories agree. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.Bridge.Final.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  obtain ⟨h0, h1, h2, h3, h4, h5, h6, h7, h8, h9, h10, h11, h12, h13, h14⟩ := hagree c
  rw [h0, h1, h2, h3, h4, h5, h6, h7, h8, h9, h10, h11, h12, h13, h14]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
